-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v21_0)) (v1 : (c : Dev Cert.KernelIdeal.nD) → Buf (Elt Ideal) ((c.tc : Thread Cert.KernelIdeal.nD Cert.KernelIdeal.τ).loc Cert.KernelIdeal.main_v21_1)) (v2 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21_0) = v0 c
          ∧ r.2.mem ((c.tc : Thread Cert.KernelIdeal.nD Cert.KernelIdeal.τ).loc Cert.KernelIdeal.main_v21_1) = v1 c
          ∧ r.2.mem ((c.tc : Thread Cert.KernelIdeal.nD Cert.KernelIdeal.τ).loc Cert.KernelIdeal.main_v22) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_v97) = v1 c
          ∧ r.2.mem ((c.tc : Thread Cert.ReferenceIdeal.nD Cert.ReferenceIdeal.τ).loc Cert.ReferenceIdeal.main_v37) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x160000 : Shape := ⟨2, ![2, 160000]⟩
abbrev S160000 : Shape := ⟨1, ![160000]⟩
abbrev S160000x9 : Shape := ⟨2, ![160000, 9]⟩
abbrev S10000x4 : Shape := ⟨2, ![10000, 4]⟩
abbrev S8 : Shape := ⟨1, ![8]⟩
abbrev S16x128 : Shape := ⟨2, ![16, 128]⟩
abbrev S128x256 : Shape := ⟨2, ![128, 256]⟩
abbrev S256x512 : Shape := ⟨2, ![256, 512]⟩
abbrev S512x1024 : Shape := ⟨2, ![512, 1024]⟩
abbrev S1024x96 : Shape := ⟨2, ![1024, 96]⟩
abbrev S_ : Shape := ⟨0, ![]⟩

class Facts : Prop where
  bcast_S_S160000x9 : S_.BroadcastsInDim S160000x9 (![] : Fin 0 → Fin S160000x9.rank)
  reducesTo_S160000x9_S_d0_1 : S160000x9.ReducesTo [0, 1] S_
  h_S_ : 0 < S_.numel
  bcast_S_S160000 : S_.BroadcastsInDim S160000 (![] : Fin 0 → Fin S160000.rank)
  reducesTo_S160000_S_d0 : S160000.ReducesTo [0] S_
  bcast_S_S10000x4 : S_.BroadcastsInDim S10000x4 (![] : Fin 0 → Fin S10000x4.rank)
  reducesTo_S10000x4_S_d0_1 : S10000x4.ReducesTo [0, 1] S_
  bcast_S_S8 : S_.BroadcastsInDim S8 (![] : Fin 0 → Fin S8.rank)
  reducesTo_S8_S_d0 : S8.ReducesTo [0] S_
  bcast_S_S16x128 : S_.BroadcastsInDim S16x128 (![] : Fin 0 → Fin S16x128.rank)
  reducesTo_S16x128_S_d0_1 : S16x128.ReducesTo [0, 1] S_
  bcast_S_S128x256 : S_.BroadcastsInDim S128x256 (![] : Fin 0 → Fin S128x256.rank)
  reducesTo_S128x256_S_d0_1 : S128x256.ReducesTo [0, 1] S_
  bcast_S_S256x512 : S_.BroadcastsInDim S256x512 (![] : Fin 0 → Fin S256x512.rank)
  reducesTo_S256x512_S_d0_1 : S256x512.ReducesTo [0, 1] S_
  bcast_S_S512x1024 : S_.BroadcastsInDim S512x1024 (![] : Fin 0 → Fin S512x1024.rank)
  reducesTo_S512x1024_S_d0_1 : S512x1024.ReducesTo [0, 1] S_
  bcast_S_S1024x96 : S_.BroadcastsInDim S1024x96 (![] : Fin 0 → Fin S1024x96.rank)
  reducesTo_S1024x96_S_d0_1 : S1024x96.ReducesTo [0, 1] S_

variable [Facts]

def fn_part2 {F : FTy → Type} [FloatOps F] (main_arg9 : FVec F S512x1024 .f32) (main_arg10 : FVec F S1024x96 .f32) (main_v33 : IVec S_ 1) : IVec S_ 1 :=
  let main_v34 : FVec F S512x1024 .f32 := Host.absf main_arg9
  let main_cst_12 : FVec F S_ .f32 := constant S_ .f32 0x7F800000#32
  let main_v35 : FVec F S512x1024 .f32 := broadcastInDim S512x1024 ![] bcast_S_S512x1024 main_cst_12
  let main_v36 : IVec S512x1024 1 := cmpf .olt main_v34 main_v35
  let main_c_13 : IVec S_ 1 := constantI S_ 1 1#1
  let main_v37 : IVec S_ 1 := (fun x v => Host.reduce IntOp.andi x v reducesTo_S512x1024_S_d0_1 h_S_) main_v36 main_c_13
  let main_v38 : IVec S_ 1 := andi main_v33 main_v37
  let main_v39 : FVec F S1024x96 .f32 := Host.absf main_arg10
  let main_cst_14 : FVec F S_ .f32 := constant S_ .f32 0x7F800000#32
  let main_v40 : FVec F S1024x96 .f32 := broadcastInDim S1024x96 ![] bcast_S_S1024x96 main_cst_14
  let main_v41 : IVec S1024x96 1 := cmpf .olt main_v39 main_v40
  let main_c_15 : IVec S_ 1 := constantI S_ 1 1#1
  let main_v42 : IVec S_ 1 := (fun x v => Host.reduce IntOp.andi x v reducesTo_S1024x96_S_d0_1 h_S_) main_v41 main_c_15
  let main_v43 : IVec S_ 1 := andi main_v38 main_v42
  main_v43

def fn_part1 {F : FTy → Type} [FloatOps F] (main_arg6 : FVec F S16x128 .f32) (main_arg7 : FVec F S128x256 .f32) (main_arg8 : FVec F S256x512 .f32) (main_arg9 : FVec F S512x1024 .f32) (main_arg10 : FVec F S1024x96 .f32) (main_v13 : IVec S_ 1) (main_v16 : IVec S8 1) : IVec S_ 1 :=
  let main_c_5 : IVec S_ 1 := constantI S_ 1 1#1
  let main_v17 : IVec S_ 1 := (fun x v => Host.reduce IntOp.andi x v reducesTo_S8_S_d0 h_S_) main_v16 main_c_5
  let main_v18 : IVec S_ 1 := andi main_v13 main_v17
  let main_v19 : FVec F S16x128 .f32 := Host.absf main_arg6
  let main_cst_6 : FVec F S_ .f32 := constant S_ .f32 0x7F800000#32
  let main_v20 : FVec F S16x128 .f32 := broadcastInDim S16x128 ![] bcast_S_S16x128 main_cst_6
  let main_v21 : IVec S16x128 1 := cmpf .olt main_v19 main_v20
  let main_c_7 : IVec S_ 1 := constantI S_ 1 1#1
  let main_v22 : IVec S_ 1 := (fun x v => Host.reduce IntOp.andi x v reducesTo_S16x128_S_d0_1 h_S_) main_v21 main_c_7
  let main_v23 : IVec S_ 1 := andi main_v18 main_v22
  let main_v24 : FVec F S128x256 .f32 := Host.absf main_arg7
  let main_cst_8 : FVec F S_ .f32 := constant S_ .f32 0x7F800000#32
  let main_v25 : FVec F S128x256 .f32 := broadcastInDim S128x256 ![] bcast_S_S128x256 main_cst_8
  let main_v26 : IVec S128x256 1 := cmpf .olt main_v24 main_v25
  let main_c_9 : IVec S_ 1 := constantI S_ 1 1#1
  let main_v27 : IVec S_ 1 := (fun x v => Host.reduce IntOp.andi x v reducesTo_S128x256_S_d0_1 h_S_) main_v26 main_c_9
  let main_v28 : IVec S_ 1 := andi main_v23 main_v27
  let main_v29 : FVec F S256x512 .f32 := Host.absf main_arg8
  let main_cst_10 : FVec F S_ .f32 := constant S_ .f32 0x7F800000#32
  let main_v30 : FVec F S256x512 .f32 := broadcastInDim S256x512 ![] bcast_S_S256x512 main_cst_10
  let main_v31 : IVec S256x512 1 := cmpf .olt main_v29 main_v30
  let main_c_11 : IVec S_ 1 := constantI S_ 1 1#1
  let main_v32 : IVec S_ 1 := (fun x v => Host.reduce IntOp.andi x v reducesTo_S256x512_S_d0_1 h_S_) main_v31 main_c_11
  let main_v33 : IVec S_ 1 := andi main_v28 main_v32
  fn_part2 (F := F) main_arg9 main_arg10 main_v33

def fn {F : FTy → Type} [FloatOps F] (main_arg0 : IVec S2x160000 32) (main_arg1 : IVec S160000 32) (main_arg2 : FVec F S160000x9 .f32) (main_arg3 : FVec F S160000 .f32) (main_arg4 : FVec F S10000x4 .f32) (main_arg5 : FVec F S8 .f32) (main_arg6 : FVec F S16x128 .f32) (main_arg7 : FVec F S128x256 .f32) (main_arg8 : FVec F S256x512 .f32) (main_arg9 : FVec F S512x1024 .f32) (main_arg10 : FVec F S1024x96 .f32) : IVec S_ 1 :=
  let main_v0 : FVec F S160000x9 .f32 := Host.absf main_arg2
  let main_cst : FVec F S_ .f32 := constant S_ .f32 0x7F800000#32
  let main_v1 : FVec F S160000x9 .f32 := broadcastInDim S160000x9 ![] bcast_S_S160000x9 main_cst
  let main_v2 : IVec S160000x9 1 := cmpf .olt main_v0 main_v1
  let main_c : IVec S_ 1 := constantI S_ 1 1#1
  let main_v3 : IVec S_ 1 := (fun x v => Host.reduce IntOp.andi x v reducesTo_S160000x9_S_d0_1 h_S_) main_v2 main_c
  let main_v4 : FVec F S160000 .f32 := Host.absf main_arg3
  let main_cst_0 : FVec F S_ .f32 := constant S_ .f32 0x7F800000#32
  let main_v5 : FVec F S160000 .f32 := broadcastInDim S160000 ![] bcast_S_S160000 main_cst_0
  let main_v6 : IVec S160000 1 := cmpf .olt main_v4 main_v5
  let main_c_1 : IVec S_ 1 := constantI S_ 1 1#1
  let main_v7 : IVec S_ 1 := (fun x v => Host.reduce IntOp.andi x v reducesTo_S160000_S_d0 h_S_) main_v6 main_c_1
  let main_v8 : IVec S_ 1 := andi main_v3 main_v7
  let main_v9 : FVec F S10000x4 .f32 := Host.absf main_arg4
  let main_cst_2 : FVec F S_ .f32 := constant S_ .f32 0x7F800000#32
  let main_v10 : FVec F S10000x4 .f32 := broadcastInDim S10000x4 ![] bcast_S_S10000x4 main_cst_2
  let main_v11 : IVec S10000x4 1 := cmpf .olt main_v9 main_v10
  let main_c_3 : IVec S_ 1 := constantI S_ 1 1#1
  let main_v12 : IVec S_ 1 := (fun x v => Host.reduce IntOp.andi x v reducesTo_S10000x4_S_d0_1 h_S_) main_v11 main_c_3
  let main_v13 : IVec S_ 1 := andi main_v8 main_v12
  let main_v14 : FVec F S8 .f32 := Host.absf main_arg5
  let main_cst_4 : FVec F S_ .f32 := constant S_ .f32 0x7F800000#32
  let main_v15 : FVec F S8 .f32 := broadcastInDim S8 ![] bcast_S_S8 main_cst_4
  let main_v16 : IVec S8 1 := cmpf .olt main_v14 main_v15
  fn_part1 (F := F) main_arg6 main_arg7 main_arg8 main_arg9 main_arg10 main_v13 main_v16
-- ==== Kernel.lean ====
abbrev S2x160000 : Shape := ⟨2, ![2, 160000]⟩
abbrev S160000 : Shape := ⟨1, ![160000]⟩
abbrev S160000x9 : Shape := ⟨2, ![160000, 9]⟩
abbrev S10000x4 : Shape := ⟨2, ![10000, 4]⟩
abbrev S8 : Shape := ⟨1, ![8]⟩
abbrev S16x128 : Shape := ⟨2, ![16, 128]⟩
abbrev S128x256 : Shape := ⟨2, ![128, 256]⟩
abbrev S256x512 : Shape := ⟨2, ![256, 512]⟩
abbrev S512x1024 : Shape := ⟨2, ![512, 1024]⟩
abbrev S1024x96 : Shape := ⟨2, ![1024, 96]⟩
abbrev S1x160000 : Shape := ⟨2, ![1, 160000]⟩
abbrev S_ : Shape := ⟨0, ![]⟩
abbrev S160000x1 : Shape := ⟨2, ![160000, 1]⟩
abbrev S160000x4 : Shape := ⟨2, ![160000, 4]⟩
abbrev S160000x8 : Shape := ⟨2, ![160000, 8]⟩
abbrev S1x8 : Shape := ⟨2, ![1, 8]⟩
abbrev S160000x1024 : Shape := ⟨2, ![160000, 1024]⟩
abbrev S160000x288 : Shape := ⟨2, ![160000, 288]⟩
abbrev S1000x8 : Shape := ⟨2, ![1000, 8]⟩
abbrev S1000x1 : Shape := ⟨2, ![1000, 1]⟩
abbrev S1000x9 : Shape := ⟨2, ![1000, 9]⟩
abbrev S1000x1024 : Shape := ⟨2, ![1000, 1024]⟩
abbrev S1000x288 : Shape := ⟨2, ![1000, 288]⟩
abbrev S1000x16 : Shape := ⟨2, ![1000, 16]⟩
abbrev S1000x128 : Shape := ⟨2, ![1000, 128]⟩
abbrev S1000x256 : Shape := ⟨2, ![1000, 256]⟩
abbrev S1000x512 : Shape := ⟨2, ![1000, 512]⟩
abbrev S1000x96 : Shape := ⟨2, ![1000, 96]⟩
abbrev S1000x32 : Shape := ⟨2, ![1000, 32]⟩
abbrev S1000x32x1 : Shape := ⟨3, ![1000, 32, 1]⟩
abbrev S1000x1x1 : Shape := ⟨3, ![1000, 1, 1]⟩
abbrev S1000x3 : Shape := ⟨2, ![1000, 3]⟩
abbrev S1000x1x3 : Shape := ⟨3, ![1000, 1, 3]⟩
abbrev S1000x32x3 : Shape := ⟨3, ![1000, 32, 3]⟩
abbrev S1000x5 : Shape := ⟨2, ![1000, 5]⟩
abbrev S1000x1x5 : Shape := ⟨3, ![1000, 1, 5]⟩
abbrev S1000x32x5 : Shape := ⟨3, ![1000, 32, 5]⟩
abbrev S1000x160 : Shape := ⟨2, ![1000, 160]⟩

abbrev nBuf : Space → Nat
  | .hbm => 40
  | .vmem => 18
  | .smem => 0
  | _ => 0

abbrev bufTy : (tb : Table) → Fin (tcTables nBuf tb) → BufTy
  | .hbm, ⟨0, _⟩ => ⟨S2x160000, .i32⟩
  | .hbm, ⟨1, _⟩ => ⟨S160000, .i32⟩
  | .hbm, ⟨2, _⟩ => ⟨S160000x9, .f32⟩
  | .hbm, ⟨3, _⟩ => ⟨S160000, .f32⟩
  | .hbm, ⟨4, _⟩ => ⟨S10000x4, .f32⟩
  | .hbm, ⟨5, _⟩ => ⟨S8, .f32⟩
  | .hbm, ⟨6, _⟩ => ⟨S16x128, .f32⟩
  | .hbm, ⟨7, _⟩ => ⟨S128x256, .f32⟩
  | .hbm, ⟨8, _⟩ => ⟨S256x512, .f32⟩
  | .hbm, ⟨9, _⟩ => ⟨S512x1024, .f32⟩
  | .hbm, ⟨10, _⟩ => ⟨S1024x96, .f32⟩
  | .hbm, ⟨11, _⟩ => ⟨S1x160000, .i32⟩
  | .hbm, ⟨12, _⟩ => ⟨S160000, .i32⟩
  | .hbm, ⟨13, _⟩ => ⟨S1x160000, .i32⟩
  | .hbm, ⟨14, _⟩ => ⟨S160000, .i32⟩
  | .hbm, ⟨15, _⟩ => ⟨S_, .i32⟩
  | .hbm, ⟨16, _⟩ => ⟨S160000, .i32⟩
  | .hbm, ⟨17, _⟩ => ⟨S160000, .i1⟩
  | .hbm, ⟨18, _⟩ => ⟨S_, .i32⟩
  | .hbm, ⟨19, _⟩ => ⟨S160000, .i32⟩
  | .hbm, ⟨20, _⟩ => ⟨S160000, .i32⟩
  | .hbm, ⟨21, _⟩ => ⟨S160000, .i32⟩
  | .hbm, ⟨22, _⟩ => ⟨S160000x1, .i32⟩
  | .hbm, ⟨23, _⟩ => ⟨S160000x4, .f32⟩
  | .hbm, ⟨24, _⟩ => ⟨S_, .i32⟩
  | .hbm, ⟨25, _⟩ => ⟨S160000, .i32⟩
  | .hbm, ⟨26, _⟩ => ⟨S160000, .i1⟩
  | .hbm, ⟨27, _⟩ => ⟨S_, .i32⟩
  | .hbm, ⟨28, _⟩ => ⟨S160000, .i32⟩
  | .hbm, ⟨29, _⟩ => ⟨S160000, .i32⟩
  | .hbm, ⟨30, _⟩ => ⟨S160000, .i32⟩
  | .hbm, ⟨31, _⟩ => ⟨S160000x1, .i32⟩
  | .hbm, ⟨32, _⟩ => ⟨S160000x4, .f32⟩
  | .hbm, ⟨33, _⟩ => ⟨S160000x8, .f32⟩
  | .hbm, ⟨34, _⟩ => ⟨S160000x1, .f32⟩
  | .hbm, ⟨35, _⟩ => ⟨S1x8, .f32⟩
  | .hbm, ⟨36, _⟩ => ⟨S160000x1024, .f32⟩
  | .hbm, ⟨37, _⟩ => ⟨S160000x288, .f32⟩
  | .hbm, ⟨38, _⟩ => ⟨S160000x1, .f32⟩
  | .hbm, ⟨39, _⟩ => ⟨S160000, .f32⟩
  | .local _ .vmem, ⟨0, _⟩ => ⟨S1000x8, .f32⟩
  | .local _ .vmem, ⟨1, _⟩ => ⟨S1000x8, .f32⟩
  | .local _ .vmem, ⟨2, _⟩ => ⟨S1000x1, .f32⟩
  | .local _ .vmem, ⟨3, _⟩ => ⟨S1000x1, .f32⟩
  | .local _ .vmem, ⟨4, _⟩ => ⟨S1000x9, .f32⟩
  | .local _ .vmem, ⟨5, _⟩ => ⟨S1000x9, .f32⟩
  | .local _ .vmem, ⟨6, _⟩ => ⟨S1x8, .f32⟩
  | .local _ .vmem, ⟨7, _⟩ => ⟨S16x128, .f32⟩
  | .local _ .vmem, ⟨8, _⟩ => ⟨S128x256, .f32⟩
  | .local _ .vmem, ⟨9, _⟩ => ⟨S256x512, .f32⟩
  | .local _ .vmem, ⟨10, _⟩ => ⟨S512x1024, .f32⟩
  | .local _ .vmem, ⟨11, _⟩ => ⟨S1024x96, .f32⟩
  | .local _ .vmem, ⟨12, _⟩ => ⟨S1000x1024, .f32⟩
  | .local _ .vmem, ⟨13, _⟩ => ⟨S1000x1024, .f32⟩
  | .local _ .vmem, ⟨14, _⟩ => ⟨S1000x288, .f32⟩
  | .local _ .vmem, ⟨15, _⟩ => ⟨S1000x288, .f32⟩
  | .local _ .vmem, ⟨16, _⟩ => ⟨S1000x1, .f32⟩
  | .local _ .vmem, ⟨17, _⟩ => ⟨S1000x1, .f32⟩
  | _, _ => ⟨S2x160000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_1 : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21_0 : Ref sig .tc := ⟨.hbm, 36, rfl⟩
abbrev main_v21_1 : Ref sig .tc := ⟨.hbm, 37, rfl⟩
abbrev main_v21_2 : Ref sig .tc := ⟨.hbm, 38, rfl⟩
abbrev main_v22 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![160], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1000x9 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x96 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1000x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1000x288 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1000x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  slices_S2x160000_S1x160000_0_0 : S2x160000.Slices ![0, 0] S1x160000
  shapeCasts_S1x160000_S160000 : S1x160000.ShapeCasts S160000
  slices_S2x160000_S1x160000_1_0 : S2x160000.Slices ![1, 0] S1x160000
  bcast_S_S160000 : S_.BroadcastsInDim S160000 (![] : Fin 0 → Fin S160000.rank)
  bcast_S160000_S160000x1_0 : S160000.BroadcastsInDim S160000x1 (![0] : Fin 1 → Fin S160000x1.rank)
  concatenates_S160000x4_S160000x4_S160000x8_d1 : Shape.Concatenates [S160000x4, S160000x4] S160000x8 1
  shapeCasts_S160000_S160000x1 : S160000.ShapeCasts S160000x1
  shapeCasts_S8_S1x8 : S8.ShapeCasts S1x8
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  inb_S1x8_S1x8_0_0 : ∀ a, (![0, 0] : Fin 2 → Nat) a + S1x8.size a ≤ S1x8.size a
  h_S1x8 : 0 < S1x8.numel
  shapeCasts_S1x8_S1x8 : S1x8.ShapeCasts S1x8
  inb_S1000x8_S1000x8_0_0 : ∀ a, (![0, 0] : Fin 2 → Nat) a + S1000x8.size a ≤ S1000x8.size a
  h_S1000x8 : 0 < S1000x8.numel
  shapeCasts_S1000x8_S1000x8 : S1000x8.ShapeCasts S1000x8
  inb_S1000x9_S1000x9_0_0 : ∀ a, (![0, 0] : Fin 2 → Nat) a + S1000x9.size a ≤ S1000x9.size a
  h_S1000x9 : 0 < S1000x9.numel
  broadcasts_S1x8_S1000x8 : S1x8.Broadcasts S1000x8
  broadcasts_S1000x1_S1000x8 : S1000x1.Broadcasts S1000x8
  natLt_1_32 : 1 < 32
  concatenates_S1000x8_S1000x8_S1000x16_d1 : Shape.Concatenates [S1000x8, S1000x8] S1000x16 1
  inb_S16x128_S16x128_0_0 : ∀ a, (![0, 0] : Fin 2 → Nat) a + S16x128.size a ≤ S16x128.size a
  h_S16x128 : 0 < S16x128.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S256x512_S256x512_0_0 : ∀ a, (![0, 0] : Fin 2 → Nat) a + S256x512.size a ≤ S256x512.size a
  h_S256x512 : 0 < S256x512.numel
  inb_S512x1024_S512x1024_0_0 : ∀ a, (![0, 0] : Fin 2 → Nat) a + S512x1024.size a ≤ S512x1024.size a
  h_S512x1024 : 0 < S512x1024.numel
  broadcasts_S1000x1_S1000x1024 : S1000x1.Broadcasts S1000x1024
  inb_S1024x96_S1024x96_0_0 : ∀ a, (![0, 0] : Fin 2 → Nat) a + S1024x96.size a ≤ S1024x96.size a
  h_S1024x96 : 0 < S1024x96.numel
  slices_S1000x96_o0_0_S1000x32 : S1000x96.Slices ![0, 0] S1000x32
  slices_S1000x9_o0_0_S1000x1 : S1000x9.Slices ![0, 0] S1000x1
  shapeCasts_S1000x32_S1000x32x1 : S1000x32.ShapeCasts S1000x32x1
  shapeCasts_S1000x1_S1000x1x1 : S1000x1.ShapeCasts S1000x1x1
  broadcasts_S1000x1x1_S1000x32x1 : S1000x1x1.Broadcasts S1000x32x1
  shapeCasts_S1000x32x1_S1000x32 : S1000x32x1.ShapeCasts S1000x32
  slices_S1000x96_o0_32_S1000x32 : S1000x96.Slices ![0, 32] S1000x32
  slices_S1000x9_o0_1_S1000x3 : S1000x9.Slices ![0, 1] S1000x3
  shapeCasts_S1000x3_S1000x1x3 : S1000x3.ShapeCasts S1000x1x3
  broadcasts_S1000x32x1_S1000x32x3 : S1000x32x1.Broadcasts S1000x32x3
  broadcasts_S1000x1x3_S1000x32x3 : S1000x1x3.Broadcasts S1000x32x3
  shapeCasts_S1000x32x3_S1000x96 : S1000x32x3.ShapeCasts S1000x96
  slices_S1000x96_o0_64_S1000x32 : S1000x96.Slices ![0, 64] S1000x32
  slices_S1000x9_o0_4_S1000x5 : S1000x9.Slices ![0, 4] S1000x5
  shapeCasts_S1000x5_S1000x1x5 : S1000x5.ShapeCasts S1000x1x5
  broadcasts_S1000x32x1_S1000x32x5 : S1000x32x1.Broadcasts S1000x32x5
  broadcasts_S1000x1x5_S1000x32x5 : S1000x1x5.Broadcasts S1000x32x5
  shapeCasts_S1000x32x5_S1000x160 : S1000x32x5.ShapeCasts S1000x160
  concatenates_S1000x32_S1000x96_S1000x160_S1000x288_d1 : Shape.Concatenates [S1000x32, S1000x96, S1000x160] S1000x288 1
  inb_S1000x1024_S1000x1024_0_0 : ∀ a, (![0, 0] : Fin 2 → Nat) a + S1000x1024.size a ≤ S1000x1024.size a
  h_S1000x1024 : 0 < S1000x1024.numel
  inb_S1000x288_S1000x288_0_0 : ∀ a, (![0, 0] : Fin 2 → Nat) a + S1000x288.size a ≤ S1000x288.size a
  h_S1000x288 : 0 < S1000x288.numel
  shapeCasts_S160000x1_S160000 : S160000x1.ShapeCasts S160000
  gather_S10000x4_S160000x1_S160000x4_1_0_n_n_0_1_14_wf : GatherDims.WF S10000x4 S160000x1 S160000x4 [1] [0] [] [0] [] 1 ![1, 4]
  dot_S1000x16_S16x128_S1000x128_1_0_0_1_n_n_wf : DotDims.WF S1000x16 S16x128 S1000x128 [1] [0] [0] [1] [] []
  dot_S1000x128_S128x256_S1000x256_1_0_0_1_n_n_wf : DotDims.WF S1000x128 S128x256 S1000x256 [1] [0] [0] [1] [] []
  dot_S1000x256_S256x512_S1000x512_1_0_0_1_n_n_wf : DotDims.WF S1000x256 S256x512 S1000x512 [1] [0] [0] [1] [] []
  dot_S1000x512_S512x1024_S1000x1024_1_0_0_1_n_n_wf : DotDims.WF S1000x512 S512x1024 S1000x1024 [1] [0] [0] [1] [] []
  dot_S1000x1024_S1024x96_S1000x96_1_0_0_1_n_n_wf : DotDims.WF S1000x1024 S1024x96 S1000x96 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x8.size a ≤ S160000x8.size a
  hwx0_0 : ∀ i : grid0.Coords, EltTy.bits .f32 = 32 ∨ (Rect.block (s := S160000x8) S1000x8.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x1.size a ≤ S160000x1.size a
  hwx0_1 : ∀ i : grid0.Coords, EltTy.bits .f32 = 32 ∨ (Rect.block (s := S160000x1) S1000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x9.size a ≤ S160000x9.size a
  hwx0_2 : ∀ i : grid0.Coords, EltTy.bits .f32 = 32 ∨ (Rect.block (s := S160000x9) S1000x9.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x8.size a ≤ S1x8.size a
  hwx0_3 : ∀ i : grid0.Coords, EltTy.bits .f32 = 32 ∨ (Rect.block (s := S1x8) S1x8.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16x128.size a ≤ S16x128.size a
  hwx0_4 : ∀ i : grid0.Coords, EltTy.bits .f32 = 32 ∨ (Rect.block (s := S16x128) S16x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x256.size a ≤ S128x256.size a
  hwx0_5 : ∀ i : grid0.Coords, EltTy.bits .f32 = 32 ∨ (Rect.block (s := S128x256) S128x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x512.size a ≤ S256x512.size a
  hwx0_6 : ∀ i : grid0.Coords, EltTy.bits .f32 = 32 ∨ (Rect.block (s := S256x512) S256x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x1024.size a ≤ S512x1024.size a
  hwx0_7 : ∀ i : grid0.Coords, EltTy.bits .f32 = 32 ∨ (Rect.block (s := S512x1024) S512x1024.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1024x96.size a ≤ S1024x96.size a
  hwx0_8 : ∀ i : grid0.Coords, EltTy.bits .f32 = 32 ∨ (Rect.block (s := S1024x96) S1024x96.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1000x1024.size a ≤ S160000x1024.size a
  hwx0_9 : ∀ i : grid0.Coords, EltTy.bits .f32 = 32 ∨ (Rect.block (s := S160000x1024) S1000x1024.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1000x288.size a ≤ S160000x288.size a
  hwx0_10 : ∀ i : grid0.Coords, EltTy.bits .f32 = 32 ∨ (Rect.block (s := S160000x288) S1000x288.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1000x1.size a ≤ S160000x1.size a
  hwx0_11 : ∀ i : grid0.Coords, EltTy.bits .f32 = 32 ∨ (Rect.block (s := S160000x1) S1000x1.size (cc0_transform_11 i) (hinb0_11 i)).WholeWords (EltTy.packing .f32)

variable [Facts₀]

def gather_S10000x4_S160000x1_S160000x4_1_0_n_n_0_1_14 : GatherDims S10000x4 S160000x1 S160000x4 where
  offsetDims := [1]
  collapsedSliceDims := [0]
  operandBatchingDims := []
  startIndicesBatchingDims := []
  startIndexMap := [0]
  indexVectorDim := 1
  sliceSizes := ![1, 4]
  wf := gather_S10000x4_S160000x1_S160000x4_1_0_n_n_0_1_14_wf
def dot_S1000x16_S16x128_S1000x128_1_0_0_1_n_n : DotDims S1000x16 S16x128 S1000x128 where
  lhsContracting := [1]
  rhsContracting := [0]
  lhsNonContracting := [0]
  rhsNonContracting := [1]
  lhsBatch := []
  rhsBatch := []
  wf := dot_S1000x16_S16x128_S1000x128_1_0_0_1_n_n_wf
def dot_S1000x128_S128x256_S1000x256_1_0_0_1_n_n : DotDims S1000x128 S128x256 S1000x256 where
  lhsContracting := [1]
  rhsContracting := [0]
  lhsNonContracting := [0]
  rhsNonContracting := [1]
  lhsBatch := []
  rhsBatch := []
  wf := dot_S1000x128_S128x256_S1000x256_1_0_0_1_n_n_wf
def dot_S1000x256_S256x512_S1000x512_1_0_0_1_n_n : DotDims S1000x256 S256x512 S1000x512 where
  lhsContracting := [1]
  rhsContracting := [0]
  lhsNonContracting := [0]
  rhsNonContracting := [1]
  lhsBatch := []
  rhsBatch := []
  wf := dot_S1000x256_S256x512_S1000x512_1_0_0_1_n_n_wf
def dot_S1000x512_S512x1024_S1000x1024_1_0_0_1_n_n : DotDims S1000x512 S512x1024 S1000x1024 where
  lhsContracting := [1]
  rhsContracting := [0]
  lhsNonContracting := [0]
  rhsNonContracting := [1]
  lhsBatch := []
  rhsBatch := []
  wf := dot_S1000x512_S512x1024_S1000x1024_1_0_0_1_n_n_wf
def dot_S1000x1024_S1024x96_S1000x96_1_0_0_1_n_n : DotDims S1000x1024 S1024x96 S1000x96 where
  lhsContracting := [1]
  rhsContracting := [0]
  lhsNonContracting := [0]
  rhsNonContracting := [1]
  lhsBatch := []
  rhsBatch := []
  wf := dot_S1000x1024_S1024x96_S1000x96_1_0_0_1_n_n_wf

abbrev win0_0 : Pipeline.Window sig grid0 :=
  Pipeline.Window.ofSpec (Memref.whole main_v18) S1000x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S1000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1000x9.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v20) S1x8.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S16x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S128x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg8) S256x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg9) S512x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg10) S1024x96.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v21_0) S1000x1024.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v21_1) S1000x288.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v21_2) S1000x1.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S2x160000 : Shape := ⟨2, ![2, 160000]⟩
abbrev S160000 : Shape := ⟨1, ![160000]⟩
abbrev S160000x9 : Shape := ⟨2, ![160000, 9]⟩
abbrev S10000x4 : Shape := ⟨2, ![10000, 4]⟩
abbrev S8 : Shape := ⟨1, ![8]⟩
abbrev S16x128 : Shape := ⟨2, ![16, 128]⟩
abbrev S128x256 : Shape := ⟨2, ![128, 256]⟩
abbrev S256x512 : Shape := ⟨2, ![256, 512]⟩
abbrev S512x1024 : Shape := ⟨2, ![512, 1024]⟩
abbrev S1024x96 : Shape := ⟨2, ![1024, 96]⟩
abbrev S1x160000 : Shape := ⟨2, ![1, 160000]⟩
abbrev S160000x1 : Shape := ⟨2, ![160000, 1]⟩
abbrev S1x8 : Shape := ⟨2, ![1, 8]⟩
abbrev S160000x8 : Shape := ⟨2, ![160000, 8]⟩
abbrev S_ : Shape := ⟨0, ![]⟩
abbrev S160000x4 : Shape := ⟨2, ![160000, 4]⟩
abbrev S160000x16 : Shape := ⟨2, ![160000, 16]⟩
abbrev S160000x128 : Shape := ⟨2, ![160000, 128]⟩
abbrev S160000x256 : Shape := ⟨2, ![160000, 256]⟩
abbrev S160000x512 : Shape := ⟨2, ![160000, 512]⟩
abbrev S160000x1024 : Shape := ⟨2, ![160000, 1024]⟩
abbrev S160000x96 : Shape := ⟨2, ![160000, 96]⟩
abbrev S160000x32 : Shape := ⟨2, ![160000, 32]⟩
abbrev S160000x32x1 : Shape := ⟨3, ![160000, 32, 1]⟩
abbrev S160000x1x1 : Shape := ⟨3, ![160000, 1, 1]⟩
abbrev S160000x3 : Shape := ⟨2, ![160000, 3]⟩
abbrev S160000x1x3 : Shape := ⟨3, ![160000, 1, 3]⟩
abbrev S160000x32x3 : Shape := ⟨3, ![160000, 32, 3]⟩
abbrev S160000x5 : Shape := ⟨2, ![160000, 5]⟩
abbrev S160000x1x5 : Shape := ⟨3, ![160000, 1, 5]⟩
abbrev S160000x32x5 : Shape := ⟨3, ![160000, 32, 5]⟩
abbrev S160000x160 : Shape := ⟨2, ![160000, 160]⟩
abbrev S160000x288 : Shape := ⟨2, ![160000, 288]⟩

abbrev nBuf : Space → Nat
  | .hbm => 153
  | .vmem => 0
  | .smem => 0
  | _ => 0

abbrev hbmTy0_0 (i : Nat) : BufTy := match i % 128 with
  | 0 => ⟨S2x160000, .i32⟩
  | 1 => ⟨S160000, .i32⟩
  | 2 => ⟨S160000x9, .f32⟩
  | 3 => ⟨S160000, .f32⟩
  | 4 => ⟨S10000x4, .f32⟩
  | 5 => ⟨S8, .f32⟩
  | 6 => ⟨S16x128, .f32⟩
  | 7 => ⟨S128x256, .f32⟩
  | 8 => ⟨S256x512, .f32⟩
  | 9 => ⟨S512x1024, .f32⟩
  | 10 => ⟨S1024x96, .f32⟩
  | 11 => ⟨S1x160000, .i32⟩
  | 12 => ⟨S160000, .i32⟩
  | 13 => ⟨S1x160000, .i32⟩
  | 14 => ⟨S160000, .i32⟩
  | 15 => ⟨S160000x1, .f32⟩
  | 16 => ⟨S1x8, .f32⟩
  | 17 => ⟨S160000x8, .f32⟩
  | 18 => ⟨S160000x8, .f32⟩
  | 19 => ⟨S160000x8, .f32⟩
  | 20 => ⟨S_, .f32⟩
  | 21 => ⟨S160000x8, .f32⟩
  | 22 => ⟨S160000x8, .f32⟩
  | 23 => ⟨S160000x8, .f32⟩
  | 24 => ⟨S_, .f32⟩
  | 25 => ⟨S160000x8, .f32⟩
  | 26 => ⟨S160000x8, .f32⟩
  | 27 => ⟨S160000x8, .f32⟩
  | 28 => ⟨S160000x8, .f32⟩
  | 29 => ⟨S_, .f32⟩
  | 30 => ⟨S160000, .f32⟩
  | 31 => ⟨S160000, .f32⟩
  | 32 => ⟨S_, .f32⟩
  | 33 => ⟨S160000, .f32⟩
  | 34 => ⟨S160000, .f32⟩
  | 35 => ⟨S_, .f32⟩
  | 36 => ⟨S160000, .f32⟩
  | 37 => ⟨S160000, .f32⟩
  | 38 => ⟨S_, .f32⟩
  | 39 => ⟨S160000, .f32⟩
  | 40 => ⟨S160000, .f32⟩
  | 41 => ⟨S_, .f32⟩
  | 42 => ⟨S160000, .f32⟩
  | 43 => ⟨S160000, .f32⟩
  | 44 => ⟨S_, .f32⟩
  | 45 => ⟨S160000, .f32⟩
  | 46 => ⟨S160000, .f32⟩
  | 47 => ⟨S160000, .f32⟩
  | 48 => ⟨S_, .f32⟩
  | 49 => ⟨S160000, .f32⟩
  | 50 => ⟨S160000, .f32⟩
  | 51 => ⟨S_, .f32⟩
  | 52 => ⟨S160000, .f32⟩
  | 53 => ⟨S160000, .f32⟩
  | 54 => ⟨S160000, .f32⟩
  | 55 => ⟨S_, .f32⟩
  | 56 => ⟨S160000, .f32⟩
  | 57 => ⟨S160000, .i1⟩
  | 58 => ⟨S160000, .f32⟩
  | 59 => ⟨S160000, .f32⟩
  | 60 => ⟨S_, .i32⟩
  | 61 => ⟨S160000, .i32⟩
  | 62 => ⟨S160000, .i1⟩
  | 63 => ⟨S_, .i32⟩
  | 64 => ⟨S160000, .i32⟩
  | 65 => ⟨S160000, .i32⟩
  | 66 => ⟨S160000, .i32⟩
  | 67 => ⟨S160000x1, .i32⟩
  | 68 => ⟨S160000x4, .f32⟩
  | 69 => ⟨S_, .i32⟩
  | 70 => ⟨S160000, .i32⟩
  | 71 => ⟨S160000, .i1⟩
  | 72 => ⟨S_, .i32⟩
  | 73 => ⟨S160000, .i32⟩
  | 74 => ⟨S160000, .i32⟩
  | 75 => ⟨S160000, .i32⟩
  | 76 => ⟨S160000x1, .i32⟩
  | 77 => ⟨S160000x4, .f32⟩
  | 78 => ⟨S160000x16, .f32⟩
  | 79 => ⟨S_, .f32⟩
  | 80 => ⟨S16x128, .f32⟩
  | 81 => ⟨S16x128, .f32⟩
  | 82 => ⟨S160000x128, .f32⟩
  | 83 => ⟨S160000x128, .f32⟩
  | 84 => ⟨S160000x128, .f32⟩
  | 85 => ⟨S_, .f32⟩
  | 86 => ⟨S160000x128, .f32⟩
  | 87 => ⟨S160000x128, .f32⟩
  | 88 => ⟨S_, .f32⟩
  | 89 => ⟨S160000x128, .f32⟩
  | 90 => ⟨S160000x128, .f32⟩
  | 91 => ⟨S160000x128, .f32⟩
  | 92 => ⟨S_, .f32⟩
  | 93 => ⟨S128x256, .f32⟩
  | 94 => ⟨S128x256, .f32⟩
  | 95 => ⟨S160000x256, .f32⟩
  | 96 => ⟨S160000x256, .f32⟩
  | 97 => ⟨S160000x256, .f32⟩
  | 98 => ⟨S_, .f32⟩
  | 99 => ⟨S160000x256, .f32⟩
  | 100 => ⟨S160000x256, .f32⟩
  | 101 => ⟨S_, .f32⟩
  | 102 => ⟨S160000x256, .f32⟩
  | 103 => ⟨S160000x256, .f32⟩
  | 104 => ⟨S160000x256, .f32⟩
  | 105 => ⟨S_, .f32⟩
  | 106 => ⟨S256x512, .f32⟩
  | 107 => ⟨S256x512, .f32⟩
  | 108 => ⟨S160000x512, .f32⟩
  | 109 => ⟨S160000x512, .f32⟩
  | 110 => ⟨S160000x512, .f32⟩
  | 111 => ⟨S_, .f32⟩
  | 112 => ⟨S160000x512, .f32⟩
  | 113 => ⟨S160000x512, .f32⟩
  | 114 => ⟨S_, .f32⟩
  | 115 => ⟨S160000x512, .f32⟩
  | 116 => ⟨S160000x512, .f32⟩
  | 117 => ⟨S160000x512, .f32⟩
  | 118 => ⟨S_, .f32⟩
  | 119 => ⟨S512x1024, .f32⟩
  | 120 => ⟨S512x1024, .f32⟩
  | 121 => ⟨S160000x1024, .f32⟩
  | 122 => ⟨S160000x1, .f32⟩
  | 123 => ⟨S160000x1024, .f32⟩
  | 124 => ⟨S160000x1024, .f32⟩
  | 125 => ⟨S_, .f32⟩
  | 126 => ⟨S1024x96, .f32⟩
  | 127 => ⟨S1024x96, .f32⟩
  | _ => ⟨S2x160000, .i32⟩

abbrev hbmTy0_1 (i : Nat) : BufTy := match i % 128 with
  | 0 => ⟨S160000x96, .f32⟩
  | 1 => ⟨S160000x32, .f32⟩
  | 2 => ⟨S160000x1, .f32⟩
  | 3 => ⟨S160000x32x1, .f32⟩
  | 4 => ⟨S160000x1x1, .f32⟩
  | 5 => ⟨S160000x32x1, .f32⟩
  | 6 => ⟨S160000x32x1, .f32⟩
  | 7 => ⟨S160000x32, .f32⟩
  | 8 => ⟨S160000x32, .f32⟩
  | 9 => ⟨S160000x3, .f32⟩
  | 10 => ⟨S160000x32x1, .f32⟩
  | 11 => ⟨S160000x1x3, .f32⟩
  | 12 => ⟨S160000x32x3, .f32⟩
  | 13 => ⟨S160000x32x3, .f32⟩
  | 14 => ⟨S160000x32x3, .f32⟩
  | 15 => ⟨S160000x96, .f32⟩
  | 16 => ⟨S160000x32, .f32⟩
  | 17 => ⟨S160000x5, .f32⟩
  | 18 => ⟨S160000x32x1, .f32⟩
  | 19 => ⟨S160000x1x5, .f32⟩
  | 20 => ⟨S160000x32x5, .f32⟩
  | 21 => ⟨S160000x32x5, .f32⟩
  | 22 => ⟨S160000x32x5, .f32⟩
  | 23 => ⟨S160000x160, .f32⟩
  | 24 => ⟨S160000x288, .f32⟩
  | _ => ⟨S2x160000, .i32⟩

abbrev hbmTy (i : Nat) : BufTy := match i / 128 with
  | 0 => hbmTy0_0 i
  | 1 => hbmTy0_1 i
  | _ => ⟨S2x160000, .i32⟩

abbrev bufTy : (tb : Table) → Fin (tcTables nBuf tb) → BufTy
  | .hbm, ⟨i, _⟩ => hbmTy i
  | _, _ => ⟨S2x160000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_0 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_1 : Ref sig .tc := ⟨.hbm, 29, rfl⟩
abbrev main_v16 : Ref sig .tc := ⟨.hbm, 30, rfl⟩
abbrev main_v17 : Ref sig .tc := ⟨.hbm, 31, rfl⟩
abbrev main_cst_2 : Ref sig .tc := ⟨.hbm, 32, rfl⟩
abbrev main_v18 : Ref sig .tc := ⟨.hbm, 33, rfl⟩
abbrev main_v19 : Ref sig .tc := ⟨.hbm, 34, rfl⟩
abbrev main_cst_3 : Ref sig .tc := ⟨.hbm, 35, rfl⟩
abbrev main_v20 : Ref sig .tc := ⟨.hbm, 36, rfl⟩
abbrev main_v21 : Ref sig .tc := ⟨.hbm, 37, rfl⟩
abbrev main_cst_4 : Ref sig .tc := ⟨.hbm, 38, rfl⟩
abbrev main_v22 : Ref sig .tc := ⟨.hbm, 39, rfl⟩
abbrev main_v23 : Ref sig .tc := ⟨.hbm, 40, rfl⟩
abbrev main_cst_5 : Ref sig .tc := ⟨.hbm, 41, rfl⟩
abbrev main_v24 : Ref sig .tc := ⟨.hbm, 42, rfl⟩
abbrev main_v25 : Ref sig .tc := ⟨.hbm, 43, rfl⟩
abbrev main_cst_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_7 : Ref sig .tc := ⟨.hbm, 48, rfl⟩
abbrev main_v29 : Ref sig .tc := ⟨.hbm, 49, rfl⟩
abbrev main_v30 : Ref sig .tc := ⟨.hbm, 50, rfl⟩
abbrev main_cst_8 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_9 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_c : Ref sig .tc := ⟨.hbm, 60, rfl⟩
abbrev main_v38 : Ref sig .tc := ⟨.hbm, 61, rfl⟩
abbrev main_v39 : Ref sig .tc := ⟨.hbm, 62, rfl⟩
abbrev main_c_10 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_c_11 : Ref sig .tc := ⟨.hbm, 69, rfl⟩
abbrev main_v45 : Ref sig .tc := ⟨.hbm, 70, rfl⟩
abbrev main_v46 : Ref sig .tc := ⟨.hbm, 71, rfl⟩
abbrev main_c_12 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_cst_13 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_call0_v0 : Ref sig .tc := ⟨.hbm, 83, rfl⟩
abbrev main_call0_v1 : Ref sig .tc := ⟨.hbm, 84, rfl⟩
abbrev main_call0_cst : Ref sig .tc := ⟨.hbm, 85, rfl⟩
abbrev main_call0_v2 : Ref sig .tc := ⟨.hbm, 86, rfl⟩
abbrev main_call0_v3 : Ref sig .tc := ⟨.hbm, 87, rfl⟩
abbrev main_call0_cst_0 : Ref sig .tc := ⟨.hbm, 88, rfl⟩
abbrev main_call0_v4 : Ref sig .tc := ⟨.hbm, 89, rfl⟩
abbrev main_call0_v5 : Ref sig .tc := ⟨.hbm, 90, rfl⟩
abbrev main_v56 : Ref sig .tc := ⟨.hbm, 91, rfl⟩
abbrev main_cst_14 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_call1_v0 : Ref sig .tc := ⟨.hbm, 96, rfl⟩
abbrev main_call1_v1 : Ref sig .tc := ⟨.hbm, 97, rfl⟩
abbrev main_call1_cst : Ref sig .tc := ⟨.hbm, 98, rfl⟩
abbrev main_call1_v2 : Ref sig .tc := ⟨.hbm, 99, rfl⟩
abbrev main_call1_v3 : Ref sig .tc := ⟨.hbm, 100, rfl⟩
abbrev main_call1_cst_0 : Ref sig .tc := ⟨.hbm, 101, rfl⟩
abbrev main_call1_v4 : Ref sig .tc := ⟨.hbm, 102, rfl⟩
abbrev main_call1_v5 : Ref sig .tc := ⟨.hbm, 103, rfl⟩
abbrev main_v60 : Ref sig .tc := ⟨.hbm, 104, rfl⟩
abbrev main_cst_15 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_call2_v0 : Ref sig .tc := ⟨.hbm, 109, rfl⟩
abbrev main_call2_v1 : Ref sig .tc := ⟨.hbm, 110, rfl⟩
abbrev main_call2_cst : Ref sig .tc := ⟨.hbm, 111, rfl⟩
abbrev main_call2_v2 : Ref sig .tc := ⟨.hbm, 112, rfl⟩
abbrev main_call2_v3 : Ref sig .tc := ⟨.hbm, 113, rfl⟩
abbrev main_call2_cst_0 : Ref sig .tc := ⟨.hbm, 114, rfl⟩
abbrev main_call2_v4 : Ref sig .tc := ⟨.hbm, 115, rfl⟩
abbrev main_call2_v5 : Ref sig .tc := ⟨.hbm, 116, rfl⟩
abbrev main_v64 : Ref sig .tc := ⟨.hbm, 117, rfl⟩
abbrev main_cst_16 : Ref sig .tc := ⟨.hbm, 118, rfl⟩
abbrev main_v65 : Ref sig .tc := ⟨.hbm, 119, rfl⟩
abbrev main_v66 : Ref sig .tc := ⟨.hbm, 120, rfl⟩
abbrev main_v67 : Ref sig .tc := ⟨.hbm, 121, rfl⟩
abbrev main_v68 : Ref sig .tc := ⟨.hbm, 122, rfl⟩
abbrev main_v69 : Ref sig .tc := ⟨.hbm, 123, rfl⟩
abbrev main_v70 : Ref sig .tc := ⟨.hbm, 124, rfl⟩
abbrev main_cst_17 : Ref sig .tc := ⟨.hbm, 125, rfl⟩
abbrev main_v71 : Ref sig .tc := ⟨.hbm, 126, rfl⟩
abbrev main_v72 : Ref sig .tc := ⟨.hbm, 127, rfl⟩
abbrev main_v73 : Ref sig .tc := ⟨.hbm, 128, rfl⟩
abbrev main_v74 : Ref sig .tc := ⟨.hbm, 129, rfl⟩
abbrev main_v75 : Ref sig .tc := ⟨.hbm, 130, rfl⟩
abbrev main_v76 : Ref sig .tc := ⟨.hbm, 131, rfl⟩
abbrev main_v77 : Ref sig .tc := ⟨.hbm, 132, rfl⟩
abbrev main_v78 : Ref sig .tc := ⟨.hbm, 133, rfl⟩
abbrev main_v79 : Ref sig .tc := ⟨.hbm, 134, rfl⟩
abbrev main_v80 : Ref sig .tc := ⟨.hbm, 135, rfl⟩
abbrev main_v81 : Ref sig .tc := ⟨.hbm, 136, rfl⟩
abbrev main_v82 : Ref sig .tc := ⟨.hbm, 137, rfl⟩
abbrev main_v83 : Ref sig .tc := ⟨.hbm, 138, rfl⟩
abbrev main_v84 : Ref sig .tc := ⟨.hbm, 139, rfl⟩
abbrev main_v85 : Ref sig .tc := ⟨.hbm, 140, rfl⟩
abbrev main_v86 : Ref sig .tc := ⟨.hbm, 141, rfl⟩
abbrev main_v87 : Ref sig .tc := ⟨.hbm, 142, rfl⟩
abbrev main_v88 : Ref sig .tc := ⟨.hbm, 143, rfl⟩
abbrev main_v89 : Ref sig .tc := ⟨.hbm, 144, rfl⟩
abbrev main_v90 : Ref sig .tc := ⟨.hbm, 145, rfl⟩
abbrev main_v91 : Ref sig .tc := ⟨.hbm, 146, rfl⟩
abbrev main_v92 : Ref sig .tc := ⟨.hbm, 147, rfl⟩
abbrev main_v93 : Ref sig .tc := ⟨.hbm, 148, rfl⟩
abbrev main_v94 : Ref sig .tc := ⟨.hbm, 149, rfl⟩
abbrev main_v95 : Ref sig .tc := ⟨.hbm, 150, rfl⟩
abbrev main_v96 : Ref sig .tc := ⟨.hbm, 151, rfl⟩
abbrev main_v97 : Ref sig .tc := ⟨.hbm, 152, rfl⟩

abbrev nD : Nat := 1
abbrev τ : Topo := Topo.v7x

variable {F : FTy → Type} [FloatOps F]

class Facts₀ : Prop where
  slices_S2x160000_S1x160000_0_0 : S2x160000.Slices ![0, 0] S1x160000
  shapeCasts_S1x160000_S160000 : S1x160000.ShapeCasts S160000
  slices_S2x160000_S1x160000_1_0 : S2x160000.Slices ![1, 0] S1x160000
  bcast_S160000_S160000x1_0 : S160000.BroadcastsInDim S160000x1 (![0] : Fin 1 → Fin S160000x1.rank)
  bcast_S8_S1x8_1 : S8.BroadcastsInDim S1x8 (![1] : Fin 1 → Fin S1x8.rank)
  bcast_S1x8_S160000x8_0_1 : S1x8.BroadcastsInDim S160000x8 (![0, 1] : Fin 2 → Fin S160000x8.rank)
  bcast_S160000x1_S160000x8_0_1 : S160000x1.BroadcastsInDim S160000x8 (![0, 1] : Fin 2 → Fin S160000x8.rank)
  bcast_S_S160000x8 : S_.BroadcastsInDim S160000x8 (![] : Fin 0 → Fin S160000x8.rank)
  bcast_S_S160000 : S_.BroadcastsInDim S160000 (![] : Fin 0 → Fin S160000.rank)
  concatenates_S160000x4_S160000x4_S160000x8_S160000x16_d1 : Shape.Concatenates [S160000x4, S160000x4, S160000x8] S160000x16 1
  bcast_S_S16x128 : S_.BroadcastsInDim S16x128 (![] : Fin 0 → Fin S16x128.rank)
  bcast_S_S160000x128 : S_.BroadcastsInDim S160000x128 (![] : Fin 0 → Fin S160000x128.rank)
  bcast_S_S128x256 : S_.BroadcastsInDim S128x256 (![] : Fin 0 → Fin S128x256.rank)
  bcast_S_S160000x256 : S_.BroadcastsInDim S160000x256 (![] : Fin 0 → Fin S160000x256.rank)
  bcast_S_S256x512 : S_.BroadcastsInDim S256x512 (![] : Fin 0 → Fin S256x512.rank)
  bcast_S_S160000x512 : S_.BroadcastsInDim S160000x512 (![] : Fin 0 → Fin S160000x512.rank)
  bcast_S_S512x1024 : S_.BroadcastsInDim S512x1024 (![] : Fin 0 → Fin S512x1024.rank)
  bcast_S160000x1_S160000x1024_0_1 : S160000x1.BroadcastsInDim S160000x1024 (![0, 1] : Fin 2 → Fin S160000x1024.rank)
  bcast_S_S1024x96 : S_.BroadcastsInDim S1024x96 (![] : Fin 0 → Fin S1024x96.rank)
  slices_S160000x96_S160000x32_0_0 : S160000x96.Slices ![0, 0] S160000x32
  slices_S160000x9_S160000x1_0_0 : S160000x9.Slices ![0, 0] S160000x1
  bcast_S160000x32_S160000x32x1_0_1 : S160000x32.BroadcastsInDim S160000x32x1 (![0, 1] : Fin 2 → Fin S160000x32x1.rank)
  bcast_S160000x1_S160000x1x1_0_2 : S160000x1.BroadcastsInDim S160000x1x1 (![0, 2] : Fin 2 → Fin S160000x1x1.rank)
  bcast_S160000x1x1_S160000x32x1_0_1_2 : S160000x1x1.BroadcastsInDim S160000x32x1 (![0, 1, 2] : Fin 3 → Fin S160000x32x1.rank)
  shapeCasts_S160000x32x1_S160000x32 : S160000x32x1.ShapeCasts S160000x32
  slices_S160000x96_S160000x32_0_32 : S160000x96.Slices ![0, 32] S160000x32
  slices_S160000x9_S160000x3_0_1 : S160000x9.Slices ![0, 1] S160000x3
  bcast_S160000x3_S160000x1x3_0_2 : S160000x3.BroadcastsInDim S160000x1x3 (![0, 2] : Fin 2 → Fin S160000x1x3.rank)
  bcast_S160000x32x1_S160000x32x3_0_1_2 : S160000x32x1.BroadcastsInDim S160000x32x3 (![0, 1, 2] : Fin 3 → Fin S160000x32x3.rank)
  bcast_S160000x1x3_S160000x32x3_0_1_2 : S160000x1x3.BroadcastsInDim S160000x32x3 (![0, 1, 2] : Fin 3 → Fin S160000x32x3.rank)
  shapeCasts_S160000x32x3_S160000x96 : S160000x32x3.ShapeCasts S160000x96
  slices_S160000x96_S160000x32_0_64 : S160000x96.Slices ![0, 64] S160000x32
  slices_S160000x9_S160000x5_0_4 : S160000x9.Slices ![0, 4] S160000x5
  bcast_S160000x5_S160000x1x5_0_2 : S160000x5.BroadcastsInDim S160000x1x5 (![0, 2] : Fin 2 → Fin S160000x1x5.rank)
  bcast_S160000x32x1_S160000x32x5_0_1_2 : S160000x32x1.BroadcastsInDim S160000x32x5 (![0, 1, 2] : Fin 3 → Fin S160000x32x5.rank)
  bcast_S160000x1x5_S160000x32x5_0_1_2 : S160000x1x5.BroadcastsInDim S160000x32x5 (![0, 1, 2] : Fin 3 → Fin S160000x32x5.rank)
  shapeCasts_S160000x32x5_S160000x160 : S160000x32x5.ShapeCasts S160000x160
  concatenates_S160000x32_S160000x96_S160000x160_S160000x288_d1 : Shape.Concatenates [S160000x32, S160000x96, S160000x160] S160000x288 1
  gather_S10000x4_S160000x1_S160000x4_1_0_n_n_0_1_14_wf : GatherDims.WF S10000x4 S160000x1 S160000x4 [1] [0] [] [0] [] 1 ![1, 4]
  dot_S160000x16_S16x128_S160000x128_1_0_0_1_n_n_wf : DotDims.WF S160000x16 S16x128 S160000x128 [1] [0] [0] [1] [] []
  dot_S160000x128_S128x256_S160000x256_1_0_0_1_n_n_wf : DotDims.WF S160000x128 S128x256 S160000x256 [1] [0] [0] [1] [] []
  dot_S160000x256_S256x512_S160000x512_1_0_0_1_n_n_wf : DotDims.WF S160000x256 S256x512 S160000x512 [1] [0] [0] [1] [] []
  dot_S160000x512_S512x1024_S160000x1024_1_0_0_1_n_n_wf : DotDims.WF S160000x512 S512x1024 S160000x1024 [1] [0] [0] [1] [] []
  dot_S160000x1024_S1024x96_S160000x96_1_0_0_1_n_n_wf : DotDims.WF S160000x1024 S1024x96 S160000x96 [1] [0] [0] [1] [] []

variable [Facts₀]

def gather_S10000x4_S160000x1_S160000x4_1_0_n_n_0_1_14 : GatherDims S10000x4 S160000x1 S160000x4 where
  offsetDims := [1]
  collapsedSliceDims := [0]
  operandBatchingDims := []
  startIndicesBatchingDims := []
  startIndexMap := [0]
  indexVectorDim := 1
  sliceSizes := ![1, 4]
  wf := gather_S10000x4_S160000x1_S160000x4_1_0_n_n_0_1_14_wf
def dot_S160000x16_S16x128_S160000x128_1_0_0_1_n_n : DotDims S160000x16 S16x128 S160000x128 where
  lhsContracting := [1]
  rhsContracting := [0]
  lhsNonContracting := [0]
  rhsNonContracting := [1]
  lhsBatch := []
  rhsBatch := []
  wf := dot_S160000x16_S16x128_S160000x128_1_0_0_1_n_n_wf
def dot_S160000x128_S128x256_S160000x256_1_0_0_1_n_n : DotDims S160000x128 S128x256 S160000x256 where
  lhsContracting := [1]
  rhsContracting := [0]
  lhsNonContracting := [0]
  rhsNonContracting := [1]
  lhsBatch := []
  rhsBatch := []
  wf := dot_S160000x128_S128x256_S160000x256_1_0_0_1_n_n_wf
def dot_S160000x256_S256x512_S160000x512_1_0_0_1_n_n : DotDims S160000x256 S256x512 S160000x512 where
  lhsContracting := [1]
  rhsContracting := [0]
  lhsNonContracting := [0]
  rhsNonContracting := [1]
  lhsBatch := []
  rhsBatch := []
  wf := dot_S160000x256_S256x512_S160000x512_1_0_0_1_n_n_wf
def dot_S160000x512_S512x1024_S160000x1024_1_0_0_1_n_n : DotDims S160000x512 S512x1024 S160000x1024 where
  lhsContracting := [1]
  rhsContracting := [0]
  lhsNonContracting := [0]
  rhsNonContracting := [1]
  lhsBatch := []
  rhsBatch := []
  wf := dot_S160000x512_S512x1024_S160000x1024_1_0_0_1_n_n_wf
def dot_S160000x1024_S1024x96_S160000x96_1_0_0_1_n_n : DotDims S160000x1024 S1024x96 S160000x96 where
  lhsContracting := [1]
  rhsContracting := [0]
  lhsNonContracting := [0]
  rhsNonContracting := [1]
  lhsBatch := []
  rhsBatch := []
  wf := dot_S160000x1024_S1024x96_S160000x96_1_0_0_1_n_n_wf

class Facts : Prop extends Facts₀ where

variable [Facts]
-- ==== Proof.LibNaryThree.lean ====
/-
  An operation on a family of THREE buffers, read with each operand at its own buffer.

  A host operation that takes its operands through a family indexed by position (a join of several arrays along
  an axis) has as its value the operation's function applied to the family `k ↦ contents of operand k`. For a
  family of three given as a literal, that family is the three operands' contents one after the other. Stated
  with the function applied LAST (`feed x f = f x`, kept folded), a rewriting pass can go on reading each
  operand's own contents below the join before the join's function is opened — which it cannot do once the
  function is applied, when the function (a concatenation) carries a proof about the shapes of what it joins.
-/
import Idealize.ShloMosaic.Lib.StableHlo.Run

noncomputable section

namespace Cert.LibNaryThree

open Idealize.ShloMosaic Idealize.ShloMosaic.TcCoe Idealize.ShloMosaic.StableHlo

/-- A value handed to a function: `feed x f` is `f x`, kept folded so that `x` can be rewritten first.
    Unfold it (or close by `rfl`) once the operands have been read. -/
def feed {α β : Type} (x : α) (f : α → β) : β := f x

variable {τ : Topo} {sig : RefSig} {Val : EltTy → Type} {x a b y : Ref sig .tc}

/-- **An operation on a literal family of three buffers**: its result buffer after the operation holds the
    operation's function of the three operands' contents, each read at its own buffer (the three-operand
    companion of the four-operand form; the result buffer is un-indexed so that a simplifier finds the
    lemma from the operation alone). Use it in a `simp only` set with the other result lemmas in place of the
    generic family form, then close with `rfl`. -/
theorem nary3_feed
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = feed (Fin.cons (F (Proc.devRef .tc x)) (Fin.cons (F (Proc.devRef .tc a)) (Fin.cons (F (Proc.devRef .tc b)) (fun i => i.elim0)))) f := by
  unfold feed
  rw [nary_result]; congr 1; funext k; fin_cases k <;> rfl

end Cert.LibNaryThree

end
-- ==== Proof.RefRun.lean ====
/-
  The reference program's run, read back over its stages.

  The reference is a straight line of host operations; every weakly fair execution of it terminates with each buffer
  at the operations' composed value of the launch contents. Here that value is read for the three results — the
  latents, the features and the envelope — as the stage functions of the arguments (one named function per
  operation, each in terms of the earlier ones), and for the eleven arguments as themselves.

  The two joins of three arrays along the column axis take their operands through a family indexed by position;
  each is read with its operands' contents at their own buffers (the three-operand lemma of the module beside
  this one), so that reading the operands' own values goes on below the join.
-/
import proofs.«107756_j46729244181055_1_alg».proof.Proof.RefOps
import proofs.«107756_j46729244181055_1_alg».proof.Proof.RefRead
import proofs.«107756_j46729244181055_1_alg».proof.Proof.LibNaryThree
import Idealize.ShloMosaic.Lib.StableHlo.Run

noncomputable section

namespace Cert.RefRun

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo
open Cert.LibNaryThree

variable {F : FTy → Type} [FloatOps F]

set_option maxRecDepth 8192 in
set_option maxHeartbeats 20000000 in
/-- The latents' buffer after the line holds the latents' stage of the arguments. -/
theorem latents_after (m : (ℓ : Loc nD τ sig) → Buf (Elt F) ℓ) (c : Dev nD) :
    after (ops (F := F)) (fun b => m (c, b)) (Proc.devRef .tc main_v70)
      = val_main_v70 (F := F) (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  simp (disch := decide) only [ops, after_cons, after_nil, nary3_feed,
      nullary_result', unary_result', binary_result', ternary_result', quaternary_result', reshape_result',
      unaryIndexed_result', binaryIndexed_result',
      nullary_result_ne', unary_result_ne', binary_result_ne', ternary_result_ne', quaternary_result_ne', reshape_result_ne',
      nary_result_ne', unaryIndexed_result_ne', binaryIndexed_result_ne']
  rfl

set_option maxRecDepth 8192 in
set_option maxHeartbeats 20000000 in
/-- The features' buffer after the line holds the features' stage of the arguments. -/
theorem features_after (m : (ℓ : Loc nD τ sig) → Buf (Elt F) ℓ) (c : Dev nD) :
    after (ops (F := F)) (fun b => m (c, b)) (Proc.devRef .tc main_v97)
      = val_main_v97 (F := F) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  simp (disch := decide) only [ops, after_cons, after_nil, nary3_feed,
      nullary_result', unary_result', binary_result', ternary_result', quaternary_result', reshape_result',
      unaryIndexed_result', binaryIndexed_result',
      nullary_result_ne', unary_result_ne', binary_result_ne', ternary_result_ne', quaternary_result_ne', reshape_result_ne',
      nary_result_ne', unaryIndexed_result_ne', binaryIndexed_result_ne']
  rfl

set_option maxRecDepth 8192 in
set_option maxHeartbeats 20000000 in
/-- The envelope's buffer after the line holds the envelope's stage of the lengths. -/
theorem envelope_after (m : (ℓ : Loc nD τ sig) → Buf (Elt F) ℓ) (c : Dev nD) :
    after (ops (F := F)) (fun b => m (c, b)) (Proc.devRef .tc main_v37)
      = val_main_v37 (F := F) (m ((c.tc : Thread nD τ).loc main_arg3)) := by
  simp (disch := decide) only [ops, after_cons, after_nil, nary3_feed,
      nullary_result', unary_result', binary_result', ternary_result', quaternary_result', reshape_result',
      unaryIndexed_result', binaryIndexed_result',
      nullary_result_ne', unary_result_ne', binary_result_ne', ternary_result_ne', quaternary_result_ne', reshape_result_ne',
      nary_result_ne', unaryIndexed_result_ne', binaryIndexed_result_ne']
  rfl

end Cert.RefRun

end
-- ==== Proof.RefArgs.lean ====
/-
  No operation of the reference's line writes an argument buffer: after the line each of the eleven arguments
  holds what it was launched with.
-/
import proofs.«107756_j46729244181055_1_alg».proof.Proof.RefOps
import Idealize.ShloMosaic.Lib.StableHlo.Run

noncomputable section

namespace Cert.RefArgs

open Cert.ReferenceIdeal Cert.ReferenceIdeal.Gen Cert.ReferenceIdeal.Value
open Idealize.ShloMosaic Idealize.ShloMosaic.TcCoe Idealize.SL.Sem Idealize.ShloMosaic.StableHlo

variable {F : FTy → Type} [FloatOps F]

set_option maxRecDepth 8192 in
set_option maxHeartbeats 4000000 in
theorem arg0_after (m : (ℓ : Loc nD τ sig) → Buf (Elt F) ℓ) (c : Dev nD) :
    after (ops (F := F)) (fun b => m (c, b)) (Proc.devRef .tc main_arg0) = m ((c.tc : Thread nD τ).loc main_arg0) :=
  after_of_forall_not_mem (b := Proc.devRef .tc main_arg0) _ _ (List.forall_iff_forall_mem.mp (by
    simp only [ops, List.Forall, nullary_writes, unary_writes, binary_writes, ternary_writes, reshape_writes, nary_writes, Finset.mem_singleton]
    repeat' apply And.intro
    all_goals exact devRef_ne_of_ne (by decide)))

set_option maxRecDepth 8192 in
set_option maxHeartbeats 4000000 in
theorem arg1_after (m : (ℓ : Loc nD τ sig) → Buf (Elt F) ℓ) (c : Dev nD) :
    after (ops (F := F)) (fun b => m (c, b)) (Proc.devRef .tc main_arg1) = m ((c.tc : Thread nD τ).loc main_arg1) :=
  after_of_forall_not_mem (b := Proc.devRef .tc main_arg1) _ _ (List.forall_iff_forall_mem.mp (by
    simp only [ops, List.Forall, nullary_writes, unary_writes, binary_writes, ternary_writes, reshape_writes, nary_writes, Finset.mem_singleton]
    repeat' apply And.intro
    all_goals exact devRef_ne_of_ne (by decide)))

set_option maxRecDepth 8192 in
set_option maxHeartbeats 4000000 in
theorem arg2_after (m : (ℓ : Loc nD τ sig) → Buf (Elt F) ℓ) (c : Dev nD) :
    after (ops (F := F)) (fun b => m (c, b)) (Proc.devRef .tc main_arg2) = m ((c.tc : Thread nD τ).loc main_arg2) :=
  after_of_forall_not_mem (b := Proc.devRef .tc main_arg2) _ _ (List.forall_iff_forall_mem.mp (by
    simp only [ops, List.Forall, nullary_writes, unary_writes, binary_writes, ternary_writes, reshape_writes, nary_writes, Finset.mem_singleton]
    repeat' apply And.intro
    all_goals exact devRef_ne_of_ne (by decide)))

set_option maxRecDepth 8192 in
set_option maxHeartbeats 4000000 in
theorem arg3_after (m : (ℓ : Loc nD τ sig) → Buf (Elt F) ℓ) (c : Dev nD) :
    after (ops (F := F)) (fun b => m (c, b)) (Proc.devRef .tc main_arg3) = m ((c.tc : Thread nD τ).loc main_arg3) :=
  after_of_forall_not_mem (b := Proc.devRef .tc main_arg3) _ _ (List.forall_iff_forall_mem.mp (by
    simp only [ops, List.Forall, nullary_writes, unary_writes, binary_writes, ternary_writes, reshape_writes, nary_writes, Finset.mem_singleton]
    repeat' apply And.intro
    all_goals exact devRef_ne_of_ne (by decide)))

set_option maxRecDepth 8192 in
set_option maxHeartbeats 4000000 in
theorem arg4_after (m : (ℓ : Loc nD τ sig) → Buf (Elt F) ℓ) (c : Dev nD) :
    after (ops (F := F)) (fun b => m (c, b)) (Proc.devRef .tc main_arg4) = m ((c.tc : Thread nD τ).loc main_arg4) :=
  after_of_forall_not_mem (b := Proc.devRef .tc main_arg4) _ _ (List.forall_iff_forall_mem.mp (by
    simp only [ops, List.Forall, nullary_writes, unary_writes, binary_writes, ternary_writes, reshape_writes, nary_writes, Finset.mem_singleton]
    repeat' apply And.intro
    all_goals exact devRef_ne_of_ne (by decide)))

set_option maxRecDepth 8192 in
set_option maxHeartbeats 4000000 in
theorem arg5_after (m : (ℓ : Loc nD τ sig) → Buf (Elt F) ℓ) (c : Dev nD) :
    after (ops (F := F)) (fun b => m (c, b)) (Proc.devRef .tc main_arg5) = m ((c.tc : Thread nD τ).loc main_arg5) :=
  after_of_forall_not_mem (b := Proc.devRef .tc main_arg5) _ _ (List.forall_iff_forall_mem.mp (by
    simp only [ops, List.Forall, nullary_writes, unary_writes, binary_writes, ternary_writes, reshape_writes, nary_writes, Finset.mem_singleton]
    repeat' apply And.intro
    all_goals exact devRef_ne_of_ne (by decide)))

set_option maxRecDepth 8192 in
set_option maxHeartbeats 4000000 in
theorem arg6_after (m : (ℓ : Loc nD τ sig) → Buf (Elt F) ℓ) (c : Dev nD) :
    after (ops (F := F)) (fun b => m (c, b)) (Proc.devRef .tc main_arg6) = m ((c.tc : Thread nD τ).loc main_arg6) :=
  after_of_forall_not_mem (b := Proc.devRef .tc main_arg6) _ _ (List.forall_iff_forall_mem.mp (by
    simp only [ops, List.Forall, nullary_writes, unary_writes, binary_writes, ternary_writes, reshape_writes, nary_writes, Finset.mem_singleton]
    repeat' apply And.intro
    all_goals exact devRef_ne_of_ne (by decide)))

set_option maxRecDepth 8192 in
set_option maxHeartbeats 4000000 in
theorem arg7_after (m : (ℓ : Loc nD τ sig) → Buf (Elt F) ℓ) (c : Dev nD) :
    after (ops (F := F)) (fun b => m (c, b)) (Proc.devRef .tc main_arg7) = m ((c.tc : Thread nD τ).loc main_arg7) :=
  after_of_forall_not_mem (b := Proc.devRef .tc main_arg7) _ _ (List.forall_iff_forall_mem.mp (by
    simp only [ops, List.Forall, nullary_writes, unary_writes, binary_writes, ternary_writes, reshape_writes, nary_writes, Finset.mem_singleton]
    repeat' apply And.intro
    all_goals exact devRef_ne_of_ne (by decide)))

set_option maxRecDepth 8192 in
set_option maxHeartbeats 4000000 in
theorem arg8_after (m : (ℓ : Loc nD τ sig) → Buf (Elt F) ℓ) (c : Dev nD) :
    after (ops (F := F)) (fun b => m (c, b)) (Proc.devRef .tc main_arg8) = m ((c.tc : Thread nD τ).loc main_arg8) :=
  after_of_forall_not_mem (b := Proc.devRef .tc main_arg8) _ _ (List.forall_iff_forall_mem.mp (by
    simp only [ops, List.Forall, nullary_writes, unary_writes, binary_writes, ternary_writes, reshape_writes, nary_writes, Finset.mem_singleton]
    repeat' apply And.intro
    all_goals exact devRef_ne_of_ne (by decide)))

set_option maxRecDepth 8192 in
set_option maxHeartbeats 4000000 in
theorem arg9_after (m : (ℓ : Loc nD τ sig) → Buf (Elt F) ℓ) (c : Dev nD) :
    after (ops (F := F)) (fun b => m (c, b)) (Proc.devRef .tc main_arg9) = m ((c.tc : Thread nD τ).loc main_arg9) :=
  after_of_forall_not_mem (b := Proc.devRef .tc main_arg9) _ _ (List.forall_iff_forall_mem.mp (by
    simp only [ops, List.Forall, nullary_writes, unary_writes, binary_writes, ternary_writes, reshape_writes, nary_writes, Finset.mem_singleton]
    repeat' apply And.intro
    all_goals exact devRef_ne_of_ne (by decide)))

set_option maxRecDepth 8192 in
set_option maxHeartbeats 4000000 in
theorem arg10_after (m : (ℓ : Loc nD τ sig) → Buf (Elt F) ℓ) (c : Dev nD) :
    after (ops (F := F)) (fun b => m (c, b)) (Proc.devRef .tc main_arg10) = m ((c.tc : Thread nD τ).loc main_arg10) :=
  after_of_forall_not_mem (b := Proc.devRef .tc main_arg10) _ _ (List.forall_iff_forall_mem.mp (by
    simp only [ops, List.Forall, nullary_writes, unary_writes, binary_writes, ternary_writes, reshape_writes, nary_writes, Finset.mem_singleton]
    repeat' apply And.intro
    all_goals exact devRef_ne_of_ne (by decide)))

end Cert.RefArgs

end
-- ==== Proof.RefWhole.lean ====
/-
  The reference's run: every weakly fair execution terminates with the latents, the features and the envelope at
  their stage functions of the arguments, and the arguments unchanged.
-/
import proofs.«107756_j46729244181055_1_alg».proof.Proof.RefOps
import proofs.«107756_j46729244181055_1_alg».proof.Proof.RefRead
import proofs.«107756_j46729244181055_1_alg».proof.Proof.RefRun
import proofs.«107756_j46729244181055_1_alg».proof.Proof.RefArgs
import Idealize.ShloMosaic.Lib.StableHlo.Run

noncomputable section

namespace Cert.RefRun

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

variable {F : FTy → Type} [FloatOps F]

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v70)
        = val_main_v70 (F := F) (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_v97)
        = val_main_v97 (F := F) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_v37) = val_main_v37 (F := F) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c =>
      ⟨(h c main_v70).trans (latents_after m c), (h c main_v97).trans (features_after m c),
       (h c main_v37).trans (envelope_after m c),
       (h c main_arg0).trans (Cert.RefArgs.arg0_after m c),
       (h c main_arg1).trans (Cert.RefArgs.arg1_after m c),
       (h c main_arg2).trans (Cert.RefArgs.arg2_after m c),
       (h c main_arg3).trans (Cert.RefArgs.arg3_after m c),
       (h c main_arg4).trans (Cert.RefArgs.arg4_after m c),
       (h c main_arg5).trans (Cert.RefArgs.arg5_after m c),
       (h c main_arg6).trans (Cert.RefArgs.arg6_after m c),
       (h c main_arg7).trans (Cert.RefArgs.arg7_after m c),
       (h c main_arg8).trans (Cert.RefArgs.arg8_after m c),
       (h c main_arg9).trans (Cert.RefArgs.arg9_after m c),
       (h c main_arg10).trans (Cert.RefArgs.arg10_after m c)⟩)
    (run_seq scopedRefs_eq scopedSems_eq defs main (fun _ => ops) main_eq (fun _ => ops_sub) m ρ)

end Cert.RefRun

end
-- ==== Proof.EdgeSpec.lean ====
/-
  The edge network both programs compute, one edge (one row) at a time, on the extended reals.

  For an edge with length `r`, eight node features `xn` (the one-hot rows of its two end points), nine
  spherical-harmonic components `sh`, the eight radial frequencies `fr` and the five weight matrices:
  * the radial basis  `0.4 · sin (fr · r / 5) / r`  (`radial`);
  * the polynomial envelope  `1 − 28 x⁶ + 48 x⁷ − 21 x⁸`, `x = r / 5`, times the indicator of `x < 1`,
    with the powers spelled as repeated products (`envMul`) or as real powers (`envPow`);
    the two agree at every finite `r` (`envMul_eq_envPow`), because a real power with exponent the
    natural number `n` is the `n`-fold product, whatever the sign of the base;
  * the row of sixteen inputs: the two one-hot rows, then the radial basis (`joined`);
  * a dense layer with a scalar factor on the weights, `(x W)ⱼ = ∑ₖ xₖ · (Wₖⱼ · c)` (`dense`), and the
    activation `y · σ(y)` (`silu`); four layers give the row of 1024 latents (`hidden`), a fifth the 96
    mixing weights (`mix`);
  * the weighted harmonics: 32 weights times the scalar component, 32 weights times each of the three
    vector components, 32 weights times each of the five rank-two components, laid end to end (`tensor`).
-/
import Idealize.ShloMosaic.PureOps.Ideal
import Idealize.ShloMosaic.Lib.ValueIdx
import Mathlib.Analysis.SpecialFunctions.Pow.Real

noncomputable section

namespace Cert.EdgeSpec

open Idealize.ShloMosaic

/-- The extended real a 32-bit float pattern denotes. -/
abbrev lit (b : BitVec 32) : EReal := Ideal.ofBits .f32 b

theorem lit_one : lit 0x3F800000#32 = 1 := by
  simp [Ideal.ofBits, Ideal.ieee, -EReal.coe_mul]; norm_num
theorem lit_five : lit 0x40A00000#32 = ((5 : ℝ) : EReal) := by
  simp [Ideal.ofBits, Ideal.ieee, -EReal.coe_mul]; norm_num
theorem lit_six : lit 0x40C00000#32 = ((6 : ℝ) : EReal) := by
  simp [Ideal.ofBits, Ideal.ieee, -EReal.coe_mul]; norm_num
theorem lit_seven : lit 0x40E00000#32 = ((7 : ℝ) : EReal) := by
  simp [Ideal.ofBits, Ideal.ieee, -EReal.coe_mul]; norm_num
theorem lit_eight : lit 0x41000000#32 = ((8 : ℝ) : EReal) := by
  simp [Ideal.ofBits, Ideal.ieee, -EReal.coe_mul]; norm_num

/-- The pattern of +∞ denotes +∞. -/
theorem lit_inf : lit 0x7F800000#32 = ⊤ := by
  simp [Ideal.ofBits, Ideal.ieee]

/-- One radial basis function: `0.4 · sin (fr · r / 5) / r`. -/
def radial (fr r : EReal) : EReal :=
  Ideal.div (lit 0x3ECCCCCD#32 * Ideal.sin (Ideal.div (fr * r) (lit 0x40A00000#32))) r

/-- The length over the cutoff radius, `r / 5`. -/
def scaled (r : EReal) : EReal := Ideal.div r (lit 0x40A00000#32)

/-- The sixth power as the square of the cube. -/
def pow6 (x : EReal) : EReal := ((x * x) * x) * ((x * x) * x)

/-- The indicator of `x < 1` read off a one-bit comparison result widened to 32 bits, signed. -/
def stepS (x : EReal) : EReal :=
  ((((FloatOps.cmpf (F := Ideal) (φ := .f32) .olt x (lit 0x3F800000#32)).setWidth 32).toInt : ℝ) : EReal)

/-- The indicator of `x < 1` read off the one-bit comparison result, unsigned. -/
def stepU (x : EReal) : EReal :=
  (((FloatOps.cmpf (F := Ideal) (φ := .f32) .olt x (lit 0x3F800000#32)).toNat : ℝ) : EReal)

/-- The envelope with its powers as products. -/
def envMul (r : EReal) : EReal :=
  (((lit 0x3F800000#32 - lit 0x41E00000#32 * pow6 (scaled r)) + lit 0x42400000#32 * (pow6 (scaled r) * scaled r))
    - lit 0x41A80000#32 * ((pow6 (scaled r) * scaled r) * scaled r)) * stepS (scaled r)

/-- The envelope with its powers as real powers. -/
def envPow (r : EReal) : EReal :=
  (((lit 0x3F800000#32 - lit 0x41E00000#32 * Ideal.pow (scaled r) (lit 0x40C00000#32))
      + lit 0x42400000#32 * Ideal.pow (scaled r) (lit 0x40E00000#32))
    - lit 0x41A80000#32 * Ideal.pow (scaled r) (lit 0x41000000#32)) * stepU (scaled r)

theorem stepS_eq_stepU (x : EReal) : stepS x = stepU x := by
  unfold stepS stepU
  generalize FloatOps.cmpf (F := Ideal) (φ := .f32) .olt x (lit 0x3F800000#32) = b
  have h : ∀ b : BitVec 1, (b.setWidth 32).toInt = (b.toNat : ℤ) := by decide
  rw [h b]; norm_cast

/-- At a finite length the two spellings of the envelope agree. -/
theorem envMul_eq_envPow (ρ : ℝ) : envMul (ρ : EReal) = envPow (ρ : EReal) := by
  have hx : scaled (ρ : EReal) = ((ρ / 5 : ℝ) : EReal) := by
    unfold scaled; rw [lit_five, Ideal.div_coe (by norm_num : (5 : ℝ) ≠ 0)]; norm_cast; ring
  unfold envMul envPow pow6
  rw [stepS_eq_stepU, hx, lit_six, lit_seven, lit_eight, Ideal.pow_coe_coe, Ideal.pow_coe_coe, Ideal.pow_coe_coe]
  have h6 : Real.rpow (ρ / 5) 6 = (ρ / 5) * (ρ / 5) * (ρ / 5) * ((ρ / 5) * (ρ / 5) * (ρ / 5)) := by
    rw [Real.rpow_eq_pow, show (6 : ℝ) = ((6 : ℕ) : ℝ) by norm_num, Real.rpow_natCast]; ring
  have h7 : Real.rpow (ρ / 5) 7 = (ρ / 5) * (ρ / 5) * (ρ / 5) * ((ρ / 5) * (ρ / 5) * (ρ / 5)) * (ρ / 5) := by
    rw [Real.rpow_eq_pow, show (7 : ℝ) = ((7 : ℕ) : ℝ) by norm_num, Real.rpow_natCast]; ring
  have h8 : Real.rpow (ρ / 5) 8 = (ρ / 5) * (ρ / 5) * (ρ / 5) * ((ρ / 5) * (ρ / 5) * (ρ / 5)) * (ρ / 5) * (ρ / 5) := by
    rw [Real.rpow_eq_pow, show (8 : ℝ) = ((8 : ℕ) : ℝ) by norm_num, Real.rpow_natCast]; ring
  rw [h6, h7, h8]
  simp only [EReal.coe_mul]

/-- A dense layer on one row, the scalar factor `c` on the weights: `∑ₖ xₖ · (Wₖⱼ · c)`. -/
def dense {K N : Nat} (c : EReal) (x : Fin K → EReal) (w : Fin K → Fin N → EReal) (j : Fin N) : EReal :=
  ∑ k : Fin K, x k * (w k j * c)

/-- The activation `y · σ(y)`. -/
def silu (y : EReal) : EReal := y * Ideal.logistic y

/-- The activation as the host spells it, `y · (1 / (1 + e^(−y)))`, is the same function. -/
theorem silu_spelled (y : EReal) :
    y * Ideal.div (lit 0x3F800000#32) (lit 0x3F800000#32 + Ideal.exp (-y)) = silu y := by
  rw [lit_one]; rfl

/-- The sixteen inputs of the first layer: four, four and eight entries laid end to end. -/
def joined (a b : Fin 4 → EReal) (fr : Fin 8 → EReal) (r : EReal) (k : Fin 16) : EReal :=
  if h : k.val < 4 then a ⟨k.val, h⟩
  else if h2 : k.val < 8 then b ⟨k.val - 4, by omega⟩
  else radial (fr ⟨k.val - 8, by have := k.isLt; omega⟩) r

/-- The four layers' scalar factors and the fifth's: 1/√16, 1.679/√128, 1.679/√256, 1.679/√512, 1/√1024 as floats. -/
abbrev c0 : EReal := lit 0x3E800000#32
abbrev c1 : EReal := lit 0x3E17F73A#32
abbrev c2 : EReal := lit 0x3DD6E979#32
abbrev c3 : EReal := lit 0x3D97F73A#32
abbrev c4 : EReal := lit 0x3D000000#32

/-- The row of 1024 latents before the envelope: four dense layers, the activation after the first three. -/
def hidden (x : Fin 16 → EReal) (w0 : Fin 16 → Fin 128 → EReal) (w1 : Fin 128 → Fin 256 → EReal)
    (w2 : Fin 256 → Fin 512 → EReal) (w3 : Fin 512 → Fin 1024 → EReal) : Fin 1024 → EReal :=
  dense c3 (fun k2 => silu (dense c2 (fun k1 => silu (dense c1 (fun k0 => silu (dense c0 x w0 k0)) w1 k1)) w2 k2)) w3

/-- The 96 mixing weights: one more dense layer on the latents. -/
def mix (h : Fin 1024 → EReal) (we : Fin 1024 → Fin 96 → EReal) : Fin 96 → EReal := dense c4 h we

/-- The weighted harmonics of one edge, 32 + 96 + 160 entries. -/
def tensor (wt : Fin 96 → EReal) (sh : Fin 9 → EReal) (q : Fin 288) : EReal :=
  if h : q.val < 32 then wt ⟨q.val, by omega⟩ * sh ⟨0, by omega⟩
  else if h2 : q.val < 128 then
    wt ⟨32 + (q.val - 32) / 3, by omega⟩ * sh ⟨1 + (q.val - 32) % 3, by omega⟩
  else
    wt ⟨64 + (q.val - 128) / 5, by have := q.isLt; omega⟩ * sh ⟨4 + (q.val - 128) % 5, by omega⟩

end Cert.EdgeSpec

end
-- ==== Proof.FiniteLengths.lean ====
/-
  The precondition says every float input is finite: each entry's absolute value compares below +∞.
  For the edge lengths this gives what the envelope's two spellings need: every length is a real number.
  The predicate is a conjunction of nine "all entries" reductions; the lengths' conjunct is the second.
-/
import proofs.«107756_j46729244181055_1_alg».proof.Pre_finite_inputs
import proofs.«107756_j46729244181055_1_alg».proof.Proof.EdgeSpec
import Idealize.ShloMosaic.Lib.ReduceAll
import Idealize.ShloMosaic.Lib.ValueIdx
import Idealize.ShloMosaic.PureOps.Ideal

noncomputable section

namespace Cert.FiniteLengths

open Idealize.ShloMosaic Cert.Pre_finite_inputs

variable [Cert.Pre_finite_inputs.Facts]

instance : Subsingleton S_.Idx := ⟨fun a b => funext fun d => d.elim0⟩

/-- An extended real whose absolute value compares below +∞ is a real number. -/
theorem real_of_abs_lt_top (x : EReal) (h : Ideal.cmp .olt (max x (-x)) ⊤ = 1#1) : ∃ ρ : ℝ, x = (ρ : EReal) := by
  induction x using EReal.rec with
  | bot => simp [Ideal.cmp] at h
  | coe r => exact ⟨r, rfl⟩
  | top => simp [Ideal.cmp] at h

/-- Under the precondition every edge length is a real number. -/
theorem lengths_real (a0 : IVec S2x160000 32) (a1 : IVec S160000 32) (a2 : FVec Ideal S160000x9 .f32)
    (a3 : FVec Ideal S160000 .f32) (a4 : FVec Ideal S10000x4 .f32) (a5 : FVec Ideal S8 .f32)
    (a6 : FVec Ideal S16x128 .f32) (a7 : FVec Ideal S128x256 .f32) (a8 : FVec Ideal S256x512 .f32)
    (a9 : FVec Ideal S512x1024 .f32) (a10 : FVec Ideal S1024x96 .f32)
    (h : fn (F := Ideal) a0 a1 a2 a3 a4 a5 a6 a7 a8 a9 a10 = fun _ => 1#1) (i : S160000.Idx) :
    ∃ ρ : ℝ, a3 i = (ρ : EReal) := by
  have h0 := congrFun h ValueIdx.ix0
  dsimp only [fn, fn_part1, fn_part2] at h0
  have h7 := (IntOp.andi_eq_one.mp (IntOp.andi_eq_one.mp (IntOp.andi_eq_one.mp (IntOp.andi_eq_one.mp
    (IntOp.andi_eq_one.mp (IntOp.andi_eq_one.mp (IntOp.andi_eq_one.mp (IntOp.andi_eq_one.mp h0).1).1).1).1).1).1).1).2
  have hi := Host.reduce_andi_all _ _ _ _ ValueIdx.ix0 h7 i
  have hi' : Ideal.cmp .olt (max (a3 i) (-(a3 i))) (Ideal.ofBits .f32 0x7F800000#32) = 1#1 := hi
  rw [show Ideal.ofBits .f32 0x7F800000#32 = ⊤ from EdgeSpec.lit_inf] at hi'
  exact real_of_abs_lt_top _ hi'

end Cert.FiniteLengths

end
-- ==== Proof.KernelHost.lean ====
/-
  What the host lines around the kernel's one region compute.

  Before the region three operand arrays are made from the arguments: the [160000, 8] table of node features
  (the one-hot row of each edge's centre, then of its neighbour, both gathered from the node table by the
  edge's two end points, a negative end point counted from the table's end), the lengths as a column
  [160000, 1] and the frequencies as a row [1, 8]. After the region the envelope's column is read back as a
  vector [160000].
-/
import proofs.«107756_j46729244181055_1_alg».proof.Proof.Gen.KernelIdeal.Frame
import Idealize.ShloMosaic.Lib.StableHlo.Run
import Idealize.ShloMosaic.Lib.Pipeline.Value
import Idealize.ShloMosaic.Lib.ValueIdx

noncomputable section

namespace Cert.KernelHost

open Idealize.ShloMosaic Idealize.ShloMosaic.TcCoe Idealize.SL.Sem Idealize.ShloMosaic.StableHlo
open Idealize.ShloMosaic.Pipeline (Dat)
open Idealize.ShloMosaic.ValueIdx
open Cert.KernelIdeal Cert.KernelIdeal.Gen

variable (m : (ℓ : Loc nD τ sig) → Buf (Elt Ideal) ℓ)

/-- End points as row numbers of the node table: a negative one counted from the table's end (10000 added),
    laid out as a column of start indices. -/
def startRows (v : IVec S160000 32) : IVec S160000x1 32 :=
  broadcastInDim S160000x1 ![0] bcast_S160000_S160000x1_0
    (select (cmpi .slt v (broadcastInDim S160000 ![] bcast_S_S160000 (constantI S_ 32 0#32)))
      (addi v (broadcastInDim S160000 ![] bcast_S_S160000 (constantI S_ 32 10000#32))) v)

/-- The one-hot rows of the edges' centres (row 0 of the end-point table). -/
def centres (a0 : IVec S2x160000 32) (a4 : FVec Ideal S10000x4 .f32) : FVec Ideal S160000x4 .f32 :=
  Host.gather gather_S10000x4_S160000x1_S160000x4_1_0_n_n_0_1_14 a4
    (startRows (shapeCast S160000 (extractStridedSlice S1x160000 ![0, 0] a0 slices_S2x160000_S1x160000_0_0)
      shapeCasts_S1x160000_S160000))

/-- The one-hot rows of the edges' neighbours (row 1 of the end-point table). -/
def neighbours (a0 : IVec S2x160000 32) (a4 : FVec Ideal S10000x4 .f32) : FVec Ideal S160000x4 .f32 :=
  Host.gather gather_S10000x4_S160000x1_S160000x4_1_0_n_n_0_1_14 a4
    (startRows (shapeCast S160000 (extractStridedSlice S1x160000 ![1, 0] a0 slices_S2x160000_S1x160000_1_0)
      shapeCasts_S1x160000_S160000))

set_option maxHeartbeats 2000000 in
/-- The node-feature table the region finds: centres' rows and neighbours' rows side by side. -/
theorem nodes_eq (c : Dev nD) :
    (V m c main_v18 : Vec Ideal S160000x8 .f32)
      = concatenate S160000x8 1 [⟨S160000x4, centres (m ((c : Thread nD τ).loc main_arg0)) (m ((c : Thread nD τ).loc main_arg4))⟩,
          ⟨S160000x4, neighbours (m ((c : Thread nD τ).loc main_arg0)) (m ((c : Thread nD τ).loc main_arg4))⟩]
          concatenates_S160000x4_S160000x4_S160000x8_d1 := by
  dsimp only [Gen.V, Gen.V0]
  simp only [Gen.hostOps0, List.flatten_cons, List.flatten_nil, List.append_nil, List.cons_append, List.nil_append]
  after_results_simp
  rfl

set_option maxHeartbeats 2000000 in
/-- The length column the region finds: the lengths, reshaped. -/
theorem lengths_eq (c : Dev nD) :
    (V m c main_v19 : Vec Ideal S160000x1 .f32)
      = shapeCast S160000x1 (m ((c : Thread nD τ).loc main_arg3)) shapeCasts_S160000_S160000x1 := by
  dsimp only [Gen.V, Gen.V0]
  simp only [Gen.hostOps0, List.flatten_cons, List.flatten_nil, List.append_nil, List.cons_append, List.nil_append]
  after_results_simp
  rfl

set_option maxHeartbeats 2000000 in
/-- The frequency row the region finds: the frequencies, reshaped. -/
theorem freqs_eq (c : Dev nD) :
    (V m c main_v20 : Vec Ideal S1x8 .f32)
      = shapeCast S1x8 (m ((c : Thread nD τ).loc main_arg5)) shapeCasts_S8_S1x8 := by
  dsimp only [Gen.V, Gen.V0]
  simp only [Gen.hostOps0, List.flatten_cons, List.flatten_nil, List.append_nil, List.cons_append, List.nil_append]
  after_results_simp
  rfl

/-- The third result: the envelope column the region leaves, reshaped to a vector. -/
theorem tail_eq (c : Dev nD) :
    Pipeline.afterTail₀ cfgs (dats m) 0 (V0 m) [hostOps1] c main_v22
      = shapeCast S160000 ((dats m 0 c).arrAt 11 cfg0.N) shapeCasts_S160000x1_S160000 := by
  unfold Pipeline.afterTail₀
  show StableHlo.after hostOps1 _ (Proc.devRef .tc main_v22) = _
  after_results
  rw [Pipeline.withArrays_arr spec0 launch0.win.arr_inj c _ _ 11]
  rfl

/-! ## The operand arrays read at an index -/

/-- The length column at edge `e` is the edge's length. -/
theorem lengths_at (c : Dev nD) (e : Fin 160000) :
    (V m c main_v19 : Vec Ideal S160000x1 .f32) (ix2 e (0 : Fin 1))
      = (m ((c : Thread nD τ).loc main_arg3) : Vec Ideal S160000 .f32) (ix1 e) := by
  rw [lengths_eq]
  exact shapeCast_apply _ shapeCasts_S160000_S160000x1 (ix2 e (0 : Fin 1)) (ix1 e)
    (by rewrite [Shape.rowMajor_val_one, Shape.rowMajor_val_two]; show e.val = e.val * 1 + 0; omega)

/-- The frequency row at column `a` is frequency `a`. -/
theorem freqs_at (c : Dev nD) (a : Fin 8) :
    (V m c main_v20 : Vec Ideal S1x8 .f32) (ix2 (0 : Fin 1) a)
      = (m ((c : Thread nD τ).loc main_arg5) : Vec Ideal S8 .f32) (ix1 a) := by
  rw [freqs_eq]
  exact shapeCast_apply _ shapeCasts_S8_S1x8 (ix2 (0 : Fin 1) a) (ix1 a)
    (by rewrite [Shape.rowMajor_val_one, Shape.rowMajor_val_two]; show a.val = 0 * 8 + a.val; omega)

/-- The first four columns of the node-feature table are the centre's one-hot row. -/
theorem nodes_lo (c : Dev nD) (e : Fin 160000) (a : Fin 4) :
    (V m c main_v18 : Vec Ideal S160000x8 .f32) (ix2 e (⟨a.val, by have := a.isLt; omega⟩ : Fin 8))
      = centres (m ((c : Thread nD τ).loc main_arg0)) (m ((c : Thread nD τ).loc main_arg4)) (ix2 e a) := by
  rw [nodes_eq]
  exact concatenate_pair_apply_left (t := S160000x8) (s₁ := S160000x4) (s₂ := S160000x4) (1 : Fin 2)
    (centres (m ((c : Thread nD τ).loc main_arg0)) (m ((c : Thread nD τ).loc main_arg4)))
    (neighbours (m ((c : Thread nD τ).loc main_arg0)) (m ((c : Thread nD τ).loc main_arg4)))
    concatenates_S160000x4_S160000x4_S160000x8_d1 (ix2 e (⟨a.val, by have := a.isLt; omega⟩ : Fin 8)) rfl (ix2 e a)
    (fun b => by match b with | ⟨0, _⟩ => rfl | ⟨1, _⟩ => rfl)

/-- The last four columns of the node-feature table are the neighbour's one-hot row. -/
theorem nodes_hi (c : Dev nD) (e : Fin 160000) (a : Fin 4) :
    (V m c main_v18 : Vec Ideal S160000x8 .f32) (ix2 e (⟨a.val + 4, by have := a.isLt; omega⟩ : Fin 8))
      = neighbours (m ((c : Thread nD τ).loc main_arg0)) (m ((c : Thread nD τ).loc main_arg4)) (ix2 e a) := by
  rw [nodes_eq]
  exact concatenate_pair_apply_right (t := S160000x8) (s₁ := S160000x4) (s₂ := S160000x4) (1 : Fin 2)
    (centres (m ((c : Thread nD τ).loc main_arg0)) (m ((c : Thread nD τ).loc main_arg4)))
    (neighbours (m ((c : Thread nD τ).loc main_arg0)) (m ((c : Thread nD τ).loc main_arg4)))
    concatenates_S160000x4_S160000x4_S160000x8_d1 (ix2 e (⟨a.val + 4, by have := a.isLt; omega⟩ : Fin 8)) rfl rfl (ix2 e a)
    (fun b hb => by match b with | ⟨0, _⟩ => rfl | ⟨1, _⟩ => exact absurd rfl hb)
    (by show a.val + 4 = a.val + 4; rfl)

/-- A column [160000, 1] reshaped to a vector, at edge `e`, is the column's entry of row `e`. -/
theorem column_at (x : Vec Ideal S160000x1 .f32) (e : Fin 160000) :
    shapeCast S160000 x shapeCasts_S160000x1_S160000 (ix1 e) = x (ix2 e (0 : Fin 1)) :=
  shapeCast_apply x shapeCasts_S160000x1_S160000 (ix1 e) (ix2 e (0 : Fin 1))
    (by rewrite [Shape.rowMajor_val_one, Shape.rowMajor_val_two]; show e.val * 1 + 0 = e.val; omega)

end Cert.KernelHost

end
-- ==== Proof.KernelRows.lean ====
/-
  The kernel body's arithmetic read at an index, against the one-edge specification.

  The body works on a block of 1000 edges. On the extended reals a change of float format is the identity and a
  matrix product into a zero accumulator is the plain sum over the contracted index, so row `p` of every value the
  body computes depends on row `p` of the loaded blocks only: the envelope in its product form, the sixteen
  first-layer inputs (the row's node features, then its radial basis), each matrix product with its scaled weight
  a dense layer on the row, `y · σ(y)` between the layers, and the three outer products with the harmonic
  components, reshaped and laid end to end, the weighted harmonics.
-/
import proofs.«107756_j46729244181055_1_alg».proof.Proof.Gen.KernelIdeal.Skeleton
import proofs.«107756_j46729244181055_1_alg».proof.Proof.EdgeSpec
import Idealize.ShloMosaic.Lib.ValueIdx
import Idealize.ShloMosaic.Lib.ValueLayout
import Idealize.ShloMosaic.Lib.Pipeline.Value
import Idealize.ShloMosaic.PureOps.Ideal.Laws

noncomputable section

namespace Cert.KernelRows

open Idealize.ShloMosaic Idealize.ShloMosaic.ValueIdx Cert.KernelIdeal Cert.KernelIdeal.Gen

/-- A reshape to the same shape changes nothing: the body's copy of the lengths is the lengths. -/
theorem pay2_eq (v0 : Vec Ideal S1000x1 .f32) : k0_pay2 (F := Ideal) v0 = v0 := shapeCast_self _ _

/-- The envelope the body stores, at row `p`: the product form at that row's length. -/
theorem pay3_apply (v0 : Vec Ideal S1000x1 .f32) (p : Fin 1000) :
    k0_pay3 (F := Ideal) v0 (ix2 p (0 : Fin 1)) = EdgeSpec.envMul (v0 (ix2 p (0 : Fin 1))) := by
  unfold k0_pay3
  rw [pay2_eq]
  rfl

/-- A row of eight broadcast down the thousand rows reads its column entry. -/
theorem bcast_row8 (x : FVec Ideal S1x8 .f32) (h : S1x8.Broadcasts S1000x8) (p : Fin 1000) (k : Fin 8) :
    broadcastTo S1000x8 x h (ix2 p k) = x (ix2 (0 : Fin 1) k) :=
  broadcastTo_apply x h (ix2 p k) (ix2 (0 : Fin 1) k) (fun a => match a with | ⟨0, _⟩ => rfl | ⟨1, _⟩ => rfl)

/-- A column broadcast across eight lanes reads its row entry. -/
theorem bcast_col8 (x : FVec Ideal S1000x1 .f32) (h : S1000x1.Broadcasts S1000x8) (p : Fin 1000) (k : Fin 8) :
    broadcastTo S1000x8 x h (ix2 p k) = x (ix2 p (0 : Fin 1)) :=
  broadcastTo_apply x h (ix2 p k) (ix2 p (0 : Fin 1)) (fun a => match a with | ⟨0, _⟩ => rfl | ⟨1, _⟩ => rfl)

/-- The sixteen first-layer inputs of row `p`: the row's eight node features, then its radial basis. -/
theorem pay4_apply (v0 : Vec Ideal S1000x1 .f32) (v2 : Vec Ideal S1x8 .f32) (v4 : Vec Ideal S1000x8 .f32)
    (p : Fin 1000) (k : Fin 16) :
    k0_pay4 (F := Ideal) v0 v2 v4 (ix2 p k)
      = EdgeSpec.joined (fun a => v4 (ix2 p (⟨a.val, by have := a.isLt; omega⟩ : Fin 8)))
          (fun a => v4 (ix2 p (⟨a.val + 4, by have := a.isLt; omega⟩ : Fin 8)))
          (fun a => v2 (ix2 (0 : Fin 1) a)) (v0 (ix2 p (0 : Fin 1))) k := by
  unfold k0_pay4
  rw [pay2_eq, shapeCast_self, shapeCast_self]
  by_cases h8 : k.val < 8
  · refine (concatenate_pair_apply_left (t := S1000x16) (s₁ := S1000x8) (s₂ := S1000x8) (1 : Fin S1000x16.rank) _ _ _ (ix2 p k) rfl (ix2 p (⟨k.val, h8⟩ : Fin 8))
      (fun b => match b with | ⟨0, _⟩ => rfl | ⟨1, _⟩ => rfl)).trans ?_
    unfold EdgeSpec.joined
    by_cases h4 : k.val < 4
    · rw [dif_pos h4]
    · rw [dif_neg h4, dif_pos h8]
      exact congrArg (fun z => v4 (ix2 p z)) (Fin.ext (by show k.val = k.val - 4 + 4; omega))
  · have hk := k.isLt
    refine (concatenate_pair_apply_right (t := S1000x16) (s₁ := S1000x8) (s₂ := S1000x8) (1 : Fin S1000x16.rank) _ _ _ (ix2 p k) rfl rfl (ix2 p (⟨k.val - 8, by omega⟩ : Fin 8))
      (fun b hb => match b, hb with | ⟨0, _⟩, _ => rfl | ⟨1, _⟩, hb => absurd rfl hb)
      (by show k.val - 8 + 8 = k.val; omega)).trans ?_
    unfold EdgeSpec.joined
    rw [dif_neg (by omega), dif_neg h8]
    show Ideal.div (_ * Ideal.sin (Ideal.div (broadcastTo S1000x8 v2 _ _ * broadcastTo S1000x8 v0 _ _) _)) (broadcastTo S1000x8 v0 _ _) = _
    rw [bcast_row8, bcast_col8]
    rfl

/-- A plain rows-by-columns product into the zero accumulator, read at row `p`, column `j`: the sum over the
    contracted axis of the row's entries times the column's. -/
theorem plain_matmul_apply {M K N : Nat} {φ₁ φ₂ : FTy} (x : FVec Ideal ⟨2, ![M, K]⟩ φ₁) (w : FVec Ideal ⟨2, ![K, N]⟩ φ₂)
    (p : Fin M) (j : Fin N) :
    FloatOps.matmul (DotDims.plain M K N) none x w (constant (F := Ideal) ⟨2, ![M, N]⟩ .f32 0x00000000#32) (ix2 p j)
      = ∑ k : Fin K, x (ix2 p k) * w (ix2 k j) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p j) ((contrEquiv1 (DotDims.plain M K N) K rfl rfl).symm k) = ix2 p k :=
    funext fun a => Fin.ext (by
      match a with
      | ⟨0, _⟩ => rfl
      | ⟨1, _⟩ => exact ((DotDims.plain M K N).lhsIdx_val_of_single rfl _ _).trans hk)
  have er : (DotDims.plain M K N).rhsIdx (ix2 p j) ((contrEquiv1 (DotDims.plain M K N) K rfl rfl).symm k) = ix2 k j :=
    funext fun a => Fin.ext (by
      match a with
      | ⟨0, _⟩ => exact ((DotDims.plain M K N).rhsIdx_val_of_single rfl _ _).trans hk
      | ⟨1, _⟩ => rfl)
  rw [el, er]

/-- One dense layer as the body spells it: the weights scaled by a constant, both operands narrowed, the
    product accumulated into zero. At row `p`, column `j` it is the specification's dense layer on row `p`. -/
theorem dense_layer {M K N : Nat} (D : DotDims ⟨2, ![M, K]⟩ ⟨2, ![K, N]⟩ ⟨2, ![M, N]⟩) (hD : D = DotDims.plain M K N)
    (x : FVec Ideal ⟨2, ![M, K]⟩ .f32) (w : FVec Ideal ⟨2, ![K, N]⟩ .f32) (c : BitVec 32)
    (hb : FTy.bits .bf16 < FTy.bits .f32) (p : Fin M) (j : Fin N) :
    matmul D none (truncf .bf16 x hb) (truncf .bf16 (mulf w (broadcast ⟨2, ![K, N]⟩ (Scalar.ofBits (F := Ideal) .f32 c))) hb)
        (constant (F := Ideal) ⟨2, ![M, N]⟩ .f32 0x00000000#32) (ix2 p j)
      = EdgeSpec.dense (EdgeSpec.lit c) (fun k => x (ix2 p k)) (fun k j => w (ix2 k j)) j := by
  subst hD
  exact (plain_matmul_apply _ _ p j).trans rfl

/-- The activation as the body spells it, read at an index. -/
theorem silu_apply {s : Shape} (y : FVec Ideal s .f32) (i : s.Idx) : mulf y (logistic y) i = EdgeSpec.silu (y i) := rfl

/-- The four dense layers on row `p` of the first-layer inputs. -/
theorem pay5_apply (v39 : FVec Ideal S1000x16 .f32) (v40 : Vec Ideal S16x128 .f32) (v48 : Vec Ideal S128x256 .f32)
    (v56 : Vec Ideal S256x512 .f32) (v64 : Vec Ideal S512x1024 .f32) (p : Fin 1000) (q : Fin 1024) :
    k0_pay5 (F := Ideal) v39 v40 v48 v56 v64 (ix2 p q)
      = EdgeSpec.hidden (fun k => v39 (ix2 p k)) (fun k j => v40 (ix2 k j)) (fun k j => v48 (ix2 k j))
          (fun k j => v56 (ix2 k j)) (fun k j => v64 (ix2 k j)) q := by
  unfold k0_pay5 EdgeSpec.hidden
  refine (dense_layer _ rfl _ _ _ _ p q).trans ?_
  refine congrArg (fun f => EdgeSpec.dense _ f _ q) (funext fun k2 => ?_)
  refine (silu_apply _ _).trans (congrArg EdgeSpec.silu ?_)
  refine (dense_layer _ rfl _ _ _ _ p k2).trans ?_
  refine congrArg (fun f => EdgeSpec.dense _ f _ k2) (funext fun k1 => ?_)
  refine (silu_apply _ _).trans (congrArg EdgeSpec.silu ?_)
  refine (dense_layer _ rfl _ _ _ _ p k1).trans ?_
  refine congrArg (fun f => EdgeSpec.dense _ f _ k1) (funext fun k0 => ?_)
  refine (silu_apply _ _).trans (congrArg EdgeSpec.silu ?_)
  exact dense_layer _ rfl _ _ _ _ p k0

/-- A column of a thousand rows broadcast across `N` lanes reads its row entry. -/
theorem bcast_col {N : Nat} {φ : FTy} (x : FVec Ideal S1000x1 φ) (h : S1000x1.Broadcasts ⟨2, ![1000, N]⟩) (p : Fin 1000) (k : Fin N) :
    broadcastTo ⟨2, ![1000, N]⟩ x h (ix2 p k) = x (ix2 p (0 : Fin 1)) :=
  broadcastTo_apply x h (ix2 p k) (ix2 p (0 : Fin 1)) (fun a => match a with | ⟨0, _⟩ => rfl | ⟨1, _⟩ => rfl)

/-- The stored latents: the row's envelope times the row's four dense layers. -/
theorem pay6_apply (v38 : FVec Ideal S1000x1 .f32) (v39 : FVec Ideal S1000x16 .f32) (v40 : Vec Ideal S16x128 .f32)
    (v48 : Vec Ideal S128x256 .f32) (v56 : Vec Ideal S256x512 .f32) (v64 : Vec Ideal S512x1024 .f32)
    (p : Fin 1000) (q : Fin 1024) :
    k0_pay6 (F := Ideal) v38 v39 v40 v48 v56 v64 (ix2 p q)
      = v38 (ix2 p (0 : Fin 1)) * EdgeSpec.hidden (fun k => v39 (ix2 p k)) (fun k j => v40 (ix2 k j))
          (fun k j => v48 (ix2 k j)) (fun k j => v56 (ix2 k j)) (fun k j => v64 (ix2 k j)) q := by
  unfold k0_pay6
  show broadcastTo S1000x1024 v38 _ (ix2 p q) * k0_pay5 (F := Ideal) v39 v40 v48 v56 v64 (ix2 p q) = _
  rw [bcast_col, pay5_apply]

/-- The 96 mixing weights of row `p`. -/
theorem pay7_apply (v39 : FVec Ideal S1000x16 .f32) (v40 : Vec Ideal S16x128 .f32) (v48 : Vec Ideal S128x256 .f32)
    (v56 : Vec Ideal S256x512 .f32) (v64 : Vec Ideal S512x1024 .f32) (v72 : Vec Ideal S1024x96 .f32)
    (p : Fin 1000) (j : Fin 96) :
    k0_pay7 (F := Ideal) v39 v40 v48 v56 v64 v72 (ix2 p j)
      = EdgeSpec.mix (EdgeSpec.hidden (fun k => v39 (ix2 p k)) (fun k j => v40 (ix2 k j)) (fun k j => v48 (ix2 k j))
          (fun k j => v56 (ix2 k j)) (fun k j => v64 (ix2 k j))) (fun k j => v72 (ix2 k j)) j := by
  unfold k0_pay7 EdgeSpec.mix
  refine (dense_layer _ rfl _ _ _ _ p j).trans ?_
  exact congrArg (fun f => EdgeSpec.dense _ f _ j) (funext fun k => pay5_apply v39 v40 v48 v56 v64 p k)

section Layout
variable {α : Type}

/-- Columns `o … o + w − 1` of a thousand-row array, read at row `p`, column `a`. -/
theorem slice_cols {W w o : Nat} (x : (⟨2, ![1000, W]⟩ : Shape).Idx → α)
    (h : (⟨2, ![1000, W]⟩ : Shape).Slices ![0, o] ⟨2, ![1000, w]⟩) (p : Fin 1000) (a : Fin w) (hlt : o + a.val < W) :
    extractStridedSlice ⟨2, ![1000, w]⟩ ![0, o] x h (ix2 p a) = x (ix2 p (⟨o + a.val, hlt⟩ : Fin W)) :=
  extractStridedSlice_apply _ x h (ix2 p a) _ (fun b => match b with | ⟨0, _⟩ => (Nat.zero_add _).symm | ⟨1, _⟩ => rfl)

/-- The leading `w` columns of a thousand-row array, read at row `p`, column `a`. -/
theorem slice_cols0 {W w : Nat} (x : (⟨2, ![1000, W]⟩ : Shape).Idx → α)
    (h : (⟨2, ![1000, W]⟩ : Shape).Slices ![0, 0] ⟨2, ![1000, w]⟩) (p : Fin 1000) (a : Fin w) (hlt : a.val < W) :
    extractStridedSlice ⟨2, ![1000, w]⟩ ![0, 0] x h (ix2 p a) = x (ix2 p (⟨a.val, hlt⟩ : Fin W)) :=
  extractStridedSlice_apply _ x h (ix2 p a) _ (fun b => match b with | ⟨0, _⟩ => (Nat.zero_add _).symm | ⟨1, _⟩ => (Nat.zero_add _).symm)

/-- Dropping a trailing unit axis. -/
theorem cast_drop1 (x : S1000x32x1.Idx → α) (h : S1000x32x1.ShapeCasts S1000x32) (p : Fin 1000) (a : Fin 32) :
    shapeCast S1000x32 x h (ix2 p a) = x (ix3 p a (0 : Fin 1)) :=
  shapeCast_apply x h (ix2 p a) (ix3 p a (0 : Fin 1)) (by
    rw [Shape.rowMajor_val_three, Shape.rowMajor_val_two]
    show (p.val * 32 + a.val) * 1 + 0 = p.val * 32 + a.val
    omega)

/-- Adding a trailing unit axis. -/
theorem cast_add1 (x : S1000x32.Idx → α) (h : S1000x32.ShapeCasts S1000x32x1) (p : Fin 1000) (a : Fin 32) (z : Fin 1) :
    shapeCast S1000x32x1 x h (ix3 p a z) = x (ix2 p a) :=
  shapeCast_apply x h (ix3 p a z) (ix2 p a) (by
    rw [Shape.rowMajor_val_three, Shape.rowMajor_val_two]
    show p.val * 32 + a.val = (p.val * 32 + a.val) * 1 + z.val
    omega)

/-- A column seen with two unit axes. -/
theorem cast_col11 (x : S1000x1.Idx → α) (h : S1000x1.ShapeCasts S1000x1x1) (p : Fin 1000) (y z : Fin 1) :
    shapeCast S1000x1x1 x h (ix3 p y z) = x (ix2 p (0 : Fin 1)) :=
  shapeCast_apply x h (ix3 p y z) (ix2 p (0 : Fin 1)) (by
    rw [Shape.rowMajor_val_three, Shape.rowMajor_val_two]
    show p.val * 1 + 0 = (p.val * 1 + y.val) * 1 + z.val
    omega)

/-- Three columns seen with a unit axis in the middle. -/
theorem cast_1x3 (x : S1000x3.Idx → α) (h : S1000x3.ShapeCasts S1000x1x3) (p : Fin 1000) (y : Fin 1) (c : Fin 3) :
    shapeCast S1000x1x3 x h (ix3 p y c) = x (ix2 p c) :=
  shapeCast_apply x h (ix3 p y c) (ix2 p c) (by
    rw [Shape.rowMajor_val_three, Shape.rowMajor_val_two]
    show p.val * 3 + c.val = (p.val * 1 + y.val) * 3 + c.val
    omega)

/-- Five columns seen with a unit axis in the middle. -/
theorem cast_1x5 (x : S1000x5.Idx → α) (h : S1000x5.ShapeCasts S1000x1x5) (p : Fin 1000) (y : Fin 1) (c : Fin 5) :
    shapeCast S1000x1x5 x h (ix3 p y c) = x (ix2 p c) :=
  shapeCast_apply x h (ix3 p y c) (ix2 p c) (by
    rw [Shape.rowMajor_val_three, Shape.rowMajor_val_two]
    show p.val * 5 + c.val = (p.val * 1 + y.val) * 5 + c.val
    omega)

/-- Thirty-two triples laid end to end: column `b` is entry `b % 3` of triple `b / 3`. -/
theorem cast_flat3 (x : S1000x32x3.Idx → α) (h : S1000x32x3.ShapeCasts S1000x96) (p : Fin 1000) (b : Fin 96) :
    shapeCast S1000x96 x h (ix2 p b)
      = x (ix3 p (⟨b.val / 3, by have := b.isLt; omega⟩ : Fin 32) (⟨b.val % 3, by omega⟩ : Fin 3)) :=
  shapeCast_apply x h (ix2 p b) _ (by
    rw [Shape.rowMajor_val_three, Shape.rowMajor_val_two]
    show (p.val * 32 + b.val / 3) * 3 + b.val % 3 = p.val * 96 + b.val
    omega)

/-- Thirty-two quintuples laid end to end: column `b` is entry `b % 5` of quintuple `b / 5`. -/
theorem cast_flat5 (x : S1000x32x5.Idx → α) (h : S1000x32x5.ShapeCasts S1000x160) (p : Fin 1000) (b : Fin 160) :
    shapeCast S1000x160 x h (ix2 p b)
      = x (ix3 p (⟨b.val / 5, by have := b.isLt; omega⟩ : Fin 32) (⟨b.val % 5, by omega⟩ : Fin 5)) :=
  shapeCast_apply x h (ix2 p b) _ (by
    rw [Shape.rowMajor_val_three, Shape.rowMajor_val_two]
    show (p.val * 32 + b.val / 5) * 5 + b.val % 5 = p.val * 160 + b.val
    omega)

/-- One entry per row repeated down the middle axis. -/
theorem bc_111_321 (x : S1000x1x1.Idx → α) (h : S1000x1x1.Broadcasts S1000x32x1) (p : Fin 1000) (a : Fin 32) (z : Fin 1) :
    broadcastTo S1000x32x1 x h (ix3 p a z) = x (ix3 p (0 : Fin 1) (0 : Fin 1)) :=
  broadcastTo_apply x h (ix3 p a z) _ (fun b => match b with | ⟨0, _⟩ => rfl | ⟨1, _⟩ => rfl | ⟨2, _⟩ => rfl)

/-- A weight repeated along the last axis (three entries). -/
theorem bc_321_323 (x : S1000x32x1.Idx → α) (h : S1000x32x1.Broadcasts S1000x32x3) (p : Fin 1000) (a : Fin 32) (c : Fin 3) :
    broadcastTo S1000x32x3 x h (ix3 p a c) = x (ix3 p a (0 : Fin 1)) :=
  broadcastTo_apply x h (ix3 p a c) _ (fun b => match b with | ⟨0, _⟩ => rfl | ⟨1, _⟩ => rfl | ⟨2, _⟩ => rfl)

/-- A weight repeated along the last axis (five entries). -/
theorem bc_321_325 (x : S1000x32x1.Idx → α) (h : S1000x32x1.Broadcasts S1000x32x5) (p : Fin 1000) (a : Fin 32) (c : Fin 5) :
    broadcastTo S1000x32x5 x h (ix3 p a c) = x (ix3 p a (0 : Fin 1)) :=
  broadcastTo_apply x h (ix3 p a c) _ (fun b => match b with | ⟨0, _⟩ => rfl | ⟨1, _⟩ => rfl | ⟨2, _⟩ => rfl)

/-- A triple repeated down the middle axis. -/
theorem bc_113_323 (x : S1000x1x3.Idx → α) (h : S1000x1x3.Broadcasts S1000x32x3) (p : Fin 1000) (a : Fin 32) (c : Fin 3) :
    broadcastTo S1000x32x3 x h (ix3 p a c) = x (ix3 p (0 : Fin 1) c) :=
  broadcastTo_apply x h (ix3 p a c) _ (fun b => match b with | ⟨0, _⟩ => rfl | ⟨1, _⟩ => rfl | ⟨2, _⟩ => rfl)

/-- A quintuple repeated down the middle axis. -/
theorem bc_115_325 (x : S1000x1x5.Idx → α) (h : S1000x1x5.Broadcasts S1000x32x5) (p : Fin 1000) (a : Fin 32) (c : Fin 5) :
    broadcastTo S1000x32x5 x h (ix3 p a c) = x (ix3 p (0 : Fin 1) c) :=
  broadcastTo_apply x h (ix3 p a c) _ (fun b => match b with | ⟨0, _⟩ => rfl | ⟨1, _⟩ => rfl | ⟨2, _⟩ => rfl)

/-- Three blocks of 32, 96 and 160 columns laid end to end, read at row `p`, column `q`. -/
theorem cat3_apply (x0 : S1000x32.Idx → α) (x1 : S1000x96.Idx → α) (x2 : S1000x160.Idx → α)
    (h : Shape.Concatenates [S1000x32, S1000x96, S1000x160] S1000x288 1) (p : Fin 1000) (q : Fin 288) :
    concatenate S1000x288 1 [⟨S1000x32, x0⟩, ⟨S1000x96, x1⟩, ⟨S1000x160, x2⟩] h (ix2 p q)
      = if h0 : q.val < 32 then x0 (ix2 p (⟨q.val, h0⟩ : Fin 32))
        else if h1 : q.val < 128 then x1 (ix2 p (⟨q.val - 32, by omega⟩ : Fin 96))
        else x2 (ix2 p (⟨q.val - 128, by have := q.isLt; omega⟩ : Fin 160)) := by
  have hq := q.isLt
  by_cases h0 : q.val < 32
  · rw [dif_pos h0]
    exact concatenate_apply_piece (t := S1000x288) (1 : Fin S1000x288.rank) [⟨S1000x32, x0⟩, ⟨S1000x96, x1⟩, ⟨S1000x160, x2⟩] h (ix2 p q) 0 (by show 0 < 3; omega) S1000x32 x0 rfl rfl 0 rfl
      (ix2 p (⟨q.val, h0⟩ : Fin 32))
      (fun b hb => match b, hb with | ⟨0, _⟩, _ => rfl | ⟨1, _⟩, hb => absurd rfl hb) (Nat.zero_add _)
  · rw [dif_neg h0]
    by_cases h1 : q.val < 128
    · rw [dif_pos h1]
      exact concatenate_apply_piece (t := S1000x288) (1 : Fin S1000x288.rank) [⟨S1000x32, x0⟩, ⟨S1000x96, x1⟩, ⟨S1000x160, x2⟩] h (ix2 p q) 1 (by show 1 < 3; omega) S1000x96 x1 rfl rfl 32 rfl
        (ix2 p (⟨q.val - 32, by omega⟩ : Fin 96))
        (fun b hb => match b, hb with | ⟨0, _⟩, _ => rfl | ⟨1, _⟩, hb => absurd rfl hb)
        (by show 32 + (q.val - 32) = q.val; omega)
    · rw [dif_neg h1]
      exact concatenate_apply_piece (t := S1000x288) (1 : Fin S1000x288.rank) [⟨S1000x32, x0⟩, ⟨S1000x96, x1⟩, ⟨S1000x160, x2⟩] h (ix2 p q) 2 (by show 2 < 3; omega) S1000x160 x2 rfl rfl 128 rfl
        (ix2 p (⟨q.val - 128, by omega⟩ : Fin 160))
        (fun b hb => match b, hb with | ⟨0, _⟩, _ => rfl | ⟨1, _⟩, hb => absurd rfl hb)
        (by show 128 + (q.val - 128) = q.val; omega)

end Layout

/-- The stored features of row `p`: the weighted harmonics of the row's mixing weights and the row's
    nine harmonic components. -/
theorem pay1_apply (v6 : Vec Ideal S1000x9 .f32) (v39 : FVec Ideal S1000x16 .f32) (v40 : Vec Ideal S16x128 .f32)
    (v48 : Vec Ideal S128x256 .f32) (v56 : Vec Ideal S256x512 .f32) (v64 : Vec Ideal S512x1024 .f32)
    (v72 : Vec Ideal S1024x96 .f32) (p : Fin 1000) (q : Fin 288) :
    k0_pay1 (F := Ideal) v6 (k0_pay7 v39 v40 v48 v56 v64 v72) (k0_pay8 v39 v40 v48 v56 v64 v72) (k0_pay9 v6) (ix2 p q)
      = EdgeSpec.tensor (fun j => k0_pay7 (F := Ideal) v39 v40 v48 v56 v64 v72 (ix2 p j)) (fun k => v6 (ix2 p k)) q := by
  unfold k0_pay1 k0_pay8 k0_pay9
  generalize k0_pay7 (F := Ideal) v39 v40 v48 v56 v64 v72 = W
  have hq := q.isLt
  refine (cat3_apply _ _ _ _ p q).trans ?_
  unfold EdgeSpec.tensor
  by_cases h0 : q.val < 32
  · rw [dif_pos h0, dif_pos h0]
    refine (cast_drop1 _ _ p (⟨q.val, h0⟩ : Fin 32)).trans ?_
    refine (mulf_apply _ _ _).trans (congrArg₂ (· * ·) ?_ ?_)
    · exact (cast_add1 _ _ p _ _).trans (slice_cols0 W _ p _ _)
    · exact (bc_111_321 _ _ p _ _).trans ((cast_col11 _ _ p _ _).trans (slice_cols0 v6 _ p _ _))
  · rw [dif_neg h0, dif_neg h0]
    by_cases h1 : q.val < 128
    · rw [dif_pos h1, dif_pos h1]
      refine (cast_flat3 _ _ p (⟨q.val - 32, by omega⟩ : Fin 96)).trans ?_
      refine (mulf_apply _ _ _).trans (congrArg₂ (· * ·) ?_ ?_)
      · exact (bc_321_323 _ _ p _ _).trans ((cast_add1 _ _ p _ _).trans (slice_cols W _ p _ _))
      · exact (bc_113_323 _ _ p _ _).trans ((cast_1x3 _ _ p _ _).trans (slice_cols v6 _ p _ _))
    · rw [dif_neg h1, dif_neg h1]
      refine (cast_flat5 _ _ p (⟨q.val - 128, by omega⟩ : Fin 160)).trans ?_
      refine (mulf_apply _ _ _).trans (congrArg₂ (· * ·) ?_ ?_)
      · exact (bc_321_325 _ _ p _ _).trans ((cast_add1 _ _ p _ _).trans (slice_cols W _ p _ _))
      · exact (bc_115_325 _ _ p _ _).trans ((cast_1x5 _ _ p _ _).trans (slice_cols v6 _ p _ _))

end Cert.KernelRows

end
-- ==== Proof.KernelBlocks.lean ====
/-
  From the kernel's blocks to its three result arrays.

  The grid has 160 points; point `t` works on edges `1000 t … 1000 t + 999`: it is handed rows `1000 t …` of the
  node-feature table, of the length column and of the harmonics, and the whole frequency row and weight
  matrices, and writes back rows `1000 t …` of the latents, of the features and of the envelope column.
  Row `p` of what it writes depends on row `p` of what it is handed only (the row functions of the
  specification), so each result array, row by row, is the row function of the operand arrays' rows; and
  since every edge lies in exactly the block of the point `edge / 1000`, the blocks cover the arrays.
-/
import proofs.«107756_j46729244181055_1_alg».proof.Proof.Gen.KernelIdeal.Frame
import proofs.«107756_j46729244181055_1_alg».proof.Proof.KernelRows
import proofs.«107756_j46729244181055_1_alg».proof.Proof.EdgeSpec
import Idealize.ShloMosaic.Lib.Pipeline.Value
import Idealize.ShloMosaic.Lib.ValueIdx
import Idealize.ShloMosaic.Lib.Tactic

set_option maxRecDepth 16384

noncomputable section

namespace Cert.KernelBlocks

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ)

theorem hz : (![0, 0] : Fin 2 → Nat) = fun _ => 0 := funext fun a => by fin_cases a <;> rfl

/-! ## One row of each stored block, from the rows of the loaded blocks -/

/-- Row `p` of the latents' block: the row's envelope times the four dense layers on the row's sixteen inputs. -/
theorem out9_apply (x0 : Vec Ideal S1000x8 .f32) (x1 : Vec Ideal S1000x1 .f32) (x2 : Vec Ideal S1000x9 .f32) (x3 : Vec Ideal S1x8 .f32)
    (x4 : Vec Ideal S16x128 .f32) (x5 : Vec Ideal S128x256 .f32) (x6 : Vec Ideal S256x512 .f32) (x7 : Vec Ideal S512x1024 .f32)
    (x8 : Vec Ideal S1024x96 .f32) (p : Fin 1000) (q : Fin 1024) :
    out0_9 (F := Ideal) x0 x1 x2 x3 x4 x5 x6 x7 x8 (ix2 p q)
      = EdgeSpec.envMul (x1 (ix2 p (0 : Fin 1))) * EdgeSpec.hidden
          (EdgeSpec.joined (fun a => x0 (ix2 p (⟨a.val, by have := a.isLt; omega⟩ : Fin 8)))
            (fun a => x0 (ix2 p (⟨a.val + 4, by have := a.isLt; omega⟩ : Fin 8)))
            (fun a => x3 (ix2 (0 : Fin 1) a)) (x1 (ix2 p (0 : Fin 1))))
          (fun k j => x4 (ix2 k j)) (fun k j => x5 (ix2 k j)) (fun k j => x6 (ix2 k j)) (fun k j => x7 (ix2 k j)) q := by
  unfold out0_9
  rw [View.canon_unit_zero hz]
  simp only [View.ld_unit_zero (S := S1000x8) hz, View.ld_unit_zero (S := S1000x1) hz, View.ld_unit_zero (S := S1000x9) hz,
    View.ld_unit_zero (S := S1x8) hz, View.ld_unit_zero (S := S16x128) hz, View.ld_unit_zero (S := S128x256) hz,
    View.ld_unit_zero (S := S256x512) hz, View.ld_unit_zero (S := S512x1024) hz, View.ld_unit_zero (S := S1024x96) hz]
  rw [KernelRows.pay6_apply, KernelRows.pay3_apply]
  simp only [KernelRows.pay4_apply]

/-- Row `p` of the features' block: the weighted harmonics of the row's mixing weights and harmonic components. -/
theorem out10_apply (x0 : Vec Ideal S1000x8 .f32) (x1 : Vec Ideal S1000x1 .f32) (x2 : Vec Ideal S1000x9 .f32) (x3 : Vec Ideal S1x8 .f32)
    (x4 : Vec Ideal S16x128 .f32) (x5 : Vec Ideal S128x256 .f32) (x6 : Vec Ideal S256x512 .f32) (x7 : Vec Ideal S512x1024 .f32)
    (x8 : Vec Ideal S1024x96 .f32) (p : Fin 1000) (q : Fin 288) :
    out0_10 (F := Ideal) x0 x1 x2 x3 x4 x5 x6 x7 x8 (ix2 p q)
      = EdgeSpec.tensor (EdgeSpec.mix (EdgeSpec.hidden
          (EdgeSpec.joined (fun a => x0 (ix2 p (⟨a.val, by have := a.isLt; omega⟩ : Fin 8)))
            (fun a => x0 (ix2 p (⟨a.val + 4, by have := a.isLt; omega⟩ : Fin 8)))
            (fun a => x3 (ix2 (0 : Fin 1) a)) (x1 (ix2 p (0 : Fin 1))))
          (fun k j => x4 (ix2 k j)) (fun k j => x5 (ix2 k j)) (fun k j => x6 (ix2 k j)) (fun k j => x7 (ix2 k j)))
          (fun k j => x8 (ix2 k j))) (fun k => x2 (ix2 p k)) q := by
  unfold out0_10
  rw [View.canon_unit_zero hz]
  simp only [View.ld_unit_zero (S := S1000x8) hz, View.ld_unit_zero (S := S1000x1) hz, View.ld_unit_zero (S := S1000x9) hz,
    View.ld_unit_zero (S := S1x8) hz, View.ld_unit_zero (S := S16x128) hz, View.ld_unit_zero (S := S128x256) hz,
    View.ld_unit_zero (S := S256x512) hz, View.ld_unit_zero (S := S512x1024) hz, View.ld_unit_zero (S := S1024x96) hz]
  rw [KernelRows.pay1_apply]
  simp only [KernelRows.pay7_apply, KernelRows.pay4_apply]

/-- Row `p` of the envelope's block. -/
theorem out11_apply (x0 : Vec Ideal S1000x8 .f32) (x1 : Vec Ideal S1000x1 .f32) (x2 : Vec Ideal S1000x9 .f32) (x3 : Vec Ideal S1x8 .f32)
    (x4 : Vec Ideal S16x128 .f32) (x5 : Vec Ideal S128x256 .f32) (x6 : Vec Ideal S256x512 .f32) (x7 : Vec Ideal S512x1024 .f32)
    (x8 : Vec Ideal S1024x96 .f32) (p : Fin 1000) :
    out0_11 (F := Ideal) x0 x1 x2 x3 x4 x5 x6 x7 x8 (ix2 p (0 : Fin 1)) = EdgeSpec.envMul (x1 (ix2 p (0 : Fin 1))) := by
  unfold out0_11
  rw [View.canon_unit_zero hz]
  simp only [View.ld_unit_zero (S := S1000x8) hz, View.ld_unit_zero (S := S1000x1) hz, View.ld_unit_zero (S := S1000x9) hz,
    View.ld_unit_zero (S := S1x8) hz, View.ld_unit_zero (S := S16x128) hz, View.ld_unit_zero (S := S128x256) hz,
    View.ld_unit_zero (S := S256x512) hz, View.ld_unit_zero (S := S512x1024) hz, View.ld_unit_zero (S := S1024x96) hz]
  rw [KernelRows.pay3_apply]

/-! ## The three result arrays as functions of the operand arrays -/

/-- The sixteen first-layer inputs of edge `e`, from the node-feature table, the length column and the frequency row. -/
def rowInputs (N : Vec Ideal S160000x8 .f32) (R : Vec Ideal S160000x1 .f32) (Fq : Vec Ideal S1x8 .f32) (e : Fin 160000) :
    Fin 16 → EReal :=
  EdgeSpec.joined (fun a => N (ix2 e (⟨a.val, by have := a.isLt; omega⟩ : Fin 8)))
    (fun a => N (ix2 e (⟨a.val + 4, by have := a.isLt; omega⟩ : Fin 8)))
    (fun a => Fq (ix2 (0 : Fin 1) a)) (R (ix2 e (0 : Fin 1)))

/-- The latents, edge by edge. -/
def latents (N : Vec Ideal S160000x8 .f32) (R : Vec Ideal S160000x1 .f32) (Fq : Vec Ideal S1x8 .f32)
    (W0 : Vec Ideal S16x128 .f32) (W1 : Vec Ideal S128x256 .f32) (W2 : Vec Ideal S256x512 .f32) (W3 : Vec Ideal S512x1024 .f32) :
    Vec Ideal S160000x1024 .f32 := fun i =>
  EdgeSpec.envMul (R (ix2 (i 0) (0 : Fin 1))) * EdgeSpec.hidden (rowInputs N R Fq (i 0))
    (fun k j => W0 (ix2 k j)) (fun k j => W1 (ix2 k j)) (fun k j => W2 (ix2 k j)) (fun k j => W3 (ix2 k j)) (i 1)

/-- The features, edge by edge. -/
def features (N : Vec Ideal S160000x8 .f32) (R : Vec Ideal S160000x1 .f32) (Fq : Vec Ideal S1x8 .f32)
    (Sh : Vec Ideal S160000x9 .f32)
    (W0 : Vec Ideal S16x128 .f32) (W1 : Vec Ideal S128x256 .f32) (W2 : Vec Ideal S256x512 .f32) (W3 : Vec Ideal S512x1024 .f32)
    (W4 : Vec Ideal S1024x96 .f32) : Vec Ideal S160000x288 .f32 := fun i =>
  EdgeSpec.tensor (EdgeSpec.mix (EdgeSpec.hidden (rowInputs N R Fq (i 0))
    (fun k j => W0 (ix2 k j)) (fun k j => W1 (ix2 k j)) (fun k j => W2 (ix2 k j)) (fun k j => W3 (ix2 k j)))
    (fun k j => W4 (ix2 k j))) (fun k => Sh (ix2 (i 0) k)) (i 1)

/-- The envelope column, edge by edge. -/
def envelope (R : Vec Ideal S160000x1 .f32) : Vec Ideal S160000x1 .f32 := fun i =>
  EdgeSpec.envMul (R (ix2 (i 0) (0 : Fin 1)))

/-! ## The windows' index maps -/

/-- The row-blocked windows sit at block `(t, 0)`, the others at block `(0, 0)`, at every point. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = t.val ∧ win0_9.index t (1 : Fin 2) = 0
    ∧ win0_10.index t (0 : Fin 2) = t.val ∧ win0_10.index t (1 : Fin 2) = 0
    ∧ win0_11.index t (0 : Fin 2) = t.val ∧ win0_11.index t (1 : Fin 2) = 0 :=
  (by decide +kernel : ∀ t : Fin grid0.N, _)

/-- The edge that row `p` of point `t`'s blocks is. -/
def rowAt (t : Fin cfg0.N) (p : Fin 1000) : Fin 160000 :=
  ⟨1000 * t.val + p.val, by have ht : t.val < 160 := lt_of_lt_of_eq t.isLt N_0; have := p.isLt; omega⟩

/-- Window 0's block at point `t` is rows `1000 t … 1000 t + 999` of its array. -/
theorem blk0_apply (c : Dev nD) (t : Fin cfg0.N) (p : Fin 1000) (k : Fin 8) :
    (iblk m c 0 t : Vec Ideal S1000x8 .f32) (ix2 p k) = (V m c main_v18 : Vec Ideal S160000x8 .f32) (ix2 (rowAt t p) k) := by
  unfold iblk
  rw [View.read_apply]
  show V m c main_v18 _ = V m c main_v18 _
  congr 1
  funext a; apply Fin.ext
  obtain ⟨e0a, e0b, e1a, e1b, e2a, e2b, e3a, e3b, e4a, e4b, e5a, e5b, e6a, e6b, e7a, e7b, e8a, e8b, e9a, e9b, e10a, e10b, e11a, e11b⟩ := idx_facts t
  match a with
  | ⟨0, _⟩ => show win0_0.index t (0 : Fin 2) * 1000 + 1 * p.val = 1000 * t.val + p.val; rw [e0a]; omega
  | ⟨1, _⟩ => show win0_0.index t (1 : Fin 2) * 8 + 1 * k.val = k.val; rw [e0b]; omega

/-- Window 1's block at point `t` is rows `1000 t … 1000 t + 999` of its array. -/
theorem blk1_apply (c : Dev nD) (t : Fin cfg0.N) (p : Fin 1000) (k : Fin 1) :
    (iblk m c 1 t : Vec Ideal S1000x1 .f32) (ix2 p k) = (V m c main_v19 : Vec Ideal S160000x1 .f32) (ix2 (rowAt t p) k) := by
  unfold iblk
  rw [View.read_apply]
  show V m c main_v19 _ = V m c main_v19 _
  congr 1
  funext a; apply Fin.ext
  obtain ⟨e0a, e0b, e1a, e1b, e2a, e2b, e3a, e3b, e4a, e4b, e5a, e5b, e6a, e6b, e7a, e7b, e8a, e8b, e9a, e9b, e10a, e10b, e11a, e11b⟩ := idx_facts t
  match a with
  | ⟨0, _⟩ => show win0_1.index t (0 : Fin 2) * 1000 + 1 * p.val = 1000 * t.val + p.val; rw [e1a]; omega
  | ⟨1, _⟩ => show win0_1.index t (1 : Fin 2) * 1 + 1 * k.val = k.val; rw [e1b]; omega

/-- Window 2's block at point `t` is rows `1000 t … 1000 t + 999` of its array. -/
theorem blk2_apply (c : Dev nD) (t : Fin cfg0.N) (p : Fin 1000) (k : Fin 9) :
    (iblk m c 2 t : Vec Ideal S1000x9 .f32) (ix2 p k) = (V m c main_arg2 : Vec Ideal S160000x9 .f32) (ix2 (rowAt t p) k) := by
  unfold iblk
  rw [View.read_apply]
  show V m c main_arg2 _ = V m c main_arg2 _
  congr 1
  funext a; apply Fin.ext
  obtain ⟨e0a, e0b, e1a, e1b, e2a, e2b, e3a, e3b, e4a, e4b, e5a, e5b, e6a, e6b, e7a, e7b, e8a, e8b, e9a, e9b, e10a, e10b, e11a, e11b⟩ := idx_facts t
  match a with
  | ⟨0, _⟩ => show win0_2.index t (0 : Fin 2) * 1000 + 1 * p.val = 1000 * t.val + p.val; rw [e2a]; omega
  | ⟨1, _⟩ => show win0_2.index t (1 : Fin 2) * 9 + 1 * k.val = k.val; rw [e2b]; omega

/-- Window 3's block at every point is its whole array. -/
theorem blk3_apply (c : Dev nD) (t : Fin cfg0.N) (k : Fin 1) (j : Fin 8) :
    (iblk m c 3 t : Vec Ideal S1x8 .f32) (ix2 k j) = (V m c main_v20 : Vec Ideal S1x8 .f32) (ix2 k j) := by
  unfold iblk
  rw [View.read_apply]
  show V m c main_v20 _ = V m c main_v20 _
  congr 1
  funext a; apply Fin.ext
  obtain ⟨e0a, e0b, e1a, e1b, e2a, e2b, e3a, e3b, e4a, e4b, e5a, e5b, e6a, e6b, e7a, e7b, e8a, e8b, e9a, e9b, e10a, e10b, e11a, e11b⟩ := idx_facts t
  match a with
  | ⟨0, _⟩ => show win0_3.index t (0 : Fin 2) * 1 + 1 * k.val = k.val; rw [e3a]; omega
  | ⟨1, _⟩ => show win0_3.index t (1 : Fin 2) * 8 + 1 * j.val = j.val; rw [e3b]; omega

/-- Window 4's block at every point is its whole array. -/
theorem blk4_apply (c : Dev nD) (t : Fin cfg0.N) (k : Fin 16) (j : Fin 128) :
    (iblk m c 4 t : Vec Ideal S16x128 .f32) (ix2 k j) = (V m c main_arg6 : Vec Ideal S16x128 .f32) (ix2 k j) := by
  unfold iblk
  rw [View.read_apply]
  show V m c main_arg6 _ = V m c main_arg6 _
  congr 1
  funext a; apply Fin.ext
  obtain ⟨e0a, e0b, e1a, e1b, e2a, e2b, e3a, e3b, e4a, e4b, e5a, e5b, e6a, e6b, e7a, e7b, e8a, e8b, e9a, e9b, e10a, e10b, e11a, e11b⟩ := idx_facts t
  match a with
  | ⟨0, _⟩ => show win0_4.index t (0 : Fin 2) * 16 + 1 * k.val = k.val; rw [e4a]; omega
  | ⟨1, _⟩ => show win0_4.index t (1 : Fin 2) * 128 + 1 * j.val = j.val; rw [e4b]; omega

/-- Window 5's block at every point is its whole array. -/
theorem blk5_apply (c : Dev nD) (t : Fin cfg0.N) (k : Fin 128) (j : Fin 256) :
    (iblk m c 5 t : Vec Ideal S128x256 .f32) (ix2 k j) = (V m c main_arg7 : Vec Ideal S128x256 .f32) (ix2 k j) := by
  unfold iblk
  rw [View.read_apply]
  show V m c main_arg7 _ = V m c main_arg7 _
  congr 1
  funext a; apply Fin.ext
  obtain ⟨e0a, e0b, e1a, e1b, e2a, e2b, e3a, e3b, e4a, e4b, e5a, e5b, e6a, e6b, e7a, e7b, e8a, e8b, e9a, e9b, e10a, e10b, e11a, e11b⟩ := idx_facts t
  match a with
  | ⟨0, _⟩ => show win0_5.index t (0 : Fin 2) * 128 + 1 * k.val = k.val; rw [e5a]; omega
  | ⟨1, _⟩ => show win0_5.index t (1 : Fin 2) * 256 + 1 * j.val = j.val; rw [e5b]; omega

/-- Window 6's block at every point is its whole array. -/
theorem blk6_apply (c : Dev nD) (t : Fin cfg0.N) (k : Fin 256) (j : Fin 512) :
    (iblk m c 6 t : Vec Ideal S256x512 .f32) (ix2 k j) = (V m c main_arg8 : Vec Ideal S256x512 .f32) (ix2 k j) := by
  unfold iblk
  rw [View.read_apply]
  show V m c main_arg8 _ = V m c main_arg8 _
  congr 1
  funext a; apply Fin.ext
  obtain ⟨e0a, e0b, e1a, e1b, e2a, e2b, e3a, e3b, e4a, e4b, e5a, e5b, e6a, e6b, e7a, e7b, e8a, e8b, e9a, e9b, e10a, e10b, e11a, e11b⟩ := idx_facts t
  match a with
  | ⟨0, _⟩ => show win0_6.index t (0 : Fin 2) * 256 + 1 * k.val = k.val; rw [e6a]; omega
  | ⟨1, _⟩ => show win0_6.index t (1 : Fin 2) * 512 + 1 * j.val = j.val; rw [e6b]; omega

/-- Window 7's block at every point is its whole array. -/
theorem blk7_apply (c : Dev nD) (t : Fin cfg0.N) (k : Fin 512) (j : Fin 1024) :
    (iblk m c 7 t : Vec Ideal S512x1024 .f32) (ix2 k j) = (V m c main_arg9 : Vec Ideal S512x1024 .f32) (ix2 k j) := by
  unfold iblk
  rw [View.read_apply]
  show V m c main_arg9 _ = V m c main_arg9 _
  congr 1
  funext a; apply Fin.ext
  obtain ⟨e0a, e0b, e1a, e1b, e2a, e2b, e3a, e3b, e4a, e4b, e5a, e5b, e6a, e6b, e7a, e7b, e8a, e8b, e9a, e9b, e10a, e10b, e11a, e11b⟩ := idx_facts t
  match a with
  | ⟨0, _⟩ => show win0_7.index t (0 : Fin 2) * 512 + 1 * k.val = k.val; rw [e7a]; omega
  | ⟨1, _⟩ => show win0_7.index t (1 : Fin 2) * 1024 + 1 * j.val = j.val; rw [e7b]; omega

/-- Window 8's block at every point is its whole array. -/
theorem blk8_apply (c : Dev nD) (t : Fin cfg0.N) (k : Fin 1024) (j : Fin 96) :
    (iblk m c 8 t : Vec Ideal S1024x96 .f32) (ix2 k j) = (V m c main_arg10 : Vec Ideal S1024x96 .f32) (ix2 k j) := by
  unfold iblk
  rw [View.read_apply]
  show V m c main_arg10 _ = V m c main_arg10 _
  congr 1
  funext a; apply Fin.ext
  obtain ⟨e0a, e0b, e1a, e1b, e2a, e2b, e3a, e3b, e4a, e4b, e5a, e5b, e6a, e6b, e7a, e7b, e8a, e8b, e9a, e9b, e10a, e10b, e11a, e11b⟩ := idx_facts t
  match a with
  | ⟨0, _⟩ => show win0_8.index t (0 : Fin 2) * 1024 + 1 * k.val = k.val; rw [e8a]; omega
  | ⟨1, _⟩ => show win0_8.index t (1 : Fin 2) * 96 + 1 * j.val = j.val; rw [e8b]; omega

/-- Entry `(p, q)` of window 9's block at point `t` is entry `(1000 t + p, q)` of its array. -/
theorem emb9 (t : Fin cfg0.N) (p : Fin 1000) (q : Fin 1024) :
    ((cfg0.win 9).blk t).view.emb (ix2 p q) = (ix2 (rowAt t p) q : S160000x1024.Idx) := by
  funext a; apply Fin.ext
  obtain ⟨e0a, e0b, e1a, e1b, e2a, e2b, e3a, e3b, e4a, e4b, e5a, e5b, e6a, e6b, e7a, e7b, e8a, e8b, e9a, e9b, e10a, e10b, e11a, e11b⟩ := idx_facts t
  match a with
  | ⟨0, _⟩ => show win0_9.index t (0 : Fin 2) * 1000 + 1 * p.val = 1000 * t.val + p.val; rw [e9a]; omega
  | ⟨1, _⟩ => show win0_9.index t (1 : Fin 2) * 1024 + 1 * q.val = q.val; rw [e9b]; omega

/-- Entry `(p, q)` of window 10's block at point `t` is entry `(1000 t + p, q)` of its array. -/
theorem emb10 (t : Fin cfg0.N) (p : Fin 1000) (q : Fin 288) :
    ((cfg0.win 10).blk t).view.emb (ix2 p q) = (ix2 (rowAt t p) q : S160000x288.Idx) := by
  funext a; apply Fin.ext
  obtain ⟨e0a, e0b, e1a, e1b, e2a, e2b, e3a, e3b, e4a, e4b, e5a, e5b, e6a, e6b, e7a, e7b, e8a, e8b, e9a, e9b, e10a, e10b, e11a, e11b⟩ := idx_facts t
  match a with
  | ⟨0, _⟩ => show win0_10.index t (0 : Fin 2) * 1000 + 1 * p.val = 1000 * t.val + p.val; rw [e10a]; omega
  | ⟨1, _⟩ => show win0_10.index t (1 : Fin 2) * 288 + 1 * q.val = q.val; rw [e10b]; omega

/-- Entry `(p, q)` of window 11's block at point `t` is entry `(1000 t + p, q)` of its array. -/
theorem emb11 (t : Fin cfg0.N) (p : Fin 1000) (q : Fin 1) :
    ((cfg0.win 11).blk t).view.emb (ix2 p q) = (ix2 (rowAt t p) q : S160000x1.Idx) := by
  funext a; apply Fin.ext
  obtain ⟨e0a, e0b, e1a, e1b, e2a, e2b, e3a, e3b, e4a, e4b, e5a, e5b, e6a, e6b, e7a, e7b, e8a, e8b, e9a, e9b, e10a, e10b, e11a, e11b⟩ := idx_facts t
  match a with
  | ⟨0, _⟩ => show win0_11.index t (0 : Fin 2) * 1000 + 1 * p.val = 1000 * t.val + p.val; rw [e11a]; omega
  | ⟨1, _⟩ => show win0_11.index t (1 : Fin 2) * 1 + 1 * q.val = q.val; rw [e11b]; omega

/-! ## What each point writes back -/

/-- Point `t` writes back block `t` of the latents. -/
theorem flushed9 (c : Dev nD) (t : Fin cfg0.N) :
    (dats m 0 c).flushed 9 t = ((cfg0.win 9).blk t).view.read (Elt Ideal) (latents (V m c main_v18) (V m c main_v19) (V m c main_v20) (V m c main_arg6) (V m c main_arg7) (V m c main_arg8) (V m c main_arg9)) := by
  show (cfg0.win 9).cut (grid0.coords t) ((dats m 0 c).after 9 t) = _
  rw [after0_9]
  funext j
  obtain ⟨p, q, rfl⟩ : ∃ (p : Fin 1000) (q : Fin 1024), j = ix2 p q := ⟨j 0, j 1, eq_ix2 j⟩
  rw [View.read_apply, emb9]
  show out0_9 (F := Ideal) (iblk m c 0 t) (iblk m c 1 t) (iblk m c 2 t) (iblk m c 3 t) (iblk m c 4 t) (iblk m c 5 t) (iblk m c 6 t) (iblk m c 7 t) (iblk m c 8 t) (ix2 p q) = _
  refine (out9_apply (iblk m c 0 t) (iblk m c 1 t) (iblk m c 2 t) (iblk m c 3 t) (iblk m c 4 t) (iblk m c 5 t) (iblk m c 6 t) (iblk m c 7 t) (iblk m c 8 t) p q).trans ?_
  simp only [blk0_apply, blk1_apply, blk2_apply, blk3_apply, blk4_apply, blk5_apply, blk6_apply, blk7_apply, blk8_apply]
  rfl

/-- Point `t` writes back block `t` of the features. -/
theorem flushed10 (c : Dev nD) (t : Fin cfg0.N) :
    (dats m 0 c).flushed 10 t = ((cfg0.win 10).blk t).view.read (Elt Ideal)
      (features (V m c main_v18) (V m c main_v19) (V m c main_v20) (V m c main_arg2) (V m c main_arg6) (V m c main_arg7) (V m c main_arg8) (V m c main_arg9) (V m c main_arg10)) := by
  show (cfg0.win 10).cut (grid0.coords t) ((dats m 0 c).after 10 t) = _
  rw [after0_10]
  funext j
  obtain ⟨p, q, rfl⟩ : ∃ (p : Fin 1000) (q : Fin 288), j = ix2 p q := ⟨j 0, j 1, eq_ix2 j⟩
  rw [View.read_apply, emb10]
  show out0_10 (F := Ideal) (iblk m c 0 t) (iblk m c 1 t) (iblk m c 2 t) (iblk m c 3 t) (iblk m c 4 t) (iblk m c 5 t) (iblk m c 6 t) (iblk m c 7 t) (iblk m c 8 t) (ix2 p q) = _
  refine (out10_apply (iblk m c 0 t) (iblk m c 1 t) (iblk m c 2 t) (iblk m c 3 t) (iblk m c 4 t) (iblk m c 5 t) (iblk m c 6 t) (iblk m c 7 t) (iblk m c 8 t) p q).trans ?_
  simp only [blk0_apply, blk1_apply, blk2_apply, blk3_apply, blk4_apply, blk5_apply, blk6_apply, blk7_apply, blk8_apply]
  rfl

/-- Point `t` writes back block `t` of the envelope column. -/
theorem flushed11 (c : Dev nD) (t : Fin cfg0.N) :
    (dats m 0 c).flushed 11 t = ((cfg0.win 11).blk t).view.read (Elt Ideal) (envelope (V m c main_v19)) := by
  show (cfg0.win 11).cut (grid0.coords t) ((dats m 0 c).after 11 t) = _
  rw [after0_11]
  funext j
  obtain ⟨p, q, rfl⟩ : ∃ (p : Fin 1000) (q : Fin 1), j = ix2 p q := ⟨j 0, j 1, eq_ix2 j⟩
  obtain rfl : q = (0 : Fin 1) := Subsingleton.elim _ _
  rw [View.read_apply, emb11]
  show out0_11 (F := Ideal) (iblk m c 0 t) (iblk m c 1 t) (iblk m c 2 t) (iblk m c 3 t) (iblk m c 4 t) (iblk m c 5 t) (iblk m c 6 t) (iblk m c 7 t) (iblk m c 8 t) (ix2 p (0 : Fin 1)) = _
  refine (out11_apply (iblk m c 0 t) (iblk m c 1 t) (iblk m c 2 t) (iblk m c 3 t) (iblk m c 4 t) (iblk m c 5 t) (iblk m c 6 t) (iblk m c 7 t) (iblk m c 8 t) p).trans ?_
  simp only [blk0_apply, blk1_apply, blk2_apply, blk3_apply, blk4_apply, blk5_apply, blk6_apply, blk7_apply, blk8_apply]
  rfl

/-! ## The blocks cover the arrays -/

/-- Every row of window 9's array lies in the block of the point `row / 1000`. -/
theorem cover9 (c : Dev nD) (i : S160000x1024.Idx) :
    ∃ t : Fin cfg0.N, (cfg0.win 9).flush t = true ∧ i ∈ ((cfg0.win 9).blk t).view.set := by
  have hi0 : (i 0).val < 160000 := (i 0).isLt
  have hi1 : (i 1).val < 1024 := (i 1).isLt
  have hN : cfg0.N = 160 := N_0
  have ht : (i 0).val / 1000 < cfg0.N := by rw [hN]; omega
  obtain ⟨e0a, e0b, e1a, e1b, e2a, e2b, e3a, e3b, e4a, e4b, e5a, e5b, e6a, e6b, e7a, e7b, e8a, e8b, e9a, e9b, e10a, e10b, e11a, e11b⟩ := idx_facts ⟨(i 0).val / 1000, ht⟩
  refine ⟨⟨(i 0).val / 1000, ht⟩, flush0_9 _, ?_⟩
  show i ∈ ((View.whole main_v21_0).slice (win0_9.rect ⟨(i 0).val / 1000, ht⟩)).set
  rw [View.set_slice_whole, Rect.mem_set_unit]
  intro a
  match a with
  | ⟨0, _⟩ =>
    show win0_9.index ⟨(i 0).val / 1000, ht⟩ (0 : Fin 2) * 1000 ≤ (i 0).val
      ∧ (i 0).val < win0_9.index ⟨(i 0).val / 1000, ht⟩ (0 : Fin 2) * 1000 + 1000
    rw [e9a]; show (i 0).val / 1000 * 1000 ≤ (i 0).val ∧ (i 0).val < (i 0).val / 1000 * 1000 + 1000; omega
  | ⟨1, _⟩ =>
    show win0_9.index ⟨(i 0).val / 1000, ht⟩ (1 : Fin 2) * 1024 ≤ (i 1).val
      ∧ (i 1).val < win0_9.index ⟨(i 0).val / 1000, ht⟩ (1 : Fin 2) * 1024 + 1024
    rw [e9b]; omega

/-- Every row of window 10's array lies in the block of the point `row / 1000`. -/
theorem cover10 (c : Dev nD) (i : S160000x288.Idx) :
    ∃ t : Fin cfg0.N, (cfg0.win 10).flush t = true ∧ i ∈ ((cfg0.win 10).blk t).view.set := by
  have hi0 : (i 0).val < 160000 := (i 0).isLt
  have hi1 : (i 1).val < 288 := (i 1).isLt
  have hN : cfg0.N = 160 := N_0
  have ht : (i 0).val / 1000 < cfg0.N := by rw [hN]; omega
  obtain ⟨e0a, e0b, e1a, e1b, e2a, e2b, e3a, e3b, e4a, e4b, e5a, e5b, e6a, e6b, e7a, e7b, e8a, e8b, e9a, e9b, e10a, e10b, e11a, e11b⟩ := idx_facts ⟨(i 0).val / 1000, ht⟩
  refine ⟨⟨(i 0).val / 1000, ht⟩, flush0_10 _, ?_⟩
  show i ∈ ((View.whole main_v21_1).slice (win0_10.rect ⟨(i 0).val / 1000, ht⟩)).set
  rw [View.set_slice_whole, Rect.mem_set_unit]
  intro a
  match a with
  | ⟨0, _⟩ =>
    show win0_10.index ⟨(i 0).val / 1000, ht⟩ (0 : Fin 2) * 1000 ≤ (i 0).val
      ∧ (i 0).val < win0_10.index ⟨(i 0).val / 1000, ht⟩ (0 : Fin 2) * 1000 + 1000
    rw [e10a]; show (i 0).val / 1000 * 1000 ≤ (i 0).val ∧ (i 0).val < (i 0).val / 1000 * 1000 + 1000; omega
  | ⟨1, _⟩ =>
    show win0_10.index ⟨(i 0).val / 1000, ht⟩ (1 : Fin 2) * 288 ≤ (i 1).val
      ∧ (i 1).val < win0_10.index ⟨(i 0).val / 1000, ht⟩ (1 : Fin 2) * 288 + 288
    rw [e10b]; omega

/-- Every row of window 11's array lies in the block of the point `row / 1000`. -/
theorem cover11 (c : Dev nD) (i : S160000x1.Idx) :
    ∃ t : Fin cfg0.N, (cfg0.win 11).flush t = true ∧ i ∈ ((cfg0.win 11).blk t).view.set := by
  have hi0 : (i 0).val < 160000 := (i 0).isLt
  have hi1 : (i 1).val < 1 := (i 1).isLt
  have hN : cfg0.N = 160 := N_0
  have ht : (i 0).val / 1000 < cfg0.N := by rw [hN]; omega
  obtain ⟨e0a, e0b, e1a, e1b, e2a, e2b, e3a, e3b, e4a, e4b, e5a, e5b, e6a, e6b, e7a, e7b, e8a, e8b, e9a, e9b, e10a, e10b, e11a, e11b⟩ := idx_facts ⟨(i 0).val / 1000, ht⟩
  refine ⟨⟨(i 0).val / 1000, ht⟩, flush0_11 _, ?_⟩
  show i ∈ ((View.whole main_v21_2).slice (win0_11.rect ⟨(i 0).val / 1000, ht⟩)).set
  rw [View.set_slice_whole, Rect.mem_set_unit]
  intro a
  match a with
  | ⟨0, _⟩ =>
    show win0_11.index ⟨(i 0).val / 1000, ht⟩ (0 : Fin 2) * 1000 ≤ (i 0).val
      ∧ (i 0).val < win0_11.index ⟨(i 0).val / 1000, ht⟩ (0 : Fin 2) * 1000 + 1000
    rw [e11a]; show (i 0).val / 1000 * 1000 ≤ (i 0).val ∧ (i 0).val < (i 0).val / 1000 * 1000 + 1000; omega
  | ⟨1, _⟩ =>
    show win0_11.index ⟨(i 0).val / 1000, ht⟩ (1 : Fin 2) * 1 ≤ (i 1).val
      ∧ (i 1).val < win0_11.index ⟨(i 0).val / 1000, ht⟩ (1 : Fin 2) * 1 + 1
    rw [e11b]; omega

/-! ## The result arrays after the run -/

theorem final9 (c : Dev nD) : (dats m 0 c).arrAt 9 cfg0.N = latents (V m c main_v18) (V m c main_v19) (V m c main_v20) (V m c main_arg6) (V m c main_arg7) (V m c main_arg8) (V m c main_arg9) :=
  (dats m 0 c).arrAt_eq_of_cover 9 _ (fun t _ => flushed9 m c t) (cover9 c)

theorem final10 (c : Dev nD) :
    (dats m 0 c).arrAt 10 cfg0.N = features (V m c main_v18) (V m c main_v19) (V m c main_v20) (V m c main_arg2) (V m c main_arg6) (V m c main_arg7) (V m c main_arg8) (V m c main_arg9) (V m c main_arg10) :=
  (dats m 0 c).arrAt_eq_of_cover 10 _ (fun t _ => flushed10 m c t) (cover10 c)

theorem final11 (c : Dev nD) : (dats m 0 c).arrAt 11 cfg0.N = envelope (V m c main_v19) :=
  (dats m 0 c).arrAt_eq_of_cover 11 _ (fun t _ => flushed11 m c t) (cover11 c)

end Cert.KernelBlocks

end
-- ==== Proof.KernelRun.lean ====
/-
  The kernel's run, read: after every weakly fair execution the three result arrays hold, edge by edge, the row
  functions of the specification applied to the operand arrays the host lines made, and the arguments are as
  launched.
-/
import proofs.«107756_j46729244181055_1_alg».proof.Proof.Gen.KernelIdeal.Frame
import proofs.«107756_j46729244181055_1_alg».proof.Proof.KernelBlocks
import proofs.«107756_j46729244181055_1_alg».proof.Proof.KernelHost

noncomputable section

namespace Cert.KernelRun

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ) (ρ : Dev nD → PrngReg)

/-- In any final state of the frame run the eleven arguments are as launched: a staged input by what the
    region keeps of its arrays, any other by what the host lines after the region leave untouched. -/
theorem args_kept (r : PUnit × MemSt nD τ sig (Elt Ideal))
    (h : Pipeline.FramePost cfgs (dats m) 0 (Pipeline.afterTail₀ cfgs (dats m) 0 (V0 m) [hostOps1]) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  ⟨(((h c).2 main_arg0 (Pipeline.mem_restRefs_of main_arg0 (by decide) (by decide))).trans (W_main_arg0 m (dats m) c)),
    (((h c).2 main_arg1 (Pipeline.mem_restRefs_of main_arg1 (by decide) (by decide))).trans (W_main_arg1 m (dats m) c)),
    ((h c).1 2).trans ((((dats m) 0 c).arrAt_in 2 rfl _).trans ((A_eq m c 2).trans (V_main_arg2 m c))),
    (((h c).2 main_arg3 (Pipeline.mem_restRefs_of main_arg3 (by decide) (by decide))).trans (W_main_arg3 m (dats m) c)),
    (((h c).2 main_arg4 (Pipeline.mem_restRefs_of main_arg4 (by decide) (by decide))).trans (W_main_arg4 m (dats m) c)),
    (((h c).2 main_arg5 (Pipeline.mem_restRefs_of main_arg5 (by decide) (by decide))).trans (W_main_arg5 m (dats m) c)),
    ((h c).1 4).trans ((((dats m) 0 c).arrAt_in 4 rfl _).trans ((A_eq m c 4).trans (V_main_arg6 m c))),
    ((h c).1 5).trans ((((dats m) 0 c).arrAt_in 5 rfl _).trans ((A_eq m c 5).trans (V_main_arg7 m c))),
    ((h c).1 6).trans ((((dats m) 0 c).arrAt_in 6 rfl _).trans ((A_eq m c 6).trans (V_main_arg8 m c))),
    ((h c).1 7).trans ((((dats m) 0 c).arrAt_in 7 rfl _).trans ((A_eq m c 7).trans (V_main_arg9 m c))),
    ((h c).1 8).trans ((((dats m) 0 c).arrAt_in 8 rfl _).trans ((A_eq m c 8).trans (V_main_arg10 m c)))⟩

/-- The run: latents, features and envelope as functions of the operand arrays; the arguments unchanged. -/
theorem run : θ_run defs (onTc (τ := τ) (main (F := Ideal))) ⟨m, fun _ => 0, ρ⟩ fun r => ∀ c : Dev nD,
      r.2.mem ((c.tc : Thread nD τ).loc main_v21_0)
        = KernelBlocks.latents (V m c main_v18) (V m c main_v19) (V m c main_v20) (V m c main_arg6) (V m c main_arg7) (V m c main_arg8) (V m c main_arg9)
      ∧ r.2.mem ((c.tc : Thread nD τ).loc main_v21_1)
        = KernelBlocks.features (V m c main_v18) (V m c main_v19) (V m c main_v20) (V m c main_arg2) (V m c main_arg6) (V m c main_arg7) (V m c main_arg8)
            (V m c main_arg9) (V m c main_arg10)
      ∧ r.2.mem ((c.tc : Thread nD τ).loc main_v22)
        = shapeCast S160000 (KernelBlocks.envelope (V m c main_v19)) shapeCasts_S160000x1_S160000
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun r h c =>
      ⟨((h c).1 9).trans (KernelBlocks.final9 m c),
       ((h c).1 10).trans (KernelBlocks.final10 m c),
       ((h c).2 main_v22 (Pipeline.mem_restRefs_of main_v22 (by decide) (by decide))).trans
         ((KernelHost.tail_eq m c).trans (by rw [KernelBlocks.final11])),
       args_kept m r h c⟩)
    (run_main m ρ)

end Cert.KernelRun

end
-- ==== Proof.RefRows.lean ====
/-
  The reference program read at an index, against the one-edge specification.

  Each result of the reference at edge `e` is followed back through its operations to the inputs at that edge:
  the envelope is the power form at the edge's length; the joined row is the two gathered rows then the radial
  basis; each `dot_general` with its scaled weight is a dense layer on the row and each activation call is
  `y · σ(y)`; the three reshaped outer products, laid end to end, are the weighted harmonics.
-/
import proofs.«107756_j46729244181055_1_alg».proof.Proof.RefRead
import proofs.«107756_j46729244181055_1_alg».proof.Proof.EdgeSpec
import Idealize.ShloMosaic.Lib.ValueIdx
import Idealize.ShloMosaic.Lib.ValueLayout
import Idealize.ShloMosaic.Lib.Pipeline.Value
import Idealize.ShloMosaic.PureOps.Ideal.Laws

noncomputable section

namespace Cert.RefRows

open Idealize.ShloMosaic Idealize.ShloMosaic.ValueIdx Cert.ReferenceIdeal Cert.ReferenceIdeal.Read

/-! ## Indices with the same coordinates -/

/-- Two rank-1 indices with the same coordinate are equal. -/
theorem idx1_ext {n : Nat} (u v : (⟨1, ![n]⟩ : Shape).Idx) (h0 : (u 0).val = (v 0).val) : u = v := by
  funext a
  match a with
  | ⟨0, _⟩ => exact Fin.ext h0

/-- Two rank-2 indices with the same coordinates are equal. -/
theorem idx2_ext {n0 n1 : Nat} (u v : (⟨2, ![n0, n1]⟩ : Shape).Idx)
    (h0 : (u 0).val = (v 0).val) (h1 : (u 1).val = (v 1).val) : u = v := by
  funext a
  match a with
  | ⟨0, _⟩ => exact Fin.ext h0
  | ⟨1, _⟩ => exact Fin.ext h1

/-- Two rank-3 indices with the same coordinates are equal. -/
theorem idx3_ext {n0 n1 n2 : Nat} (u v : (⟨3, ![n0, n1, n2]⟩ : Shape).Idx)
    (h0 : (u 0).val = (v 0).val) (h1 : (u 1).val = (v 1).val) (h2 : (u 2).val = (v 2).val) : u = v := by
  funext a
  match a with
  | ⟨0, _⟩ => exact Fin.ext h0
  | ⟨1, _⟩ => exact Fin.ext h1
  | ⟨2, _⟩ => exact Fin.ext h2

/-- The sixteen first-layer inputs of edge `e` as the reference joins them: the gathered one-hot row of each
    end point, then the radial basis of the edge's length. -/
abbrev refRow (x0 : (⟨S2x160000, .i32⟩ : BufTy).Contents (Elt Ideal)) (x3 : (⟨S160000, .f32⟩ : BufTy).Contents (Elt Ideal)) (x4 : (⟨S10000x4, .f32⟩ : BufTy).Contents (Elt Ideal)) (x5 : (⟨S8, .f32⟩ : BufTy).Contents (Elt Ideal))
    (e : Fin 160000) : Fin 16 → EReal :=
  EdgeSpec.joined (fun k => val_main_v44 (F := Ideal) x0 x4 (ix2 e k)) (fun k => val_main_v51 (F := Ideal) x0 x4 (ix2 e k))
    (fun k => x5 (ix1 k)) (x3 (ix1 e))

/-! ## The envelope -/

/-- The reference's envelope of edge `e`: the power form at the edge's length. -/
theorem ref_cutoff (x3 : (⟨S160000, .f32⟩ : BufTy).Contents (Elt Ideal)) (e : Fin 160000) :
    val_main_v37 (F := Ideal) x3 (ix1 e) = EdgeSpec.envPow (x3 (ix1 e)) := by
  simp only [val_main_v37_apply, val_main_v36_apply, val_main_v35_apply, val_main_v34_apply, val_main_v33_apply,
    val_main_v32_apply, val_main_v31_apply, val_main_v30_apply, val_main_v29_apply, val_main_v28_apply,
    val_main_v27_apply, val_main_v26_apply, val_main_v25_apply, val_main_v24_apply, val_main_v23_apply,
    val_main_v22_apply, val_main_v21_apply, val_main_v20_apply, val_main_v19_apply, val_main_v18_apply,
    val_main_v17_apply, val_main_v16_apply, val_main_cst_1_apply, val_main_cst_2_apply, val_main_cst_3_apply,
    val_main_cst_4_apply, val_main_cst_5_apply, val_main_cst_6_apply, val_main_cst_7_apply, val_main_cst_8_apply,
    val_main_cst_9_apply]
  all_goals rfl

/-! ## The sixteen first-layer inputs -/

/-- The radial basis of edge `e` at frequency `m`: `0.4 · sin (frₘ · r / 5) / r`. -/
theorem radial_at (x3 : (⟨S160000, .f32⟩ : BufTy).Contents (Elt Ideal)) (x5 : (⟨S8, .f32⟩ : BufTy).Contents (Elt Ideal)) (e : Fin 160000) (m : Fin 8) :
    val_main_v15 (F := Ideal) x3 x5 (ix2 e m) = EdgeSpec.radial (x5 (ix1 m)) (x3 (ix1 e)) := by
  have e14 : idx_main_v4 (idx_main_v14 (ix2 e m)) = ix1 e := idx1_ext _ _ rfl
  have e7 : idx_main_v4 (idx_main_v7 (ix2 e m)) = ix1 e := idx1_ext _ _ rfl
  have e5 : idx_main_v5 (idx_main_v6 (ix2 e m)) = ix1 m := idx1_ext _ _ rfl
  rw [val_main_v15_apply, val_main_v14_apply, val_main_v4_apply, e14, val_main_v13_apply, val_main_v12_apply,
    val_main_cst_0_apply, val_main_v11_apply, val_main_v10_apply, val_main_v9_apply, val_main_cst_apply,
    val_main_v8_apply, val_main_v7_apply, val_main_v4_apply, e7, val_main_v6_apply, val_main_v5_apply, e5]
  all_goals rfl

/-- A column below 4 of the joined row is the first gathered row's. -/
theorem joined_lo (x0 : (⟨S2x160000, .i32⟩ : BufTy).Contents (Elt Ideal)) (x3 : (⟨S160000, .f32⟩ : BufTy).Contents (Elt Ideal)) (x4 : (⟨S10000x4, .f32⟩ : BufTy).Contents (Elt Ideal)) (x5 : (⟨S8, .f32⟩ : BufTy).Contents (Elt Ideal)) (e : Fin 160000) (k : Fin 16) (h : k.val < 4) :
    val_main_v52 (F := Ideal) x0 x3 x4 x5 (ix2 e k) = val_main_v44 (F := Ideal) x0 x4 (ix2 e ⟨k.val, h⟩) := by
  unfold val_main_v52
  exact concatenate_apply_piece _ _ _ (ix2 e k) 0 (by show (0 : Nat) < 3; omega) S160000x4 _ rfl rfl 0 rfl
    (ix2 e (⟨k.val, h⟩ : Fin 4)) (fun b => match b with
      | ⟨0, _⟩ => fun _ => rfl
      | ⟨1, _⟩ => fun hb => absurd (Fin.ext rfl) hb) (Nat.zero_add _)

/-- A column from 4 to 7 of the joined row is the second gathered row's. -/
theorem joined_mid (x0 : (⟨S2x160000, .i32⟩ : BufTy).Contents (Elt Ideal)) (x3 : (⟨S160000, .f32⟩ : BufTy).Contents (Elt Ideal)) (x4 : (⟨S10000x4, .f32⟩ : BufTy).Contents (Elt Ideal)) (x5 : (⟨S8, .f32⟩ : BufTy).Contents (Elt Ideal)) (e : Fin 160000) (k : Fin 16) (h : ¬ k.val < 4) (h2 : k.val < 8) :
    val_main_v52 (F := Ideal) x0 x3 x4 x5 (ix2 e k) = val_main_v51 (F := Ideal) x0 x4 (ix2 e ⟨k.val - 4, by omega⟩) := by
  unfold val_main_v52
  exact concatenate_apply_piece _ _ _ (ix2 e k) 1 (by show (1 : Nat) < 3; omega) S160000x4 _ rfl rfl 4 rfl
    (ix2 e (⟨k.val - 4, by omega⟩ : Fin 4)) (fun b => match b with
      | ⟨0, _⟩ => fun _ => rfl
      | ⟨1, _⟩ => fun hb => absurd (Fin.ext rfl) hb) (by show 4 + (k.val - 4) = k.val; omega)

/-- A column from 8 on of the joined row is the radial basis's. -/
theorem joined_hi (x0 : (⟨S2x160000, .i32⟩ : BufTy).Contents (Elt Ideal)) (x3 : (⟨S160000, .f32⟩ : BufTy).Contents (Elt Ideal)) (x4 : (⟨S10000x4, .f32⟩ : BufTy).Contents (Elt Ideal)) (x5 : (⟨S8, .f32⟩ : BufTy).Contents (Elt Ideal)) (e : Fin 160000) (k : Fin 16) (h2 : ¬ k.val < 8) :
    val_main_v52 (F := Ideal) x0 x3 x4 x5 (ix2 e k) = val_main_v15 (F := Ideal) x3 x5 (ix2 e ⟨k.val - 8, by omega⟩) := by
  unfold val_main_v52
  exact concatenate_apply_piece _ _ _ (ix2 e k) 2 (by show (2 : Nat) < 3; omega) S160000x8 _ rfl rfl 8 rfl
    (ix2 e (⟨k.val - 8, by omega⟩ : Fin 8)) (fun b => match b with
      | ⟨0, _⟩ => fun _ => rfl
      | ⟨1, _⟩ => fun hb => absurd (Fin.ext rfl) hb) (by show 8 + (k.val - 8) = k.val; omega)

/-- The joined row of edge `e` is the specification's row of sixteen inputs. -/
theorem joined_at (x0 : (⟨S2x160000, .i32⟩ : BufTy).Contents (Elt Ideal)) (x3 : (⟨S160000, .f32⟩ : BufTy).Contents (Elt Ideal)) (x4 : (⟨S10000x4, .f32⟩ : BufTy).Contents (Elt Ideal)) (x5 : (⟨S8, .f32⟩ : BufTy).Contents (Elt Ideal)) (e : Fin 160000) (k : Fin 16) :
    val_main_v52 (F := Ideal) x0 x3 x4 x5 (ix2 e k) = refRow x0 x3 x4 x5 e k := by
  unfold refRow EdgeSpec.joined
  by_cases h : k.val < 4
  · rw [dif_pos h]; exact joined_lo x0 x3 x4 x5 e k h
  · rw [dif_neg h]
    by_cases h2 : k.val < 8
    · rw [dif_pos h2]; exact joined_mid x0 x3 x4 x5 e k h h2
    · rw [dif_neg h2, joined_hi x0 x3 x4 x5 e k h2, radial_at]

/-! ## The dense layers

Each `dot_general` at `(e, j)` is the sum over `k` of the left operand at `(e, k)` times the scaled weight at
`(k, j)`, which is the specification's dense layer on row `e` of the left operand; each activation call is
`y · (1 / (1 + e^(−y)))` of its operand at the same index. -/

/-- Dense layer 0 at `(e, j)`: the specification's layer on row `e` of its left operand. -/
theorem dense0_at (x0 : (⟨S2x160000, .i32⟩ : BufTy).Contents (Elt Ideal)) (x3 : (⟨S160000, .f32⟩ : BufTy).Contents (Elt Ideal)) (x4 : (⟨S10000x4, .f32⟩ : BufTy).Contents (Elt Ideal)) (x5 : (⟨S8, .f32⟩ : BufTy).Contents (Elt Ideal)) (x6 : (⟨S16x128, .f32⟩ : BufTy).Contents (Elt Ideal)) (e : Fin 160000) (j : Fin 128) :
    val_main_v55 (F := Ideal) x0 x3 x4 x5 x6 (ix2 e j)
      = EdgeSpec.dense EdgeSpec.c0 (fun k => val_main_v52 (F := Ideal) x0 x3 x4 x5 (ix2 e k)) (fun k j => x6 (ix2 k j)) j := by
  rw [val_main_v55_apply]
  unfold EdgeSpec.dense
  refine Finset.sum_congr rfl fun k _ => ?_
  have el : lidx_main_v55 (ix2 e j) k = ix2 e k := idx2_ext _ _ rfl rfl
  have er : ridx_main_v55 (ix2 e j) k = ix2 k j := idx2_ext _ _ rfl rfl
  rw [el, er, val_main_v54_apply, val_main_v53_apply, val_main_cst_13_apply]
  all_goals rfl

/-- Activation 0 at `(e, j)`: `y · σ(y)` of the dense layer's value there. -/
theorem act0_at (x0 : (⟨S2x160000, .i32⟩ : BufTy).Contents (Elt Ideal)) (x3 : (⟨S160000, .f32⟩ : BufTy).Contents (Elt Ideal)) (x4 : (⟨S10000x4, .f32⟩ : BufTy).Contents (Elt Ideal)) (x5 : (⟨S8, .f32⟩ : BufTy).Contents (Elt Ideal)) (x6 : (⟨S16x128, .f32⟩ : BufTy).Contents (Elt Ideal)) (e : Fin 160000) (j : Fin 128) :
    val_main_v56 (F := Ideal) x0 x3 x4 x5 x6 (ix2 e j) = EdgeSpec.silu (val_main_v55 (F := Ideal) x0 x3 x4 x5 x6 (ix2 e j)) := by
  rw [val_main_v56_apply, val_main_call0_v5_apply, val_main_call0_v4_apply, val_main_call0_cst_0_apply,
    val_main_call0_v3_apply, val_main_call0_v2_apply, val_main_call0_cst_apply, val_main_call0_v1_apply,
    val_main_call0_v0_apply]
  exact EdgeSpec.silu_spelled _

/-- Dense layer 1 at `(e, j)`: the specification's layer on row `e` of its left operand. -/
theorem dense1_at (x0 : (⟨S2x160000, .i32⟩ : BufTy).Contents (Elt Ideal)) (x3 : (⟨S160000, .f32⟩ : BufTy).Contents (Elt Ideal)) (x4 : (⟨S10000x4, .f32⟩ : BufTy).Contents (Elt Ideal)) (x5 : (⟨S8, .f32⟩ : BufTy).Contents (Elt Ideal)) (x6 : (⟨S16x128, .f32⟩ : BufTy).Contents (Elt Ideal)) (x7 : (⟨S128x256, .f32⟩ : BufTy).Contents (Elt Ideal)) (e : Fin 160000) (j : Fin 256) :
    val_main_v59 (F := Ideal) x0 x3 x4 x5 x6 x7 (ix2 e j)
      = EdgeSpec.dense EdgeSpec.c1 (fun k => val_main_v56 (F := Ideal) x0 x3 x4 x5 x6 (ix2 e k)) (fun k j => x7 (ix2 k j)) j := by
  rw [val_main_v59_apply]
  unfold EdgeSpec.dense
  refine Finset.sum_congr rfl fun k _ => ?_
  have el : lidx_main_v59 (ix2 e j) k = ix2 e k := idx2_ext _ _ rfl rfl
  have er : ridx_main_v59 (ix2 e j) k = ix2 k j := idx2_ext _ _ rfl rfl
  rw [el, er, val_main_v58_apply, val_main_v57_apply, val_main_cst_14_apply]
  all_goals rfl

/-- Activation 1 at `(e, j)`: `y · σ(y)` of the dense layer's value there. -/
theorem act1_at (x0 : (⟨S2x160000, .i32⟩ : BufTy).Contents (Elt Ideal)) (x3 : (⟨S160000, .f32⟩ : BufTy).Contents (Elt Ideal)) (x4 : (⟨S10000x4, .f32⟩ : BufTy).Contents (Elt Ideal)) (x5 : (⟨S8, .f32⟩ : BufTy).Contents (Elt Ideal)) (x6 : (⟨S16x128, .f32⟩ : BufTy).Contents (Elt Ideal)) (x7 : (⟨S128x256, .f32⟩ : BufTy).Contents (Elt Ideal)) (e : Fin 160000) (j : Fin 256) :
    val_main_v60 (F := Ideal) x0 x3 x4 x5 x6 x7 (ix2 e j) = EdgeSpec.silu (val_main_v59 (F := Ideal) x0 x3 x4 x5 x6 x7 (ix2 e j)) := by
  rw [val_main_v60_apply, val_main_call1_v5_apply, val_main_call1_v4_apply, val_main_call1_cst_0_apply,
    val_main_call1_v3_apply, val_main_call1_v2_apply, val_main_call1_cst_apply, val_main_call1_v1_apply,
    val_main_call1_v0_apply]
  exact EdgeSpec.silu_spelled _

/-- Dense layer 2 at `(e, j)`: the specification's layer on row `e` of its left operand. -/
theorem dense2_at (x0 : (⟨S2x160000, .i32⟩ : BufTy).Contents (Elt Ideal)) (x3 : (⟨S160000, .f32⟩ : BufTy).Contents (Elt Ideal)) (x4 : (⟨S10000x4, .f32⟩ : BufTy).Contents (Elt Ideal)) (x5 : (⟨S8, .f32⟩ : BufTy).Contents (Elt Ideal)) (x6 : (⟨S16x128, .f32⟩ : BufTy).Contents (Elt Ideal)) (x7 : (⟨S128x256, .f32⟩ : BufTy).Contents (Elt Ideal)) (x8 : (⟨S256x512, .f32⟩ : BufTy).Contents (Elt Ideal)) (e : Fin 160000) (j : Fin 512) :
    val_main_v63 (F := Ideal) x0 x3 x4 x5 x6 x7 x8 (ix2 e j)
      = EdgeSpec.dense EdgeSpec.c2 (fun k => val_main_v60 (F := Ideal) x0 x3 x4 x5 x6 x7 (ix2 e k)) (fun k j => x8 (ix2 k j)) j := by
  rw [val_main_v63_apply]
  unfold EdgeSpec.dense
  refine Finset.sum_congr rfl fun k _ => ?_
  have el : lidx_main_v63 (ix2 e j) k = ix2 e k := idx2_ext _ _ rfl rfl
  have er : ridx_main_v63 (ix2 e j) k = ix2 k j := idx2_ext _ _ rfl rfl
  rw [el, er, val_main_v62_apply, val_main_v61_apply, val_main_cst_15_apply]
  all_goals rfl

/-- Activation 2 at `(e, j)`: `y · σ(y)` of the dense layer's value there. -/
theorem act2_at (x0 : (⟨S2x160000, .i32⟩ : BufTy).Contents (Elt Ideal)) (x3 : (⟨S160000, .f32⟩ : BufTy).Contents (Elt Ideal)) (x4 : (⟨S10000x4, .f32⟩ : BufTy).Contents (Elt Ideal)) (x5 : (⟨S8, .f32⟩ : BufTy).Contents (Elt Ideal)) (x6 : (⟨S16x128, .f32⟩ : BufTy).Contents (Elt Ideal)) (x7 : (⟨S128x256, .f32⟩ : BufTy).Contents (Elt Ideal)) (x8 : (⟨S256x512, .f32⟩ : BufTy).Contents (Elt Ideal)) (e : Fin 160000) (j : Fin 512) :
    val_main_v64 (F := Ideal) x0 x3 x4 x5 x6 x7 x8 (ix2 e j) = EdgeSpec.silu (val_main_v63 (F := Ideal) x0 x3 x4 x5 x6 x7 x8 (ix2 e j)) := by
  rw [val_main_v64_apply, val_main_call2_v5_apply, val_main_call2_v4_apply, val_main_call2_cst_0_apply,
    val_main_call2_v3_apply, val_main_call2_v2_apply, val_main_call2_cst_apply, val_main_call2_v1_apply,
    val_main_call2_v0_apply]
  exact EdgeSpec.silu_spelled _

/-- Dense layer 3 at `(e, j)`: the specification's layer on row `e` of its left operand. -/
theorem dense3_at (x0 : (⟨S2x160000, .i32⟩ : BufTy).Contents (Elt Ideal)) (x3 : (⟨S160000, .f32⟩ : BufTy).Contents (Elt Ideal)) (x4 : (⟨S10000x4, .f32⟩ : BufTy).Contents (Elt Ideal)) (x5 : (⟨S8, .f32⟩ : BufTy).Contents (Elt Ideal)) (x6 : (⟨S16x128, .f32⟩ : BufTy).Contents (Elt Ideal)) (x7 : (⟨S128x256, .f32⟩ : BufTy).Contents (Elt Ideal)) (x8 : (⟨S256x512, .f32⟩ : BufTy).Contents (Elt Ideal)) (x9 : (⟨S512x1024, .f32⟩ : BufTy).Contents (Elt Ideal)) (e : Fin 160000) (j : Fin 1024) :
    val_main_v67 (F := Ideal) x0 x3 x4 x5 x6 x7 x8 x9 (ix2 e j)
      = EdgeSpec.dense EdgeSpec.c3 (fun k => val_main_v64 (F := Ideal) x0 x3 x4 x5 x6 x7 x8 (ix2 e k)) (fun k j => x9 (ix2 k j)) j := by
  rw [val_main_v67_apply]
  unfold EdgeSpec.dense
  refine Finset.sum_congr rfl fun k _ => ?_
  have el : lidx_main_v67 (ix2 e j) k = ix2 e k := idx2_ext _ _ rfl rfl
  have er : ridx_main_v67 (ix2 e j) k = ix2 k j := idx2_ext _ _ rfl rfl
  rw [el, er, val_main_v66_apply, val_main_v65_apply, val_main_cst_16_apply]
  all_goals rfl

/-- Dense layer 4 at `(e, j)`: the specification's layer on row `e` of its left operand. -/
theorem dense4_at (x0 : (⟨S2x160000, .i32⟩ : BufTy).Contents (Elt Ideal)) (x3 : (⟨S160000, .f32⟩ : BufTy).Contents (Elt Ideal)) (x4 : (⟨S10000x4, .f32⟩ : BufTy).Contents (Elt Ideal)) (x5 : (⟨S8, .f32⟩ : BufTy).Contents (Elt Ideal)) (x6 : (⟨S16x128, .f32⟩ : BufTy).Contents (Elt Ideal)) (x7 : (⟨S128x256, .f32⟩ : BufTy).Contents (Elt Ideal)) (x8 : (⟨S256x512, .f32⟩ : BufTy).Contents (Elt Ideal)) (x9 : (⟨S512x1024, .f32⟩ : BufTy).Contents (Elt Ideal)) (x10 : (⟨S1024x96, .f32⟩ : BufTy).Contents (Elt Ideal)) (e : Fin 160000) (j : Fin 96) :
    val_main_v73 (F := Ideal) x0 x3 x4 x5 x6 x7 x8 x9 x10 (ix2 e j)
      = EdgeSpec.dense EdgeSpec.c4 (fun k => val_main_v67 (F := Ideal) x0 x3 x4 x5 x6 x7 x8 x9 (ix2 e k)) (fun k j => x10 (ix2 k j)) j := by
  rw [val_main_v73_apply]
  unfold EdgeSpec.dense
  refine Finset.sum_congr rfl fun k _ => ?_
  have el : lidx_main_v73 (ix2 e j) k = ix2 e k := idx2_ext _ _ rfl rfl
  have er : ridx_main_v73 (ix2 e j) k = ix2 k j := idx2_ext _ _ rfl rfl
  rw [el, er, val_main_v72_apply, val_main_v71_apply, val_main_cst_17_apply]
  all_goals rfl

/-! ## The layers composed -/

/-- The first hidden row of edge `e`. -/
theorem hidden0_at (x0 : (⟨S2x160000, .i32⟩ : BufTy).Contents (Elt Ideal)) (x3 : (⟨S160000, .f32⟩ : BufTy).Contents (Elt Ideal)) (x4 : (⟨S10000x4, .f32⟩ : BufTy).Contents (Elt Ideal)) (x5 : (⟨S8, .f32⟩ : BufTy).Contents (Elt Ideal)) (x6 : (⟨S16x128, .f32⟩ : BufTy).Contents (Elt Ideal)) (e : Fin 160000) (j : Fin 128) :
    val_main_v56 (F := Ideal) x0 x3 x4 x5 x6 (ix2 e j) = EdgeSpec.silu (EdgeSpec.dense EdgeSpec.c0 (refRow x0 x3 x4 x5 e) (fun k j => x6 (ix2 k j)) j) := by
  rw [act0_at, dense0_at,
    show (fun k => val_main_v52 (F := Ideal) x0 x3 x4 x5 (ix2 e k)) = refRow x0 x3 x4 x5 e from
      funext (joined_at x0 x3 x4 x5 e)]

/-- The second hidden row of edge `e`. -/
theorem hidden1_at (x0 : (⟨S2x160000, .i32⟩ : BufTy).Contents (Elt Ideal)) (x3 : (⟨S160000, .f32⟩ : BufTy).Contents (Elt Ideal)) (x4 : (⟨S10000x4, .f32⟩ : BufTy).Contents (Elt Ideal)) (x5 : (⟨S8, .f32⟩ : BufTy).Contents (Elt Ideal)) (x6 : (⟨S16x128, .f32⟩ : BufTy).Contents (Elt Ideal)) (x7 : (⟨S128x256, .f32⟩ : BufTy).Contents (Elt Ideal)) (e : Fin 160000) (j : Fin 256) :
    val_main_v60 (F := Ideal) x0 x3 x4 x5 x6 x7 (ix2 e j) = EdgeSpec.silu (EdgeSpec.dense EdgeSpec.c1 (fun k0 => EdgeSpec.silu (EdgeSpec.dense EdgeSpec.c0 (refRow x0 x3 x4 x5 e) (fun k j => x6 (ix2 k j)) k0)) (fun k j => x7 (ix2 k j)) j) := by
  rw [act1_at, dense1_at,
    show (fun k => val_main_v56 (F := Ideal) x0 x3 x4 x5 x6 (ix2 e k)) = (fun k0 => EdgeSpec.silu (EdgeSpec.dense EdgeSpec.c0 (refRow x0 x3 x4 x5 e) (fun k j => x6 (ix2 k j)) k0)) from
      funext (hidden0_at x0 x3 x4 x5 x6 e)]

/-- The third hidden row of edge `e`. -/
theorem hidden2_at (x0 : (⟨S2x160000, .i32⟩ : BufTy).Contents (Elt Ideal)) (x3 : (⟨S160000, .f32⟩ : BufTy).Contents (Elt Ideal)) (x4 : (⟨S10000x4, .f32⟩ : BufTy).Contents (Elt Ideal)) (x5 : (⟨S8, .f32⟩ : BufTy).Contents (Elt Ideal)) (x6 : (⟨S16x128, .f32⟩ : BufTy).Contents (Elt Ideal)) (x7 : (⟨S128x256, .f32⟩ : BufTy).Contents (Elt Ideal)) (x8 : (⟨S256x512, .f32⟩ : BufTy).Contents (Elt Ideal)) (e : Fin 160000) (j : Fin 512) :
    val_main_v64 (F := Ideal) x0 x3 x4 x5 x6 x7 x8 (ix2 e j) = EdgeSpec.silu (EdgeSpec.dense EdgeSpec.c2 (fun k1 => EdgeSpec.silu (EdgeSpec.dense EdgeSpec.c1 (fun k0 => EdgeSpec.silu (EdgeSpec.dense EdgeSpec.c0 (refRow x0 x3 x4 x5 e) (fun k j => x6 (ix2 k j)) k0)) (fun k j => x7 (ix2 k j)) k1)) (fun k j => x8 (ix2 k j)) j) := by
  rw [act2_at, dense2_at,
    show (fun k => val_main_v60 (F := Ideal) x0 x3 x4 x5 x6 x7 (ix2 e k)) = (fun k1 => EdgeSpec.silu (EdgeSpec.dense EdgeSpec.c1 (fun k0 => EdgeSpec.silu (EdgeSpec.dense EdgeSpec.c0 (refRow x0 x3 x4 x5 e) (fun k j => x6 (ix2 k j)) k0)) (fun k j => x7 (ix2 k j)) k1)) from
      funext (hidden1_at x0 x3 x4 x5 x6 x7 e)]

/-- The row of 1024 latents of edge `e` before the envelope. -/
theorem hidden_at (x0 : (⟨S2x160000, .i32⟩ : BufTy).Contents (Elt Ideal)) (x3 : (⟨S160000, .f32⟩ : BufTy).Contents (Elt Ideal)) (x4 : (⟨S10000x4, .f32⟩ : BufTy).Contents (Elt Ideal)) (x5 : (⟨S8, .f32⟩ : BufTy).Contents (Elt Ideal)) (x6 : (⟨S16x128, .f32⟩ : BufTy).Contents (Elt Ideal)) (x7 : (⟨S128x256, .f32⟩ : BufTy).Contents (Elt Ideal)) (x8 : (⟨S256x512, .f32⟩ : BufTy).Contents (Elt Ideal)) (x9 : (⟨S512x1024, .f32⟩ : BufTy).Contents (Elt Ideal)) (e : Fin 160000) (q : Fin 1024) :
    val_main_v67 (F := Ideal) x0 x3 x4 x5 x6 x7 x8 x9 (ix2 e q)
      = EdgeSpec.hidden (refRow x0 x3 x4 x5 e) (fun k j => x6 (ix2 k j)) (fun k j => x7 (ix2 k j)) (fun k j => x8 (ix2 k j)) (fun k j => x9 (ix2 k j)) q := by
  rw [dense3_at,
    show (fun k => val_main_v64 (F := Ideal) x0 x3 x4 x5 x6 x7 x8 (ix2 e k)) = (fun k2 => EdgeSpec.silu (EdgeSpec.dense EdgeSpec.c2 (fun k1 => EdgeSpec.silu (EdgeSpec.dense EdgeSpec.c1 (fun k0 => EdgeSpec.silu (EdgeSpec.dense EdgeSpec.c0 (refRow x0 x3 x4 x5 e) (fun k j => x6 (ix2 k j)) k0)) (fun k j => x7 (ix2 k j)) k1)) (fun k j => x8 (ix2 k j)) k2)) from
      funext (hidden2_at x0 x3 x4 x5 x6 x7 x8 e)]
  all_goals rfl

/-- The 96 mixing weights of edge `e`. -/
theorem mix_at (x0 : (⟨S2x160000, .i32⟩ : BufTy).Contents (Elt Ideal)) (x3 : (⟨S160000, .f32⟩ : BufTy).Contents (Elt Ideal)) (x4 : (⟨S10000x4, .f32⟩ : BufTy).Contents (Elt Ideal)) (x5 : (⟨S8, .f32⟩ : BufTy).Contents (Elt Ideal)) (x6 : (⟨S16x128, .f32⟩ : BufTy).Contents (Elt Ideal)) (x7 : (⟨S128x256, .f32⟩ : BufTy).Contents (Elt Ideal)) (x8 : (⟨S256x512, .f32⟩ : BufTy).Contents (Elt Ideal)) (x9 : (⟨S512x1024, .f32⟩ : BufTy).Contents (Elt Ideal)) (x10 : (⟨S1024x96, .f32⟩ : BufTy).Contents (Elt Ideal)) (e : Fin 160000) (m : Fin 96) :
    val_main_v73 (F := Ideal) x0 x3 x4 x5 x6 x7 x8 x9 x10 (ix2 e m)
      = EdgeSpec.mix (EdgeSpec.hidden (refRow x0 x3 x4 x5 e) (fun k j => x6 (ix2 k j)) (fun k j => x7 (ix2 k j)) (fun k j => x8 (ix2 k j)) (fun k j => x9 (ix2 k j))) (fun k j => x10 (ix2 k j)) m := by
  rw [dense4_at,
    show (fun k => val_main_v67 (F := Ideal) x0 x3 x4 x5 x6 x7 x8 x9 (ix2 e k))
        = EdgeSpec.hidden (refRow x0 x3 x4 x5 e) (fun k j => x6 (ix2 k j)) (fun k j => x7 (ix2 k j)) (fun k j => x8 (ix2 k j)) (fun k j => x9 (ix2 k j)) from
      funext (hidden_at x0 x3 x4 x5 x6 x7 x8 x9 e)]
  all_goals rfl

/-! ## The latents -/

/-- The reference's latents of edge `e`: its envelope times the four dense layers on its sixteen inputs. -/
theorem ref_latents (x0 : (⟨S2x160000, .i32⟩ : BufTy).Contents (Elt Ideal)) (x3 : (⟨S160000, .f32⟩ : BufTy).Contents (Elt Ideal)) (x4 : (⟨S10000x4, .f32⟩ : BufTy).Contents (Elt Ideal)) (x5 : (⟨S8, .f32⟩ : BufTy).Contents (Elt Ideal)) (x6 : (⟨S16x128, .f32⟩ : BufTy).Contents (Elt Ideal)) (x7 : (⟨S128x256, .f32⟩ : BufTy).Contents (Elt Ideal)) (x8 : (⟨S256x512, .f32⟩ : BufTy).Contents (Elt Ideal)) (x9 : (⟨S512x1024, .f32⟩ : BufTy).Contents (Elt Ideal))
    (e : Fin 160000) (q : Fin 1024) :
    val_main_v70 (F := Ideal) x0 x3 x4 x5 x6 x7 x8 x9 (ix2 e q)
      = EdgeSpec.envPow (x3 (ix1 e)) * EdgeSpec.hidden (refRow x0 x3 x4 x5 e) (fun k j => x6 (ix2 k j))
          (fun k j => x7 (ix2 k j)) (fun k j => x8 (ix2 k j)) (fun k j => x9 (ix2 k j)) q := by
  have e68 : idx_main_v68 (idx_main_v69 (ix2 e q)) = ix1 e := idx1_ext _ _ rfl
  rw [val_main_v70_apply, val_main_v69_apply, val_main_v68_apply, e68, ref_cutoff, hidden_at]
  all_goals rfl

/-! ## The weighted harmonics

Each of the three blocks is an outer product `w[e, a] · sh[e, c]` reshaped to one row per edge: column `b` of a
block with `n` harmonic components is weight `b / n` times component `b % n`. -/

/-- The scalar block at `(e, b)`: weight `b` times component 0. -/
theorem block0_at (x0 : (⟨S2x160000, .i32⟩ : BufTy).Contents (Elt Ideal)) (x2 : (⟨S160000x9, .f32⟩ : BufTy).Contents (Elt Ideal)) (x3 : (⟨S160000, .f32⟩ : BufTy).Contents (Elt Ideal)) (x4 : (⟨S10000x4, .f32⟩ : BufTy).Contents (Elt Ideal)) (x5 : (⟨S8, .f32⟩ : BufTy).Contents (Elt Ideal)) (x6 : (⟨S16x128, .f32⟩ : BufTy).Contents (Elt Ideal)) (x7 : (⟨S128x256, .f32⟩ : BufTy).Contents (Elt Ideal)) (x8 : (⟨S256x512, .f32⟩ : BufTy).Contents (Elt Ideal)) (x9 : (⟨S512x1024, .f32⟩ : BufTy).Contents (Elt Ideal)) (x10 : (⟨S1024x96, .f32⟩ : BufTy).Contents (Elt Ideal)) (e : Fin 160000) (b : Fin 32) :
    val_main_v80 (F := Ideal) x0 x2 x3 x4 x5 x6 x7 x8 x9 x10 (ix2 e b)
      = val_main_v73 (F := Ideal) x0 x3 x4 x5 x6 x7 x8 x9 x10 (ix2 e (⟨b.val, by omega⟩ : Fin 96)) * x2 (ix2 e (⟨0, by omega⟩ : Fin 9)) := by
  have e80 : idx_main_v80 (ix2 e b) = ix3 e b (⟨0, Nat.one_pos⟩ : Fin 1) :=
    idx3_ext _ _ (by show (e.val * 32 + b.val) / 32 = e.val; omega)
      (by show (e.val * 32 + b.val) / 1 % 32 = b.val; omega) rfl
  have e74 : idx_main_v74 (idx_main_v76 (ix3 e b (⟨0, Nat.one_pos⟩ : Fin 1))) = ix2 e (⟨b.val, by omega⟩ : Fin 96) :=
    idx2_ext _ _ rfl rfl
  have e75 : idx_main_v75 (idx_main_v77 (idx_main_v78 (ix3 e b (⟨0, Nat.one_pos⟩ : Fin 1)))) = ix2 e (⟨0, by omega⟩ : Fin 9) :=
    idx2_ext _ _ rfl rfl
  rw [val_main_v80_apply, e80, val_main_v79_apply, val_main_v76_apply, val_main_v74_apply, e74,
    val_main_v78_apply, val_main_v77_apply, val_main_v75_apply, e75]
  all_goals rfl

/-- The vector block at `(e, b)`: weight `32 + b / 3` times component `1 + b % 3`. -/
theorem block1_at (x0 : (⟨S2x160000, .i32⟩ : BufTy).Contents (Elt Ideal)) (x2 : (⟨S160000x9, .f32⟩ : BufTy).Contents (Elt Ideal)) (x3 : (⟨S160000, .f32⟩ : BufTy).Contents (Elt Ideal)) (x4 : (⟨S10000x4, .f32⟩ : BufTy).Contents (Elt Ideal)) (x5 : (⟨S8, .f32⟩ : BufTy).Contents (Elt Ideal)) (x6 : (⟨S16x128, .f32⟩ : BufTy).Contents (Elt Ideal)) (x7 : (⟨S128x256, .f32⟩ : BufTy).Contents (Elt Ideal)) (x8 : (⟨S256x512, .f32⟩ : BufTy).Contents (Elt Ideal)) (x9 : (⟨S512x1024, .f32⟩ : BufTy).Contents (Elt Ideal)) (x10 : (⟨S1024x96, .f32⟩ : BufTy).Contents (Elt Ideal)) (e : Fin 160000) (b : Fin 96) :
    val_main_v88 (F := Ideal) x0 x2 x3 x4 x5 x6 x7 x8 x9 x10 (ix2 e b)
      = val_main_v73 (F := Ideal) x0 x3 x4 x5 x6 x7 x8 x9 x10 (ix2 e (⟨32 + b.val / 3, by omega⟩ : Fin 96))
          * x2 (ix2 e (⟨1 + b.val % 3, by omega⟩ : Fin 9)) := by
  have e88 : idx_main_v88 (ix2 e b) = ix3 e (⟨b.val / 3, by omega⟩ : Fin 32) (⟨b.val % 3, by omega⟩ : Fin 3) :=
    idx3_ext _ _ (by show (e.val * 96 + b.val) / 96 = e.val; omega)
      (by show (e.val * 96 + b.val) / 3 % 32 = b.val / 3; omega)
      (by show (e.val * 96 + b.val) % 3 = b.val % 3; omega)
  have e81 : idx_main_v81 (idx_main_v83 (idx_main_v85 (ix3 e (⟨b.val / 3, by omega⟩ : Fin 32) (⟨b.val % 3, by omega⟩ : Fin 3))))
      = ix2 e (⟨32 + b.val / 3, by omega⟩ : Fin 96) := idx2_ext _ _ rfl rfl
  have e82 : idx_main_v82 (idx_main_v84 (idx_main_v86 (ix3 e (⟨b.val / 3, by omega⟩ : Fin 32) (⟨b.val % 3, by omega⟩ : Fin 3))))
      = ix2 e (⟨1 + b.val % 3, by omega⟩ : Fin 9) := idx2_ext _ _ rfl rfl
  rw [val_main_v88_apply, e88, val_main_v87_apply, val_main_v85_apply, val_main_v83_apply, val_main_v81_apply, e81,
    val_main_v86_apply, val_main_v84_apply, val_main_v82_apply, e82]
  all_goals rfl

/-- The rank-two block at `(e, b)`: weight `64 + b / 5` times component `4 + b % 5`. -/
theorem block2_at (x0 : (⟨S2x160000, .i32⟩ : BufTy).Contents (Elt Ideal)) (x2 : (⟨S160000x9, .f32⟩ : BufTy).Contents (Elt Ideal)) (x3 : (⟨S160000, .f32⟩ : BufTy).Contents (Elt Ideal)) (x4 : (⟨S10000x4, .f32⟩ : BufTy).Contents (Elt Ideal)) (x5 : (⟨S8, .f32⟩ : BufTy).Contents (Elt Ideal)) (x6 : (⟨S16x128, .f32⟩ : BufTy).Contents (Elt Ideal)) (x7 : (⟨S128x256, .f32⟩ : BufTy).Contents (Elt Ideal)) (x8 : (⟨S256x512, .f32⟩ : BufTy).Contents (Elt Ideal)) (x9 : (⟨S512x1024, .f32⟩ : BufTy).Contents (Elt Ideal)) (x10 : (⟨S1024x96, .f32⟩ : BufTy).Contents (Elt Ideal)) (e : Fin 160000) (b : Fin 160) :
    val_main_v96 (F := Ideal) x0 x2 x3 x4 x5 x6 x7 x8 x9 x10 (ix2 e b)
      = val_main_v73 (F := Ideal) x0 x3 x4 x5 x6 x7 x8 x9 x10 (ix2 e (⟨64 + b.val / 5, by omega⟩ : Fin 96))
          * x2 (ix2 e (⟨4 + b.val % 5, by omega⟩ : Fin 9)) := by
  have e96 : idx_main_v96 (ix2 e b) = ix3 e (⟨b.val / 5, by omega⟩ : Fin 32) (⟨b.val % 5, by omega⟩ : Fin 5) :=
    idx3_ext _ _ (by show (e.val * 160 + b.val) / 160 = e.val; omega)
      (by show (e.val * 160 + b.val) / 5 % 32 = b.val / 5; omega)
      (by show (e.val * 160 + b.val) % 5 = b.val % 5; omega)
  have e89 : idx_main_v89 (idx_main_v91 (idx_main_v93 (ix3 e (⟨b.val / 5, by omega⟩ : Fin 32) (⟨b.val % 5, by omega⟩ : Fin 5))))
      = ix2 e (⟨64 + b.val / 5, by omega⟩ : Fin 96) := idx2_ext _ _ rfl rfl
  have e90 : idx_main_v90 (idx_main_v92 (idx_main_v94 (ix3 e (⟨b.val / 5, by omega⟩ : Fin 32) (⟨b.val % 5, by omega⟩ : Fin 5))))
      = ix2 e (⟨4 + b.val % 5, by omega⟩ : Fin 9) := idx2_ext _ _ rfl rfl
  rw [val_main_v96_apply, e96, val_main_v95_apply, val_main_v93_apply, val_main_v91_apply, val_main_v89_apply, e89,
    val_main_v94_apply, val_main_v92_apply, val_main_v90_apply, e90]
  all_goals rfl

/-- A column below 32 of the features is the scalar block's. -/
theorem feat_lo (x0 : (⟨S2x160000, .i32⟩ : BufTy).Contents (Elt Ideal)) (x2 : (⟨S160000x9, .f32⟩ : BufTy).Contents (Elt Ideal)) (x3 : (⟨S160000, .f32⟩ : BufTy).Contents (Elt Ideal)) (x4 : (⟨S10000x4, .f32⟩ : BufTy).Contents (Elt Ideal)) (x5 : (⟨S8, .f32⟩ : BufTy).Contents (Elt Ideal)) (x6 : (⟨S16x128, .f32⟩ : BufTy).Contents (Elt Ideal)) (x7 : (⟨S128x256, .f32⟩ : BufTy).Contents (Elt Ideal)) (x8 : (⟨S256x512, .f32⟩ : BufTy).Contents (Elt Ideal)) (x9 : (⟨S512x1024, .f32⟩ : BufTy).Contents (Elt Ideal)) (x10 : (⟨S1024x96, .f32⟩ : BufTy).Contents (Elt Ideal)) (e : Fin 160000) (q : Fin 288) (h : q.val < 32) :
    val_main_v97 (F := Ideal) x0 x2 x3 x4 x5 x6 x7 x8 x9 x10 (ix2 e q) = val_main_v80 (F := Ideal) x0 x2 x3 x4 x5 x6 x7 x8 x9 x10 (ix2 e (⟨q.val, h⟩ : Fin 32)) := by
  unfold val_main_v97
  exact concatenate_apply_piece _ _ _ (ix2 e q) 0 (by show (0 : Nat) < 3; omega) S160000x32 _ rfl rfl 0 rfl
    (ix2 e (⟨q.val, h⟩ : Fin 32)) (fun b => match b with
      | ⟨0, _⟩ => fun _ => rfl
      | ⟨1, _⟩ => fun hb => absurd (Fin.ext rfl) hb) (Nat.zero_add _)

/-- A column from 32 to 127 of the features is the vector block's. -/
theorem feat_mid (x0 : (⟨S2x160000, .i32⟩ : BufTy).Contents (Elt Ideal)) (x2 : (⟨S160000x9, .f32⟩ : BufTy).Contents (Elt Ideal)) (x3 : (⟨S160000, .f32⟩ : BufTy).Contents (Elt Ideal)) (x4 : (⟨S10000x4, .f32⟩ : BufTy).Contents (Elt Ideal)) (x5 : (⟨S8, .f32⟩ : BufTy).Contents (Elt Ideal)) (x6 : (⟨S16x128, .f32⟩ : BufTy).Contents (Elt Ideal)) (x7 : (⟨S128x256, .f32⟩ : BufTy).Contents (Elt Ideal)) (x8 : (⟨S256x512, .f32⟩ : BufTy).Contents (Elt Ideal)) (x9 : (⟨S512x1024, .f32⟩ : BufTy).Contents (Elt Ideal)) (x10 : (⟨S1024x96, .f32⟩ : BufTy).Contents (Elt Ideal)) (e : Fin 160000) (q : Fin 288) (h : ¬ q.val < 32) (h2 : q.val < 128) :
    val_main_v97 (F := Ideal) x0 x2 x3 x4 x5 x6 x7 x8 x9 x10 (ix2 e q) = val_main_v88 (F := Ideal) x0 x2 x3 x4 x5 x6 x7 x8 x9 x10 (ix2 e (⟨q.val - 32, by omega⟩ : Fin 96)) := by
  unfold val_main_v97
  exact concatenate_apply_piece _ _ _ (ix2 e q) 1 (by show (1 : Nat) < 3; omega) S160000x96 _ rfl rfl 32 rfl
    (ix2 e (⟨q.val - 32, by omega⟩ : Fin 96)) (fun b => match b with
      | ⟨0, _⟩ => fun _ => rfl
      | ⟨1, _⟩ => fun hb => absurd (Fin.ext rfl) hb) (by show 32 + (q.val - 32) = q.val; omega)

/-- A column from 128 on of the features is the rank-two block's. -/
theorem feat_hi (x0 : (⟨S2x160000, .i32⟩ : BufTy).Contents (Elt Ideal)) (x2 : (⟨S160000x9, .f32⟩ : BufTy).Contents (Elt Ideal)) (x3 : (⟨S160000, .f32⟩ : BufTy).Contents (Elt Ideal)) (x4 : (⟨S10000x4, .f32⟩ : BufTy).Contents (Elt Ideal)) (x5 : (⟨S8, .f32⟩ : BufTy).Contents (Elt Ideal)) (x6 : (⟨S16x128, .f32⟩ : BufTy).Contents (Elt Ideal)) (x7 : (⟨S128x256, .f32⟩ : BufTy).Contents (Elt Ideal)) (x8 : (⟨S256x512, .f32⟩ : BufTy).Contents (Elt Ideal)) (x9 : (⟨S512x1024, .f32⟩ : BufTy).Contents (Elt Ideal)) (x10 : (⟨S1024x96, .f32⟩ : BufTy).Contents (Elt Ideal)) (e : Fin 160000) (q : Fin 288) (h2 : ¬ q.val < 128) :
    val_main_v97 (F := Ideal) x0 x2 x3 x4 x5 x6 x7 x8 x9 x10 (ix2 e q) = val_main_v96 (F := Ideal) x0 x2 x3 x4 x5 x6 x7 x8 x9 x10 (ix2 e (⟨q.val - 128, by omega⟩ : Fin 160)) := by
  unfold val_main_v97
  exact concatenate_apply_piece _ _ _ (ix2 e q) 2 (by show (2 : Nat) < 3; omega) S160000x160 _ rfl rfl 128 rfl
    (ix2 e (⟨q.val - 128, by omega⟩ : Fin 160)) (fun b => match b with
      | ⟨0, _⟩ => fun _ => rfl
      | ⟨1, _⟩ => fun hb => absurd (Fin.ext rfl) hb) (by show 128 + (q.val - 128) = q.val; omega)

/-- The reference's features of edge `e`: the weighted harmonics of its mixing weights and its nine
    harmonic components. -/
theorem ref_features (x0 : (⟨S2x160000, .i32⟩ : BufTy).Contents (Elt Ideal)) (x2 : (⟨S160000x9, .f32⟩ : BufTy).Contents (Elt Ideal)) (x3 : (⟨S160000, .f32⟩ : BufTy).Contents (Elt Ideal)) (x4 : (⟨S10000x4, .f32⟩ : BufTy).Contents (Elt Ideal)) (x5 : (⟨S8, .f32⟩ : BufTy).Contents (Elt Ideal)) (x6 : (⟨S16x128, .f32⟩ : BufTy).Contents (Elt Ideal)) (x7 : (⟨S128x256, .f32⟩ : BufTy).Contents (Elt Ideal)) (x8 : (⟨S256x512, .f32⟩ : BufTy).Contents (Elt Ideal)) (x9 : (⟨S512x1024, .f32⟩ : BufTy).Contents (Elt Ideal)) (x10 : (⟨S1024x96, .f32⟩ : BufTy).Contents (Elt Ideal))
    (e : Fin 160000) (q : Fin 288) :
    val_main_v97 (F := Ideal) x0 x2 x3 x4 x5 x6 x7 x8 x9 x10 (ix2 e q)
      = EdgeSpec.tensor (EdgeSpec.mix (EdgeSpec.hidden (refRow x0 x3 x4 x5 e) (fun k j => x6 (ix2 k j))
          (fun k j => x7 (ix2 k j)) (fun k j => x8 (ix2 k j)) (fun k j => x9 (ix2 k j))) (fun k j => x10 (ix2 k j)))
          (fun k => x2 (ix2 e k)) q := by
  unfold EdgeSpec.tensor
  by_cases h : q.val < 32
  · rw [dif_pos h, feat_lo x0 x2 x3 x4 x5 x6 x7 x8 x9 x10 e q h, block0_at, mix_at]
  · rw [dif_neg h]
    by_cases h2 : q.val < 128
    · rw [dif_pos h2, feat_mid x0 x2 x3 x4 x5 x6 x7 x8 x9 x10 e q h h2, block1_at, mix_at]
    · rw [dif_neg h2, feat_hi x0 x2 x3 x4 x5 x6 x7 x8 x9 x10 e q h2, block2_at, mix_at]

end Cert.RefRows

end
-- ==== Proof.lean ====
/-
  Kernel and reference compute one function.

  Both programs, read on the extended reals, compute for every edge the same row functions of the same rows:
  the envelope of the edge's length, the four dense layers on the edge's sixteen inputs (its end points' one-hot
  rows and the radial basis of its length) scaled by the envelope, and the harmonics weighted by a fifth dense
  layer. The kernel takes 1000 edges per grid point and spells the envelope's powers as products; the
  reference takes all edges at once and spells them as real powers, which is the same number at every finite
  length — the one place the precondition is used. The gathers of the one-hot rows are the same host
  operations in both programs and are compared as whole arrays, never opened.
-/
import proofs.«107756_j46729244181055_1_alg».proof.Defs
import proofs.«107756_j46729244181055_1_alg».proof.Proof.Gen.Kernel
import proofs.«107756_j46729244181055_1_alg».proof.Proof.Gen.Kernel.Frame
import proofs.«107756_j46729244181055_1_alg».proof.Proof.Gen.KernelIdeal
import proofs.«107756_j46729244181055_1_alg».proof.Proof.Gen.KernelIdeal.Frame
import proofs.«107756_j46729244181055_1_alg».proof.Proof.Gen.ReferenceIdeal
import proofs.«107756_j46729244181055_1_alg».proof.Proof.RefRead
import proofs.«107756_j46729244181055_1_alg».proof.Proof.RefOps
import proofs.«107756_j46729244181055_1_alg».proof.Proof.RefRun
import proofs.«107756_j46729244181055_1_alg».proof.Proof.RefArgs
import proofs.«107756_j46729244181055_1_alg».proof.Proof.RefWhole
import proofs.«107756_j46729244181055_1_alg».proof.Proof.Gen.Pre_finite_inputs
import proofs.«107756_j46729244181055_1_alg».proof.Proof.EdgeSpec
import proofs.«107756_j46729244181055_1_alg».proof.Proof.FiniteLengths
import proofs.«107756_j46729244181055_1_alg».proof.Proof.KernelHost
import proofs.«107756_j46729244181055_1_alg».proof.Proof.KernelBlocks
import proofs.«107756_j46729244181055_1_alg».proof.Proof.KernelRun
import proofs.«107756_j46729244181055_1_alg».proof.Proof.RefRows
import Idealize.ShloMosaic.Adequacy
import Idealize.ShloMosaic.Init

noncomputable section

open Idealize.ShloMosaic Idealize.ShloMosaic.TcCoe Idealize.SL.Sem Idealize.ShloMosaic.ValueIdx

namespace Cert.Bridge

open Cert.KernelIdeal Cert.KernelIdeal.Gen

/-- The centres' one-hot rows: the kernel's host lines and the reference's are the same operations. -/
theorem centres_eq (a0 : IVec S2x160000 32) (a4 : FVec Ideal S10000x4 .f32) :
    KernelHost.centres a0 a4 = Cert.ReferenceIdeal.Read.val_main_v44 (F := Ideal) a0 a4 := rfl

/-- The neighbours' one-hot rows, likewise. -/
theorem neighbours_eq (a0 : IVec S2x160000 32) (a4 : FVec Ideal S10000x4 .f32) :
    KernelHost.neighbours a0 a4 = Cert.ReferenceIdeal.Read.val_main_v51 (F := Ideal) a0 a4 := rfl

variable (m : (ℓ : Loc nD τ sig) → Buf (Elt Ideal) ℓ)

/-- The sixteen inputs of edge `e`: the kernel's operand arrays give what the reference joins. -/
theorem rowInputs_eq (c : Dev nD) (e : Fin 160000) :
    KernelBlocks.rowInputs (V m c main_v18) (V m c main_v19) (V m c main_v20) e
      = RefRows.refRow (m ((c : Thread nD τ).loc main_arg0)) (m ((c : Thread nD τ).loc main_arg3))
          (m ((c : Thread nD τ).loc main_arg4)) (m ((c : Thread nD τ).loc main_arg5)) e := by
  have h1 : (fun a : Fin 4 => (V m c main_v18 : Vec Ideal S160000x8 .f32) (ix2 e (⟨a.val, by have := a.isLt; omega⟩ : Fin 8)))
      = fun k => Cert.ReferenceIdeal.Read.val_main_v44 (F := Ideal) (m ((c : Thread nD τ).loc main_arg0))
          (m ((c : Thread nD τ).loc main_arg4)) (ix2 e k) :=
    funext fun a => (KernelHost.nodes_lo m c e a).trans (congrFun (centres_eq _ _) _)
  have h2 : (fun a : Fin 4 => (V m c main_v18 : Vec Ideal S160000x8 .f32) (ix2 e (⟨a.val + 4, by have := a.isLt; omega⟩ : Fin 8)))
      = fun k => Cert.ReferenceIdeal.Read.val_main_v51 (F := Ideal) (m ((c : Thread nD τ).loc main_arg0))
          (m ((c : Thread nD τ).loc main_arg4)) (ix2 e k) :=
    funext fun a => (KernelHost.nodes_hi m c e a).trans (congrFun (neighbours_eq _ _) _)
  have h3 : (fun a : Fin 8 => (V m c main_v20 : Vec Ideal S1x8 .f32) (ix2 (0 : Fin 1) a))
      = fun k => (m ((c : Thread nD τ).loc main_arg5) : Vec Ideal S8 .f32) (ix1 k) :=
    funext fun a => KernelHost.freqs_at m c a
  have h := congr (congr (congr (congrArg EdgeSpec.joined h1) h2) h3) (KernelHost.lengths_at m c e)
  exact h

/-- The envelope of edge `e`, products against powers: equal because the length is a real number. -/
theorem envelope_eq (c : Dev nD) (e : Fin 160000)
    (hfin : ∃ ρ : ℝ, (m ((c : Thread nD τ).loc main_arg3) : Vec Ideal S160000 .f32) (ix1 e) = (ρ : EReal)) :
    EdgeSpec.envMul ((V m c main_v19 : Vec Ideal S160000x1 .f32) (ix2 e (0 : Fin 1)))
      = EdgeSpec.envPow ((m ((c : Thread nD τ).loc main_arg3) : Vec Ideal S160000 .f32) (ix1 e)) := by
  obtain ⟨ρ, hρ⟩ := hfin
  rw [KernelHost.lengths_at, hρ, EdgeSpec.envMul_eq_envPow]

end Cert.Bridge

namespace Cert.Proof

open Cert.KernelIdeal Cert.KernelIdeal.Gen

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2.2) (Cert.RefRun.run (F := Ideal) m ρ)

/-- The idealization rewrote nothing. -/
theorem preserves : Cert.preserves_Kernel_KernelIdeal := trivial

/-- Both programs end with equal results: each of the kernel's three result arrays is, edge by edge, the
    reference's. -/
theorem algebraic : Cert.algebraic_KernelIdeal_ReferenceIdeal := by
  intro m ρ m' ρ' hpre hagree
  refine ⟨_, _, _, Cert.KernelRun.run m ρ, ?_⟩
  refine (θ_run Cert.ReferenceIdeal.defs _ _).mono (fun _ h c => ?_) (Cert.RefRun.run (F := Ideal) m' ρ')
  obtain ⟨h70, h97, h37, hargs⟩ := h c
  obtain ⟨g0, g1, g2, g3, g4, g5, g6, g7, g8, g9, g10⟩ := hagree c
  have hfin : ∀ e : Fin 160000, ∃ ρ : ℝ, (m ((c : Thread nD τ).loc main_arg3) : Vec Ideal S160000 .f32) (ix1 e) = (ρ : EReal) :=
    fun e => Cert.FiniteLengths.lengths_real _ _ _ _ _ _ _ _ _ _ _ (hpre c) (ix1 e)
  refine ⟨h70.trans ?_, h97.trans ?_, h37.trans ?_, hargs⟩
  · rw [g0, g3, g4, g5, g6, g7, g8, g9]
    funext i
    obtain ⟨e, q, rfl⟩ : ∃ (e : Fin 160000) (q : Fin 1024), i = ix2 e q := ⟨i 0, i 1, eq_ix2 i⟩
    rw [Cert.RefRows.ref_latents]
    show _ = EdgeSpec.envMul ((V m c main_v19 : Vec Ideal S160000x1 .f32) (ix2 e (0 : Fin 1)))
      * EdgeSpec.hidden (KernelBlocks.rowInputs (V m c main_v18) (V m c main_v19) (V m c main_v20) e)
          (fun k j => (V m c main_arg6 : Vec Ideal S16x128 .f32) (ix2 k j)) (fun k j => (V m c main_arg7 : Vec Ideal S128x256 .f32) (ix2 k j))
          (fun k j => (V m c main_arg8 : Vec Ideal S256x512 .f32) (ix2 k j)) (fun k j => (V m c main_arg9 : Vec Ideal S512x1024 .f32) (ix2 k j)) q
    rw [Cert.Bridge.envelope_eq m c e (hfin e), Cert.Bridge.rowInputs_eq, V_main_arg6, V_main_arg7, V_main_arg8, V_main_arg9]
  · rw [g0, g2, g3, g4, g5, g6, g7, g8, g9, g10]
    funext i
    obtain ⟨e, q, rfl⟩ : ∃ (e : Fin 160000) (q : Fin 288), i = ix2 e q := ⟨i 0, i 1, eq_ix2 i⟩
    rw [Cert.RefRows.ref_features]
    show _ = EdgeSpec.tensor (EdgeSpec.mix (EdgeSpec.hidden (KernelBlocks.rowInputs (V m c main_v18) (V m c main_v19) (V m c main_v20) e)
          (fun k j => (V m c main_arg6 : Vec Ideal S16x128 .f32) (ix2 k j)) (fun k j => (V m c main_arg7 : Vec Ideal S128x256 .f32) (ix2 k j))
          (fun k j => (V m c main_arg8 : Vec Ideal S256x512 .f32) (ix2 k j)) (fun k j => (V m c main_arg9 : Vec Ideal S512x1024 .f32) (ix2 k j)))
          (fun k j => (V m c main_arg10 : Vec Ideal S1024x96 .f32) (ix2 k j)))
        (fun k => (V m c main_arg2 : Vec Ideal S160000x9 .f32) (ix2 e k)) q
    rw [Cert.Bridge.rowInputs_eq, V_main_arg2, V_main_arg6, V_main_arg7, V_main_arg8, V_main_arg9, V_main_arg10]
  · rw [g3]
    funext i
    obtain ⟨e, rfl⟩ : ∃ e : Fin 160000, i = ix1 e := ⟨i 0, eq_ix1 i⟩
    rw [Cert.RefRows.ref_cutoff, Cert.KernelHost.column_at]
    exact (Cert.Bridge.envelope_eq m c e (hfin e)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
